-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x300 : Shape := ⟨2, ![100000, 300]⟩
abbrev S500000 : Shape := ⟨1, ![500000]⟩
abbrev S256x128 : Shape := ⟨2, ![256, 128]⟩
abbrev S128 : Shape := ⟨1, ![128]⟩
abbrev S300x128 : Shape := ⟨2, ![300, 128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x300 : S_.BroadcastsInDim S100000x300 (![] : Fin 0 → Fin S100000x300.rank)
  reducesTo_S100000x300_S_d0_1 : S100000x300.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S300x128 : S_.BroadcastsInDim S300x128 (![] : Fin 0 → Fin S300x128.rank)
  reducesTo_S300x128_S_d0_1 : S300x128.ReducesTo [0, 1] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg27 : FVec F S128 .f32) (main_arg28 : FVec F S128x128 .f32) (main_arg29 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg27
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg28
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg29
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg24 : FVec F S128x128 .f32) (main_arg25 : FVec F S128 .f32) (main_arg26 : FVec F S128x128 .f32) (main_arg27 : FVec F S128 .f32) (main_arg28 : FVec F S128x128 .f32) (main_arg29 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg24
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg26
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg27 main_arg28 main_arg29 main_v98 main_v101 main_c_39

def fn_part4 {F : FTy → Type} [FloatOps F] (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg23
  let main_cst_32 : FVec F S_ .f32 := constant S_ .f32 0x7F800000#32
  fn_part5 (F := F) main_arg24 main_arg25 main_arg26 main_arg27 main_arg28 main_arg29 main_v83 main_v84 main_cst_32

def fn_part3 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_arg22 main_arg23 main_arg24 main_arg25 main_arg26 main_arg27 main_arg28 main_arg29 main_v63 main_v67

def fn_part2 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_arg20 main_arg21 main_arg22 main_arg23 main_arg24 main_arg25 main_arg26 main_arg27 main_arg28 main_arg29 main_v48 main_v49 main_v50

def fn_part1 {F : FTy → Type} [FloatOps F] (main_arg10 : FVec F S300x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S300x128 .f32 := Host.absf main_arg10
  let main_cst_6 : FVec F S_ .f32 := constant S_ .f32 0x7F800000#32
  let main_v20 : FVec F S300x128 .f32 := broadcastInDim S300x128 ![] bcast_S_S300x128 main_cst_6
  let main_v21 : IVec S300x128 1 := cmpf .olt main_v19 main_v20
  let main_c_7 : IVec S_ 1 := constantI S_ 1 1#1
  let main_v22 : IVec S_ 1 := (fun x v => Host.reduce IntOp.andi x v reducesTo_S300x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x256 .f32) (main_arg1 : FVec F S100000x300 .f32) (main_arg2 : IVec S500000 32) (main_arg3 : IVec S500000 32) (main_arg4 : IVec S500000 32) (main_arg5 : IVec S500000 32) (main_arg6 : IVec S500000 32) (main_arg7 : IVec S500000 32) (main_arg8 : FVec F S256x128 .f32) (main_arg9 : FVec F S128 .f32) (main_arg10 : FVec F S300x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x300 .f32 := Host.absf main_arg1
  let main_cst_0 : FVec F S_ .f32 := constant S_ .f32 0x7F800000#32
  let main_v5 : FVec F S100000x300 .f32 := broadcastInDim S100000x300 ![] bcast_S_S100000x300 main_cst_0
  let main_v6 : IVec S100000x300 1 := cmpf .olt main_v4 main_v5
  let main_c_1 : IVec S_ 1 := constantI S_ 1 1#1
  let main_v7 : IVec S_ 1 := (fun x v => Host.reduce IntOp.andi x v reducesTo_S100000x300_S_d0_1 h_S_) main_v6 main_c_1
  let main_v8 : IVec S_ 1 := andi main_v3 main_v7
  let main_v9 : FVec F S256x128 .f32 := Host.absf main_arg8
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x256 : Shape := ⟨2, ![100000, 256]⟩
abbrev S100000x300 : Shape := ⟨2, ![100000, 300]⟩
abbrev S500000 : Shape := ⟨1, ![500000]⟩
abbrev S256x128 : Shape := ⟨2, ![256, 128]⟩
abbrev S128 : Shape := ⟨1, ![128]⟩
abbrev S300x128 : Shape := ⟨2, ![300, 128]⟩
abbrev S128x128 : Shape := ⟨2, ![128, 128]⟩
abbrev S_ : Shape := ⟨0, ![]⟩
abbrev S100000 : Shape := ⟨1, ![100000]⟩
abbrev S500000x1 : Shape := ⟨2, ![500000, 1]⟩
abbrev S1x128 : Shape := ⟨2, ![1, 128]⟩
abbrev S100000x128 : Shape := ⟨2, ![100000, 128]⟩
abbrev S100000x1 : Shape := ⟨2, ![100000, 1]⟩
abbrev S500000x128 : Shape := ⟨2, ![500000, 128]⟩
abbrev S5000x256 : Shape := ⟨2, ![5000, 256]⟩
abbrev S5000x128 : Shape := ⟨2, ![5000, 128]⟩
abbrev S5000x300 : Shape := ⟨2, ![5000, 300]⟩
abbrev S5000x1 : Shape := ⟨2, ![5000, 1]⟩

abbrev nBuf : Space → Nat
  | .hbm => 259
  | .vmem => 132
  | .smem => 0
  | _ => 0

abbrev hbmTy0_0 (i : Nat) : BufTy := match i % 128 with
  | 0 => ⟨S100000x256, .f32⟩
  | 1 => ⟨S100000x300, .f32⟩
  | 2 => ⟨S500000, .i32⟩
  | 3 => ⟨S500000, .i32⟩
  | 4 => ⟨S500000, .i32⟩
  | 5 => ⟨S500000, .i32⟩
  | 6 => ⟨S500000, .i32⟩
  | 7 => ⟨S500000, .i32⟩
  | 8 => ⟨S256x128, .f32⟩
  | 9 => ⟨S128, .f32⟩
  | 10 => ⟨S300x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S_, .f32⟩
  | 31 => ⟨S500000, .f32⟩
  | 32 => ⟨S_, .f32⟩
  | 33 => ⟨S100000, .f32⟩
  | 34 => ⟨S500000x1, .i32⟩
  | 35 => ⟨S100000, .f32⟩
  | 36 => ⟨S_, .f32⟩
  | 37 => ⟨S_, .f32⟩
  | 38 => ⟨S100000, .f32⟩
  | 39 => ⟨S100000, .f32⟩
  | 40 => ⟨S100000, .f32⟩
  | 41 => ⟨S_, .f32⟩
  | 42 => ⟨S500000, .f32⟩
  | 43 => ⟨S_, .f32⟩
  | 44 => ⟨S100000, .f32⟩
  | 45 => ⟨S500000x1, .i32⟩
  | 46 => ⟨S100000, .f32⟩
  | 47 => ⟨S_, .f32⟩
  | 48 => ⟨S_, .f32⟩
  | 49 => ⟨S100000, .f32⟩
  | 50 => ⟨S100000, .f32⟩
  | 51 => ⟨S100000, .f32⟩
  | 52 => ⟨S_, .f32⟩
  | 53 => ⟨S500000, .f32⟩
  | 54 => ⟨S_, .f32⟩
  | 55 => ⟨S100000, .f32⟩
  | 56 => ⟨S500000x1, .i32⟩
  | 57 => ⟨S100000, .f32⟩
  | 58 => ⟨S_, .f32⟩
  | 59 => ⟨S_, .f32⟩
  | 60 => ⟨S100000, .f32⟩
  | 61 => ⟨S100000, .f32⟩
  | 62 => ⟨S100000, .f32⟩
  | 63 => ⟨S_, .f32⟩
  | 64 => ⟨S500000, .f32⟩
  | 65 => ⟨S_, .f32⟩
  | 66 => ⟨S100000, .f32⟩
  | 67 => ⟨S500000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000, .f32⟩
  | 74 => ⟨S_, .f32⟩
  | 75 => ⟨S500000, .f32⟩
  | 76 => ⟨S_, .f32⟩
  | 77 => ⟨S100000, .f32⟩
  | 78 => ⟨S500000x1, .i32⟩
  | 79 => ⟨S100000, .f32⟩
  | 80 => ⟨S_, .f32⟩
  | 81 => ⟨S_, .f32⟩
  | 82 => ⟨S100000, .f32⟩
  | 83 => ⟨S100000, .f32⟩
  | 84 => ⟨S100000, .f32⟩
  | 85 => ⟨S_, .f32⟩
  | 86 => ⟨S500000, .f32⟩
  | 87 => ⟨S_, .f32⟩
  | 88 => ⟨S100000, .f32⟩
  | 89 => ⟨S500000x1, .i32⟩
  | 90 => ⟨S100000, .f32⟩
  | 91 => ⟨S_, .f32⟩
  | 92 => ⟨S_, .f32⟩
  | 93 => ⟨S100000, .f32⟩
  | 94 => ⟨S100000, .f32⟩
  | 95 => ⟨S100000, .f32⟩
  | 96 => ⟨S1x128, .f32⟩
  | 97 => ⟨S100000x128, .f32⟩
  | 98 => ⟨S1x128, .f32⟩
  | 99 => ⟨S100000x128, .f32⟩
  | 100 => ⟨S100000x1, .f32⟩
  | 101 => ⟨S100000x128, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S_, .f32⟩
  | 112 => ⟨S100000x128, .f32⟩
  | 113 => ⟨S500000x1, .i32⟩
  | 114 => ⟨S100000x128, .f32⟩
  | 115 => ⟨S100000x1, .f32⟩
  | 116 => ⟨S100000x128, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S_, .f32⟩
  | 127 => ⟨S100000x128, .f32⟩
  | _ => ⟨S100000x256, .f32⟩

abbrev hbmTy0_1 (i : Nat) : BufTy := match i % 128 with
  | 0 => ⟨S500000x1, .i32⟩
  | 1 => ⟨S100000x128, .f32⟩
  | 2 => ⟨S100000x1, .f32⟩
  | 3 => ⟨S100000x1, .f32⟩
  | 4 => ⟨S1x128, .f32⟩
  | 5 => ⟨S1x128, .f32⟩
  | 6 => ⟨S100000x128, .f32⟩
  | 7 => ⟨S100000x1, .f32⟩
  | 8 => ⟨S100000x128, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S_, .f32⟩
  | 19 => ⟨S100000x128, .f32⟩
  | 20 => ⟨S500000x1, .i32⟩
  | 21 => ⟨S100000x128, .f32⟩
  | 22 => ⟨S100000x1, .f32⟩
  | 23 => ⟨S1x128, .f32⟩
  | 24 => ⟨S100000x128, .f32⟩
  | 25 => ⟨S100000x1, .f32⟩
  | 26 => ⟨S100000x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S100000x128, .f32⟩
  | 38 => ⟨S500000x1, .i32⟩
  | 39 => ⟨S100000x128, .f32⟩
  | 40 => ⟨S100000x1, .f32⟩
  | 41 => ⟨S100000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S100000x128, .f32⟩
  | 53 => ⟨S500000x1, .i32⟩
  | 54 => ⟨S100000x128, .f32⟩
  | 55 => ⟨S100000x1, .f32⟩
  | 56 => ⟨S100000x1, .f32⟩
  | 57 => ⟨S1x128, .f32⟩
  | 58 => ⟨S1x128, .f32⟩
  | 59 => ⟨S100000x128, .f32⟩
  | 60 => ⟨S100000x1, .f32⟩
  | 61 => ⟨S100000x128, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .f32⟩
  | 72 => ⟨S100000x128, .f32⟩
  | 73 => ⟨S500000x1, .i32⟩
  | 74 => ⟨S100000x128, .f32⟩
  | 75 => ⟨S100000x1, .f32⟩
  | 76 => ⟨S1x128, .f32⟩
  | 77 => ⟨S100000x128, .f32⟩
  | 78 => ⟨S100000x1, .f32⟩
  | 79 => ⟨S100000x128, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x128, .f32⟩
  | 89 => ⟨S_, .f32⟩
  | 90 => ⟨S100000x128, .f32⟩
  | 91 => ⟨S500000x1, .i32⟩
  | 92 => ⟨S100000x128, .f32⟩
  | 93 => ⟨S100000x1, .f32⟩
  | 94 => ⟨S100000x128, .f32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x128, .f32⟩
  | 104 => ⟨S_, .f32⟩
  | 105 => ⟨S100000x128, .f32⟩
  | 106 => ⟨S500000x1, .i32⟩
  | 107 => ⟨S100000x128, .f32⟩
  | 108 => ⟨S100000x1, .f32⟩
  | 109 => ⟨S100000x1, .f32⟩
  | 110 => ⟨S1x128, .f32⟩
  | 111 => ⟨S1x128, .f32⟩
  | 112 => ⟨S100000x128, .f32⟩
  | 113 => ⟨S100000x1, .f32⟩
  | 114 => ⟨S100000x128, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x128, .f32⟩
  | 124 => ⟨S_, .f32⟩
  | 125 => ⟨S100000x128, .f32⟩
  | 126 => ⟨S500000x1, .i32⟩
  | 127 => ⟨S100000x128, .f32⟩
  | _ => ⟨S100000x256, .f32⟩

abbrev hbmTy0_2 (i : Nat) : BufTy := match i % 128 with
  | 0 => ⟨S100000x1, .f32⟩
  | 1 => ⟨S1x128, .f32⟩
  | 2 => ⟨S100000x128, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev vmemTy0_0 (i : Nat) : BufTy := match i % 128 with
  | 0 => ⟨S5000x256, .f32⟩
  | 1 => ⟨S5000x256, .f32⟩
  | 2 => ⟨S256x128, .f32⟩
  | 3 => ⟨S1x128, .f32⟩
  | 4 => ⟨S5000x128, .f32⟩
  | 5 => ⟨S5000x128, .f32⟩
  | 6 => ⟨S5000x300, .f32⟩
  | 7 => ⟨S5000x300, .f32⟩
  | 8 => ⟨S300x128, .f32⟩
  | 9 => ⟨S1x128, .f32⟩
  | 10 => ⟨S5000x128, .f32⟩
  | 11 => ⟨S5000x128, .f32⟩
  | 12 => ⟨S5000x128, .f32⟩
  | 13 => ⟨S5000x128, .f32⟩
  | 14 => ⟨S5000x1, .f32⟩
  | 15 => ⟨S5000x1, .f32⟩
  | 16 => ⟨S128x128, .f32⟩
  | 17 => ⟨S5000x128, .f32⟩
  | 18 => ⟨S5000x128, .f32⟩
  | 19 => ⟨S5000x128, .f32⟩
  | 20 => ⟨S5000x128, .f32⟩
  | 21 => ⟨S5000x1, .f32⟩
  | 22 => ⟨S5000x1, .f32⟩
  | 23 => ⟨S128x128, .f32⟩
  | 24 => ⟨S5000x128, .f32⟩
  | 25 => ⟨S5000x128, .f32⟩
  | 26 => ⟨S5000x128, .f32⟩
  | 27 => ⟨S5000x128, .f32⟩
  | 28 => ⟨S5000x1, .f32⟩
  | 29 => ⟨S5000x1, .f32⟩
  | 30 => ⟨S1x128, .f32⟩
  | 31 => ⟨S5000x128, .f32⟩
  | 32 => ⟨S5000x128, .f32⟩
  | 33 => ⟨S5000x1, .f32⟩
  | 34 => ⟨S5000x1, .f32⟩
  | 35 => ⟨S1x128, .f32⟩
  | 36 => ⟨S5000x128, .f32⟩
  | 37 => ⟨S5000x128, .f32⟩
  | 38 => ⟨S5000x128, .f32⟩
  | 39 => ⟨S5000x128, .f32⟩
  | 40 => ⟨S5000x1, .f32⟩
  | 41 => ⟨S5000x1, .f32⟩
  | 42 => ⟨S128x128, .f32⟩
  | 43 => ⟨S5000x128, .f32⟩
  | 44 => ⟨S5000x128, .f32⟩
  | 45 => ⟨S5000x128, .f32⟩
  | 46 => ⟨S5000x128, .f32⟩
  | 47 => ⟨S5000x1, .f32⟩
  | 48 => ⟨S5000x1, .f32⟩
  | 49 => ⟨S1x128, .f32⟩
  | 50 => ⟨S5000x128, .f32⟩
  | 51 => ⟨S5000x128, .f32⟩
  | 52 => ⟨S5000x128, .f32⟩
  | 53 => ⟨S5000x128, .f32⟩
  | 54 => ⟨S5000x1, .f32⟩
  | 55 => ⟨S5000x1, .f32⟩
  | 56 => ⟨S128x128, .f32⟩
  | 57 => ⟨S5000x128, .f32⟩
  | 58 => ⟨S5000x128, .f32⟩
  | 59 => ⟨S5000x128, .f32⟩
  | 60 => ⟨S5000x128, .f32⟩
  | 61 => ⟨S5000x1, .f32⟩
  | 62 => ⟨S5000x1, .f32⟩
  | 63 => ⟨S128x128, .f32⟩
  | 64 => ⟨S5000x128, .f32⟩
  | 65 => ⟨S5000x128, .f32⟩
  | 66 => ⟨S5000x128, .f32⟩
  | 67 => ⟨S5000x128, .f32⟩
  | 68 => ⟨S5000x1, .f32⟩
  | 69 => ⟨S5000x1, .f32⟩
  | 70 => ⟨S1x128, .f32⟩
  | 71 => ⟨S5000x128, .f32⟩
  | 72 => ⟨S5000x128, .f32⟩
  | 73 => ⟨S5000x1, .f32⟩
  | 74 => ⟨S5000x1, .f32⟩
  | 75 => ⟨S1x128, .f32⟩
  | 76 => ⟨S5000x128, .f32⟩
  | 77 => ⟨S5000x128, .f32⟩
  | 78 => ⟨S5000x128, .f32⟩
  | 79 => ⟨S5000x128, .f32⟩
  | 80 => ⟨S5000x1, .f32⟩
  | 81 => ⟨S5000x1, .f32⟩
  | 82 => ⟨S128x128, .f32⟩
  | 83 => ⟨S5000x128, .f32⟩
  | 84 => ⟨S5000x128, .f32⟩
  | 85 => ⟨S5000x128, .f32⟩
  | 86 => ⟨S5000x128, .f32⟩
  | 87 => ⟨S5000x1, .f32⟩
  | 88 => ⟨S5000x1, .f32⟩
  | 89 => ⟨S1x128, .f32⟩
  | 90 => ⟨S5000x128, .f32⟩
  | 91 => ⟨S5000x128, .f32⟩
  | 92 => ⟨S5000x128, .f32⟩
  | 93 => ⟨S5000x128, .f32⟩
  | 94 => ⟨S5000x1, .f32⟩
  | 95 => ⟨S5000x1, .f32⟩
  | 96 => ⟨S128x128, .f32⟩
  | 97 => ⟨S5000x128, .f32⟩
  | 98 => ⟨S5000x128, .f32⟩
  | 99 => ⟨S5000x128, .f32⟩
  | 100 => ⟨S5000x128, .f32⟩
  | 101 => ⟨S5000x1, .f32⟩
  | 102 => ⟨S5000x1, .f32⟩
  | 103 => ⟨S128x128, .f32⟩
  | 104 => ⟨S5000x128, .f32⟩
  | 105 => ⟨S5000x128, .f32⟩
  | 106 => ⟨S5000x128, .f32⟩
  | 107 => ⟨S5000x128, .f32⟩
  | 108 => ⟨S5000x1, .f32⟩
  | 109 => ⟨S5000x1, .f32⟩
  | 110 => ⟨S1x128, .f32⟩
  | 111 => ⟨S5000x128, .f32⟩
  | 112 => ⟨S5000x128, .f32⟩
  | 113 => ⟨S5000x1, .f32⟩
  | 114 => ⟨S5000x1, .f32⟩
  | 115 => ⟨S1x128, .f32⟩
  | 116 => ⟨S5000x128, .f32⟩
  | 117 => ⟨S5000x128, .f32⟩
  | 118 => ⟨S5000x128, .f32⟩
  | 119 => ⟨S5000x128, .f32⟩
  | 120 => ⟨S5000x1, .f32⟩
  | 121 => ⟨S5000x1, .f32⟩
  | 122 => ⟨S128x128, .f32⟩
  | 123 => ⟨S5000x128, .f32⟩
  | 124 => ⟨S5000x128, .f32⟩
  | 125 => ⟨S5000x128, .f32⟩
  | 126 => ⟨S5000x128, .f32⟩
  | 127 => ⟨S5000x1, .f32⟩
  | _ => ⟨S100000x256, .f32⟩

abbrev vmemTy0_1 (i : Nat) : BufTy := match i % 128 with
  | 0 => ⟨S5000x1, .f32⟩
  | 1 => ⟨S1x128, .f32⟩
  | 2 => ⟨S5000x128, .f32⟩
  | 3 => ⟨S5000x128, .f32⟩
  | _ => ⟨S100000x256, .f32⟩

abbrev vmemTy (i : Nat) : BufTy := match i / 128 with
  | 0 => vmemTy0_0 i
  | 1 => vmemTy0_1 i
  | _ => ⟨S100000x256, .f32⟩

abbrev bufTy : (tb : Table) → Fin (tcTables nBuf tb) → BufTy
  | .hbm, ⟨i, _⟩ => hbmTy i
  | .local _ .vmem, ⟨i, _⟩ => vmemTy i
  | _, _ => ⟨S100000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_cst_1 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_v4 : Ref sig .tc := ⟨.hbm, 39, rfl⟩
abbrev main_call0_v5 : Ref sig .tc := ⟨.hbm, 40, rfl⟩
abbrev main_call0_cst_2 : Ref sig .tc := ⟨.hbm, 41, rfl⟩
abbrev main_call0_v6 : Ref sig .tc := ⟨.hbm, 42, rfl⟩
abbrev main_call0_cst_3 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_cst_4 : Ref sig .tc := ⟨.hbm, 47, rfl⟩
abbrev main_call0_call1_v0 : Ref sig .tc := ⟨.hbm, 48, rfl⟩
abbrev main_call0_call1_v1 : Ref sig .tc := ⟨.hbm, 49, rfl⟩
abbrev main_call0_v10 : Ref sig .tc := ⟨.hbm, 50, rfl⟩
abbrev main_call0_v11 : Ref sig .tc := ⟨.hbm, 51, rfl⟩
abbrev main_call0_cst_5 : Ref sig .tc := ⟨.hbm, 52, rfl⟩
abbrev main_call0_v12 : Ref sig .tc := ⟨.hbm, 53, rfl⟩
abbrev main_call0_cst_6 : Ref sig .tc := ⟨.hbm, 54, rfl⟩
abbrev main_call0_v13 : Ref sig .tc := ⟨.hbm, 55, rfl⟩
abbrev main_call0_v14 : Ref sig .tc := ⟨.hbm, 56, rfl⟩
abbrev main_call0_v15 : Ref sig .tc := ⟨.hbm, 57, rfl⟩
abbrev main_call0_cst_7 : Ref sig .tc := ⟨.hbm, 58, rfl⟩
abbrev main_call0_call2_v0 : Ref sig .tc := ⟨.hbm, 59, rfl⟩
abbrev main_call0_call2_v1 : Ref sig .tc := ⟨.hbm, 60, rfl⟩
abbrev main_call0_v16 : Ref sig .tc := ⟨.hbm, 61, rfl⟩
abbrev main_call0_v17 : Ref sig .tc := ⟨.hbm, 62, rfl⟩
abbrev main_call0_cst_8 : Ref sig .tc := ⟨.hbm, 63, rfl⟩
abbrev main_call0_v18 : Ref sig .tc := ⟨.hbm, 64, rfl⟩
abbrev main_call0_cst_9 : Ref sig .tc := ⟨.hbm, 65, rfl⟩
abbrev main_call0_v19 : Ref sig .tc := ⟨.hbm, 66, rfl⟩
abbrev main_call0_v20 : Ref sig .tc := ⟨.hbm, 67, rfl⟩
abbrev main_call0_v21 : Ref sig .tc := ⟨.hbm, 68, rfl⟩
abbrev main_call0_cst_10 : Ref sig .tc := ⟨.hbm, 69, rfl⟩
abbrev main_call0_call3_v0 : Ref sig .tc := ⟨.hbm, 70, rfl⟩
abbrev main_call0_call3_v1 : Ref sig .tc := ⟨.hbm, 71, rfl⟩
abbrev main_call0_v22 : Ref sig .tc := ⟨.hbm, 72, rfl⟩
abbrev main_call0_v23 : Ref sig .tc := ⟨.hbm, 73, rfl⟩
abbrev main_call0_cst_11 : Ref sig .tc := ⟨.hbm, 74, rfl⟩
abbrev main_call0_v24 : Ref sig .tc := ⟨.hbm, 75, rfl⟩
abbrev main_call0_cst_12 : Ref sig .tc := ⟨.hbm, 76, rfl⟩
abbrev main_call0_v25 : Ref sig .tc := ⟨.hbm, 77, rfl⟩
abbrev main_call0_v26 : Ref sig .tc := ⟨.hbm, 78, rfl⟩
abbrev main_call0_v27 : Ref sig .tc := ⟨.hbm, 79, rfl⟩
abbrev main_call0_cst_13 : Ref sig .tc := ⟨.hbm, 80, rfl⟩
abbrev main_call0_call4_v0 : Ref sig .tc := ⟨.hbm, 81, rfl⟩
abbrev main_call0_call4_v1 : Ref sig .tc := ⟨.hbm, 82, rfl⟩
abbrev main_call0_v28 : Ref sig .tc := ⟨.hbm, 83, rfl⟩
abbrev main_call0_v29 : Ref sig .tc := ⟨.hbm, 84, rfl⟩
abbrev main_call0_cst_14 : Ref sig .tc := ⟨.hbm, 85, rfl⟩
abbrev main_call0_v30 : Ref sig .tc := ⟨.hbm, 86, rfl⟩
abbrev main_call0_cst_15 : Ref sig .tc := ⟨.hbm, 87, rfl⟩
abbrev main_call0_v31 : Ref sig .tc := ⟨.hbm, 88, rfl⟩
abbrev main_call0_v32 : Ref sig .tc := ⟨.hbm, 89, rfl⟩
abbrev main_call0_v33 : Ref sig .tc := ⟨.hbm, 90, rfl⟩
abbrev main_call0_cst_16 : Ref sig .tc := ⟨.hbm, 91, rfl⟩
abbrev main_call0_call5_v0 : Ref sig .tc := ⟨.hbm, 92, rfl⟩
abbrev main_call0_call5_v1 : Ref sig .tc := ⟨.hbm, 93, rfl⟩
abbrev main_call0_v34 : Ref sig .tc := ⟨.hbm, 94, rfl⟩
abbrev main_call0_v35 : Ref sig .tc := ⟨.hbm, 95, rfl⟩
abbrev main_call0_v36 : Ref sig .tc := ⟨.hbm, 96, rfl⟩
abbrev main_call0_v37 : Ref sig .tc := ⟨.hbm, 97, rfl⟩
abbrev main_call0_v38 : Ref sig .tc := ⟨.hbm, 98, rfl⟩
abbrev main_call0_v39 : Ref sig .tc := ⟨.hbm, 99, rfl⟩
abbrev main_call0_v40 : Ref sig .tc := ⟨.hbm, 100, rfl⟩
abbrev main_call0_v41 : Ref sig .tc := ⟨.hbm, 101, rfl⟩
abbrev main_call0_c : Ref sig .tc := ⟨.hbm, 102, rfl⟩
abbrev main_call0_v42 : Ref sig .tc := ⟨.hbm, 103, rfl⟩
abbrev main_call0_v43 : Ref sig .tc := ⟨.hbm, 104, rfl⟩
abbrev main_call0_c_17 : Ref sig .tc := ⟨.hbm, 105, rfl⟩
abbrev main_call0_v44 : Ref sig .tc := ⟨.hbm, 106, rfl⟩
abbrev main_call0_v45 : Ref sig .tc := ⟨.hbm, 107, rfl⟩
abbrev main_call0_v46 : Ref sig .tc := ⟨.hbm, 108, rfl⟩
abbrev main_call0_v47 : Ref sig .tc := ⟨.hbm, 109, rfl⟩
abbrev main_call0_v48 : Ref sig .tc := ⟨.hbm, 110, rfl⟩
abbrev main_call0_cst_18 : Ref sig .tc := ⟨.hbm, 111, rfl⟩
abbrev main_call0_v49 : Ref sig .tc := ⟨.hbm, 112, rfl⟩
abbrev main_call0_v50 : Ref sig .tc := ⟨.hbm, 113, rfl⟩
abbrev main_call0_v51 : Ref sig .tc := ⟨.hbm, 114, rfl⟩
abbrev main_call0_v52 : Ref sig .tc := ⟨.hbm, 115, rfl⟩
abbrev main_call0_v53 : Ref sig .tc := ⟨.hbm, 116, rfl⟩
abbrev main_call0_c_19 : Ref sig .tc := ⟨.hbm, 117, rfl⟩
abbrev main_call0_v54 : Ref sig .tc := ⟨.hbm, 118, rfl⟩
abbrev main_call0_v55 : Ref sig .tc := ⟨.hbm, 119, rfl⟩
abbrev main_call0_c_20 : Ref sig .tc := ⟨.hbm, 120, rfl⟩
abbrev main_call0_v56 : Ref sig .tc := ⟨.hbm, 121, rfl⟩
abbrev main_call0_v57 : Ref sig .tc := ⟨.hbm, 122, rfl⟩
abbrev main_call0_v58 : Ref sig .tc := ⟨.hbm, 123, rfl⟩
abbrev main_call0_v59 : Ref sig .tc := ⟨.hbm, 124, rfl⟩
abbrev main_call0_v60 : Ref sig .tc := ⟨.hbm, 125, rfl⟩
abbrev main_call0_cst_21 : Ref sig .tc := ⟨.hbm, 126, rfl⟩
abbrev main_call0_v61 : Ref sig .tc := ⟨.hbm, 127, rfl⟩
abbrev main_call0_v62 : Ref sig .tc := ⟨.hbm, 128, rfl⟩
abbrev main_call0_v63 : Ref sig .tc := ⟨.hbm, 129, rfl⟩
abbrev main_call0_v64 : Ref sig .tc := ⟨.hbm, 130, rfl⟩
abbrev main_call0_v65 : Ref sig .tc := ⟨.hbm, 131, rfl⟩
abbrev main_call0_v66 : Ref sig .tc := ⟨.hbm, 132, rfl⟩
abbrev main_call0_v67 : Ref sig .tc := ⟨.hbm, 133, rfl⟩
abbrev main_call0_v68 : Ref sig .tc := ⟨.hbm, 134, rfl⟩
abbrev main_call0_v69 : Ref sig .tc := ⟨.hbm, 135, rfl⟩
abbrev main_call0_v70 : Ref sig .tc := ⟨.hbm, 136, rfl⟩
abbrev main_call0_c_22 : Ref sig .tc := ⟨.hbm, 137, rfl⟩
abbrev main_call0_v71 : Ref sig .tc := ⟨.hbm, 138, rfl⟩
abbrev main_call0_v72 : Ref sig .tc := ⟨.hbm, 139, rfl⟩
abbrev main_call0_c_23 : Ref sig .tc := ⟨.hbm, 140, rfl⟩
abbrev main_call0_v73 : Ref sig .tc := ⟨.hbm, 141, rfl⟩
abbrev main_call0_v74 : Ref sig .tc := ⟨.hbm, 142, rfl⟩
abbrev main_call0_v75 : Ref sig .tc := ⟨.hbm, 143, rfl⟩
abbrev main_call0_v76 : Ref sig .tc := ⟨.hbm, 144, rfl⟩
abbrev main_call0_v77 : Ref sig .tc := ⟨.hbm, 145, rfl⟩
abbrev main_call0_cst_24 : Ref sig .tc := ⟨.hbm, 146, rfl⟩
abbrev main_call0_v78 : Ref sig .tc := ⟨.hbm, 147, rfl⟩
abbrev main_call0_v79 : Ref sig .tc := ⟨.hbm, 148, rfl⟩
abbrev main_call0_v80 : Ref sig .tc := ⟨.hbm, 149, rfl⟩
abbrev main_call0_v81 : Ref sig .tc := ⟨.hbm, 150, rfl⟩
abbrev main_call0_v82 : Ref sig .tc := ⟨.hbm, 151, rfl⟩
abbrev main_call0_v83 : Ref sig .tc := ⟨.hbm, 152, rfl⟩
abbrev main_call0_v84 : Ref sig .tc := ⟨.hbm, 153, rfl⟩
abbrev main_call0_v85 : Ref sig .tc := ⟨.hbm, 154, rfl⟩
abbrev main_call0_c_25 : Ref sig .tc := ⟨.hbm, 155, rfl⟩
abbrev main_call0_v86 : Ref sig .tc := ⟨.hbm, 156, rfl⟩
abbrev main_call0_v87 : Ref sig .tc := ⟨.hbm, 157, rfl⟩
abbrev main_call0_c_26 : Ref sig .tc := ⟨.hbm, 158, rfl⟩
abbrev main_call0_v88 : Ref sig .tc := ⟨.hbm, 159, rfl⟩
abbrev main_call0_v89 : Ref sig .tc := ⟨.hbm, 160, rfl⟩
abbrev main_call0_v90 : Ref sig .tc := ⟨.hbm, 161, rfl⟩
abbrev main_call0_v91 : Ref sig .tc := ⟨.hbm, 162, rfl⟩
abbrev main_call0_v92 : Ref sig .tc := ⟨.hbm, 163, rfl⟩
abbrev main_call0_cst_27 : Ref sig .tc := ⟨.hbm, 164, rfl⟩
abbrev main_call0_v93 : Ref sig .tc := ⟨.hbm, 165, rfl⟩
abbrev main_call0_v94 : Ref sig .tc := ⟨.hbm, 166, rfl⟩
abbrev main_call0_v95 : Ref sig .tc := ⟨.hbm, 167, rfl⟩
abbrev main_call0_v96 : Ref sig .tc := ⟨.hbm, 168, rfl⟩
abbrev main_call0_v97 : Ref sig .tc := ⟨.hbm, 169, rfl⟩
abbrev main_call0_c_28 : Ref sig .tc := ⟨.hbm, 170, rfl⟩
abbrev main_call0_v98 : Ref sig .tc := ⟨.hbm, 171, rfl⟩
abbrev main_call0_v99 : Ref sig .tc := ⟨.hbm, 172, rfl⟩
abbrev main_call0_c_29 : Ref sig .tc := ⟨.hbm, 173, rfl⟩
abbrev main_call0_v100 : Ref sig .tc := ⟨.hbm, 174, rfl⟩
abbrev main_call0_v101 : Ref sig .tc := ⟨.hbm, 175, rfl⟩
abbrev main_call0_v102 : Ref sig .tc := ⟨.hbm, 176, rfl⟩
abbrev main_call0_v103 : Ref sig .tc := ⟨.hbm, 177, rfl⟩
abbrev main_call0_v104 : Ref sig .tc := ⟨.hbm, 178, rfl⟩
abbrev main_call0_cst_30 : Ref sig .tc := ⟨.hbm, 179, rfl⟩
abbrev main_call0_v105 : Ref sig .tc := ⟨.hbm, 180, rfl⟩
abbrev main_call0_v106 : Ref sig .tc := ⟨.hbm, 181, rfl⟩
abbrev main_call0_v107 : Ref sig .tc := ⟨.hbm, 182, rfl⟩
abbrev main_call0_v108 : Ref sig .tc := ⟨.hbm, 183, rfl⟩
abbrev main_call0_v109 : Ref sig .tc := ⟨.hbm, 184, rfl⟩
abbrev main_call0_v110 : Ref sig .tc := ⟨.hbm, 185, rfl⟩
abbrev main_call0_v111 : Ref sig .tc := ⟨.hbm, 186, rfl⟩
abbrev main_call0_v112 : Ref sig .tc := ⟨.hbm, 187, rfl⟩
abbrev main_call0_v113 : Ref sig .tc := ⟨.hbm, 188, rfl⟩
abbrev main_call0_v114 : Ref sig .tc := ⟨.hbm, 189, rfl⟩
abbrev main_call0_c_31 : Ref sig .tc := ⟨.hbm, 190, rfl⟩
abbrev main_call0_v115 : Ref sig .tc := ⟨.hbm, 191, rfl⟩
abbrev main_call0_v116 : Ref sig .tc := ⟨.hbm, 192, rfl⟩
abbrev main_call0_c_32 : Ref sig .tc := ⟨.hbm, 193, rfl⟩
abbrev main_call0_v117 : Ref sig .tc := ⟨.hbm, 194, rfl⟩
abbrev main_call0_v118 : Ref sig .tc := ⟨.hbm, 195, rfl⟩
abbrev main_call0_v119 : Ref sig .tc := ⟨.hbm, 196, rfl⟩
abbrev main_call0_v120 : Ref sig .tc := ⟨.hbm, 197, rfl⟩
abbrev main_call0_v121 : Ref sig .tc := ⟨.hbm, 198, rfl⟩
abbrev main_call0_cst_33 : Ref sig .tc := ⟨.hbm, 199, rfl⟩
abbrev main_call0_v122 : Ref sig .tc := ⟨.hbm, 200, rfl⟩
abbrev main_call0_v123 : Ref sig .tc := ⟨.hbm, 201, rfl⟩
abbrev main_call0_v124 : Ref sig .tc := ⟨.hbm, 202, rfl⟩
abbrev main_call0_v125 : Ref sig .tc := ⟨.hbm, 203, rfl⟩
abbrev main_call0_v126 : Ref sig .tc := ⟨.hbm, 204, rfl⟩
abbrev main_call0_v127 : Ref sig .tc := ⟨.hbm, 205, rfl⟩
abbrev main_call0_v128 : Ref sig .tc := ⟨.hbm, 206, rfl⟩
abbrev main_call0_v129 : Ref sig .tc := ⟨.hbm, 207, rfl⟩
abbrev main_call0_c_34 : Ref sig .tc := ⟨.hbm, 208, rfl⟩
abbrev main_call0_v130 : Ref sig .tc := ⟨.hbm, 209, rfl⟩
abbrev main_call0_v131 : Ref sig .tc := ⟨.hbm, 210, rfl⟩
abbrev main_call0_c_35 : Ref sig .tc := ⟨.hbm, 211, rfl⟩
abbrev main_call0_v132 : Ref sig .tc := ⟨.hbm, 212, rfl⟩
abbrev main_call0_v133 : Ref sig .tc := ⟨.hbm, 213, rfl⟩
abbrev main_call0_v134 : Ref sig .tc := ⟨.hbm, 214, rfl⟩
abbrev main_call0_v135 : Ref sig .tc := ⟨.hbm, 215, rfl⟩
abbrev main_call0_v136 : Ref sig .tc := ⟨.hbm, 216, rfl⟩
abbrev main_call0_cst_36 : Ref sig .tc := ⟨.hbm, 217, rfl⟩
abbrev main_call0_v137 : Ref sig .tc := ⟨.hbm, 218, rfl⟩
abbrev main_call0_v138 : Ref sig .tc := ⟨.hbm, 219, rfl⟩
abbrev main_call0_v139 : Ref sig .tc := ⟨.hbm, 220, rfl⟩
abbrev main_call0_v140 : Ref sig .tc := ⟨.hbm, 221, rfl⟩
abbrev main_call0_v141 : Ref sig .tc := ⟨.hbm, 222, rfl⟩
abbrev main_call0_c_37 : Ref sig .tc := ⟨.hbm, 223, rfl⟩
abbrev main_call0_v142 : Ref sig .tc := ⟨.hbm, 224, rfl⟩
abbrev main_call0_v143 : Ref sig .tc := ⟨.hbm, 225, rfl⟩
abbrev main_call0_c_38 : Ref sig .tc := ⟨.hbm, 226, rfl⟩
abbrev main_call0_v144 : Ref sig .tc := ⟨.hbm, 227, rfl⟩
abbrev main_call0_v145 : Ref sig .tc := ⟨.hbm, 228, rfl⟩
abbrev main_call0_v146 : Ref sig .tc := ⟨.hbm, 229, rfl⟩
abbrev main_call0_v147 : Ref sig .tc := ⟨.hbm, 230, rfl⟩
abbrev main_call0_v148 : Ref sig .tc := ⟨.hbm, 231, rfl⟩
abbrev main_call0_cst_39 : Ref sig .tc := ⟨.hbm, 232, rfl⟩
abbrev main_call0_v149 : Ref sig .tc := ⟨.hbm, 233, rfl⟩
abbrev main_call0_v150 : Ref sig .tc := ⟨.hbm, 234, rfl⟩
abbrev main_call0_v151 : Ref sig .tc := ⟨.hbm, 235, rfl⟩
abbrev main_call0_v152 : Ref sig .tc := ⟨.hbm, 236, rfl⟩
abbrev main_call0_v153 : Ref sig .tc := ⟨.hbm, 237, rfl⟩
abbrev main_call0_v154 : Ref sig .tc := ⟨.hbm, 238, rfl⟩
abbrev main_call0_v155 : Ref sig .tc := ⟨.hbm, 239, rfl⟩
abbrev main_v0_0 : Ref sig .tc := ⟨.hbm, 240, rfl⟩
abbrev main_call0_v157 : Ref sig .tc := ⟨.hbm, 241, rfl⟩
abbrev main_call0_v158 : Ref sig .tc := ⟨.hbm, 242, rfl⟩
abbrev main_call0_c_40 : Ref sig .tc := ⟨.hbm, 243, rfl⟩
abbrev main_call0_v159 : Ref sig .tc := ⟨.hbm, 244, rfl⟩
abbrev main_call0_v160 : Ref sig .tc := ⟨.hbm, 245, rfl⟩
abbrev main_call0_c_41 : Ref sig .tc := ⟨.hbm, 246, rfl⟩
abbrev main_call0_v161 : Ref sig .tc := ⟨.hbm, 247, rfl⟩
abbrev main_call0_v162 : Ref sig .tc := ⟨.hbm, 248, rfl⟩
abbrev main_call0_v163 : Ref sig .tc := ⟨.hbm, 249, rfl⟩
abbrev main_call0_v164 : Ref sig .tc := ⟨.hbm, 250, rfl⟩
abbrev main_call0_v165 : Ref sig .tc := ⟨.hbm, 251, rfl⟩
abbrev main_call0_cst_42 : Ref sig .tc := ⟨.hbm, 252, rfl⟩
abbrev main_call0_v166 : Ref sig .tc := ⟨.hbm, 253, rfl⟩
abbrev main_call0_v167 : Ref sig .tc := ⟨.hbm, 254, rfl⟩
abbrev main_call0_v168 : Ref sig .tc := ⟨.hbm, 255, rfl⟩
abbrev main_call0_v169 : Ref sig .tc := ⟨.hbm, 256, rfl⟩
abbrev main_call0_v170 : Ref sig .tc := ⟨.hbm, 257, rfl⟩
abbrev main_v0_1 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg3_1 : Ref sig .tc := ⟨.vmem, 72, rfl⟩
abbrev cc9_stg4_0 : Ref sig .tc := ⟨.vmem, 73, rfl⟩
abbrev cc9_stg4_1 : Ref sig .tc := ⟨.vmem, 74, rfl⟩
abbrev cc9_stg5_0 : Ref sig .tc := ⟨.vmem, 75, rfl⟩
abbrev cc9_stg6_0 : Ref sig .tc := ⟨.vmem, 76, rfl⟩
abbrev cc9_stg6_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg3_1 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg1_1 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg3_0 : Ref sig .tc := ⟨.vmem, 97, rfl⟩
abbrev cc12_stg3_1 : Ref sig .tc := ⟨.vmem, 98, rfl⟩
abbrev cc13_stg0_0 : Ref sig .tc := ⟨.vmem, 99, rfl⟩
abbrev cc13_stg0_1 : Ref sig .tc := ⟨.vmem, 100, rfl⟩
abbrev cc13_stg1_0 : Ref sig .tc := ⟨.vmem, 101, rfl⟩
abbrev cc13_stg1_1 : Ref sig .tc := ⟨.vmem, 102, rfl⟩
abbrev cc13_stg2_0 : Ref sig .tc := ⟨.vmem, 103, rfl⟩
abbrev cc13_stg3_0 : Ref sig .tc := ⟨.vmem, 104, rfl⟩
abbrev cc13_stg3_1 : Ref sig .tc := ⟨.vmem, 105, rfl⟩
abbrev cc14_stg0_0 : Ref sig .tc := ⟨.vmem, 106, rfl⟩
abbrev cc14_stg0_1 : Ref sig .tc := ⟨.vmem, 107, rfl⟩
abbrev cc14_stg1_0 : Ref sig .tc := ⟨.vmem, 108, rfl⟩
abbrev cc14_stg1_1 : Ref sig .tc := ⟨.vmem, 109, rfl⟩
abbrev cc14_stg2_0 : Ref sig .tc := ⟨.vmem, 110, rfl⟩
abbrev cc14_stg3_0 : Ref sig .tc := ⟨.vmem, 111, rfl⟩
abbrev cc14_stg3_1 : Ref sig .tc := ⟨.vmem, 112, rfl⟩
abbrev cc14_stg4_0 : Ref sig .tc := ⟨.vmem, 113, rfl⟩
abbrev cc14_stg4_1 : Ref sig .tc := ⟨.vmem, 114, rfl⟩
abbrev cc14_stg5_0 : Ref sig .tc := ⟨.vmem, 115, rfl⟩
abbrev cc14_stg6_0 : Ref sig .tc := ⟨.vmem, 116, rfl⟩
abbrev cc14_stg6_1 : Ref sig .tc := ⟨.vmem, 117, rfl⟩
abbrev cc15_stg0_0 : Ref sig .tc := ⟨.vmem, 118, rfl⟩
abbrev cc15_stg0_1 : Ref sig .tc := ⟨.vmem, 119, rfl⟩
abbrev cc15_stg1_0 : Ref sig .tc := ⟨.vmem, 120, rfl⟩
abbrev cc15_stg1_1 : Ref sig .tc := ⟨.vmem, 121, rfl⟩
abbrev cc15_stg2_0 : Ref sig .tc := ⟨.vmem, 122, rfl⟩
abbrev cc15_stg3_0 : Ref sig .tc := ⟨.vmem, 123, rfl⟩
abbrev cc15_stg3_1 : Ref sig .tc := ⟨.vmem, 124, rfl⟩
abbrev cc16_stg0_0 : Ref sig .tc := ⟨.vmem, 125, rfl⟩
abbrev cc16_stg0_1 : Ref sig .tc := ⟨.vmem, 126, rfl⟩
abbrev cc16_stg1_0 : Ref sig .tc := ⟨.vmem, 127, rfl⟩
abbrev cc16_stg1_1 : Ref sig .tc := ⟨.vmem, 128, rfl⟩
abbrev cc16_stg2_0 : Ref sig .tc := ⟨.vmem, 129, rfl⟩
abbrev cc16_stg3_0 : Ref sig .tc := ⟨.vmem, 130, rfl⟩
abbrev cc16_stg3_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem3_0 : DmaSem sig := 64
abbrev cc8_sem3_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem3_0 : DmaSem sig := 71
abbrev cc9_sem3_1 : DmaSem sig := 72
abbrev cc9_sem4_0 : DmaSem sig := 73
abbrev cc9_sem4_1 : DmaSem sig := 74
abbrev cc9_sem5_0 : DmaSem sig := 75
abbrev cc9_sem6_0 : DmaSem sig := 76
abbrev cc9_sem6_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem3_1 : DmaSem sig := 84
abbrev cc11_sem0_0 : DmaSem sig := 85
abbrev cc11_sem0_1 : DmaSem sig := 86
abbrev cc11_sem1_0 : DmaSem sig := 87
abbrev cc11_sem1_1 : DmaSem sig := 88
abbrev cc11_sem2_0 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem3_0 : DmaSem sig := 97
abbrev cc12_sem3_1 : DmaSem sig := 98
abbrev cc13_sem0_0 : DmaSem sig := 99
abbrev cc13_sem0_1 : DmaSem sig := 100
abbrev cc13_sem1_0 : DmaSem sig := 101
abbrev cc13_sem1_1 : DmaSem sig := 102
abbrev cc13_sem2_0 : DmaSem sig := 103
abbrev cc13_sem3_0 : DmaSem sig := 104
abbrev cc13_sem3_1 : DmaSem sig := 105
abbrev cc14_sem0_0 : DmaSem sig := 106
abbrev cc14_sem0_1 : DmaSem sig := 107
abbrev cc14_sem1_0 : DmaSem sig := 108
abbrev cc14_sem1_1 : DmaSem sig := 109
abbrev cc14_sem2_0 : DmaSem sig := 110
abbrev cc14_sem3_0 : DmaSem sig := 111
abbrev cc14_sem3_1 : DmaSem sig := 112
abbrev cc14_sem4_0 : DmaSem sig := 113
abbrev cc14_sem4_1 : DmaSem sig := 114
abbrev cc14_sem5_0 : DmaSem sig := 115
abbrev cc14_sem6_0 : DmaSem sig := 116
abbrev cc14_sem6_1 : DmaSem sig := 117
abbrev cc15_sem0_0 : DmaSem sig := 118
abbrev cc15_sem0_1 : DmaSem sig := 119
abbrev cc15_sem1_0 : DmaSem sig := 120
abbrev cc15_sem1_1 : DmaSem sig := 121
abbrev cc15_sem2_0 : DmaSem sig := 122
abbrev cc15_sem3_0 : DmaSem sig := 123
abbrev cc15_sem3_1 : DmaSem sig := 124
abbrev cc16_sem0_0 : DmaSem sig := 125
abbrev cc16_sem0_1 : DmaSem sig := 126
abbrev cc16_sem1_0 : DmaSem sig := 127
abbrev cc16_sem1_1 : DmaSem sig := 128
abbrev cc16_sem2_0 : DmaSem sig := 129
abbrev cc16_sem3_0 : DmaSem sig := 130
abbrev cc16_sem3_1 : DmaSem sig := 131

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S5000x1 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S5000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S5000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S128_S1x128 : S128.ShapeCasts S1x128
  shapeCasts_S100000_S100000x1 : S100000.ShapeCasts S100000x1
  bcast_S_S100000x128 : S_.BroadcastsInDim S100000x128 (![] : Fin 0 → Fin S100000x128.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S5000x300_S5000x300_0_0 : ∀ a, (![0, 0] : Fin 2 → Nat) a + S5000x300.size a ≤ S5000x300.size a
  h_S5000x300 : 0 < S5000x300.numel
  inb_S300x128_S300x128_0_0 : ∀ a, (![0, 0] : Fin 2 → Nat) a + S300x128.size a ≤ S300x128.size a
  h_S300x128 : 0 < S300x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x256_S256x128_S5000x128_1_0_0_1_n_n_wf : DotDims.WF S5000x256 S256x128 S5000x128 [1] [0] [0] [1] [] []
  dot_S5000x300_S300x128_S5000x128_1_0_0_1_n_n_wf : DotDims.WF S5000x300 S300x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S100000x300.size a
  hwx1_0 : ∀ i : grid1.Coords, EltTy.bits .f32 = 32 ∨ (Rect.block (s := S100000x300) S5000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x128.size a ≤ S300x128.size a
  hwx1_1 : ∀ i : grid1.Coords, EltTy.bits .f32 = 32 ∨ (Rect.block (s := S300x128) S300x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S100000x1.size a
  hwx4_4 : ∀ i : grid4.Coords, EltTy.bits .f32 = 32 ∨ (Rect.block (s := S100000x1) S5000x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x1.size a ≤ S100000x1.size a
  hwx9_4 : ∀ i : grid9.Coords, EltTy.bits .f32 = 32 ∨ (Rect.block (s := S100000x1) S5000x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S100000x128.size a
  hwx9_6 : ∀ i : grid9.Coords, EltTy.bits .f32 = 32 ∨ (Rect.block (s := S100000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .f32 = 32 ∨ (Rect.block (s := S100000x1) S5000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S100000x128.size a
  hwx11_3 : ∀ i : grid11.Coords, EltTy.bits .f32 = 32 ∨ (Rect.block (s := S100000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S100000x1.size a
  hwx12_1 : ∀ i : grid12.Coords, EltTy.bits .f32 = 32 ∨ (Rect.block (s := S100000x1) S5000x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S100000x128.size a
  hwx12_3 : ∀ i : grid12.Coords, EltTy.bits .f32 = 32 ∨ (Rect.block (s := S100000x128) S5000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S100000x1.size a
  hwx13_1 : ∀ i : grid13.Coords, EltTy.bits .f32 = 32 ∨ (Rect.block (s := S100000x1) S5000x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x128.size a ≤ S100000x128.size a
  hwx13_3 : ∀ i : grid13.Coords, EltTy.bits .f32 = 32 ∨ (Rect.block (s := S100000x128) S5000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x1.size a ≤ S100000x1.size a
  hwx14_1 : ∀ i : grid14.Coords, EltTy.bits .f32 = 32 ∨ (Rect.block (s := S100000x1) S5000x1.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S100000x128.size a
  hwx14_3 : ∀ i : grid14.Coords, EltTy.bits .f32 = 32 ∨ (Rect.block (s := S100000x128) S5000x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S5000x1.size a ≤ S100000x1.size a
  hwx14_4 : ∀ i : grid14.Coords, EltTy.bits .f32 = 32 ∨ (Rect.block (s := S100000x1) S5000x1.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x128.size a ≤ S100000x128.size a
  hwx14_6 : ∀ i : grid14.Coords, EltTy.bits .f32 = 32 ∨ (Rect.block (s := S100000x128) S5000x128.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S100000x1.size a
  hwx15_1 : ∀ i : grid15.Coords, EltTy.bits .f32 = 32 ∨ (Rect.block (s := S100000x1) S5000x1.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x128.size a ≤ S128x128.size a
  hwx15_2 : ∀ i : grid15.Coords, EltTy.bits .f32 = 32 ∨ (Rect.block (s := S128x128) S128x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x128.size a ≤ S100000x128.size a
  hwx15_3 : ∀ i : grid15.Coords, EltTy.bits .f32 = 32 ∨ (Rect.block (s := S100000x128) S5000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S100000x1.size a
  hwx16_1 : ∀ i : grid16.Coords, EltTy.bits .f32 = 32 ∨ (Rect.block (s := S100000x1) S5000x1.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x128.size a ≤ S100000x128.size a
  hwx16_3 : ∀ i : grid16.Coords, EltTy.bits .f32 = 32 ∨ (Rect.block (s := S100000x128) S5000x128.size (cc16_transform_3 i) (hinb16_3 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S300x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v39) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v40) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v41) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v52) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v53) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v51) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v64) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v66) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v63) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_call0_v65) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v67) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v68) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_call0_v37) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v69) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v70) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_call0_v80) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v81) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v82) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v83) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_call0_v68) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v84) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg18) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v85) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_call0_v83) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v96) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg22) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v97) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_call0_v95) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v108) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_call0_v110) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v107) S5000x128.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_call0_v109) S5000x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_call0_v111) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_call0_v112) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_call0_v68) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call0_v113) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg20) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_call0_v114) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_call0_v124) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_call0_v125) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_call0_v126) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_call0_v127) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_call0_v112) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_call0_v128) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg24) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_call0_v129) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_call0_v127) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_call0_v140) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg28) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_call0_v141) S5000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_call0_v139) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_call0_v152) S5000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_call0_v154) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_call0_v151) S5000x128.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_call0_v153) S5000x1.size cc14_transform_4 reads14_4 false false 2 stage14_4 sem14_4
    hrank14 hreads14_4 hinb14_4 nbuf14_4 (Memref.isWhole_whole _) hwx14_4 hstage14_4

abbrev win14_5 : Pipeline.Window sig grid14 :=
  Pipeline.Window.ofSpec (Memref.whole main_call0_v155) S1x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v0_0) S5000x128.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_call0_v112) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_call0_v157) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_arg26) S128x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_call0_v158) S5000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_call0_v168) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_call0_v169) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_call0_v170) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v0_1) S5000x128.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

class Facts : Prop extends Facts₀ where

variable [Facts]
-- ==== ReferenceIdeal.lean ====
abbrev S100000x256 : Shape := ⟨2, ![100000, 256]⟩
abbrev S100000x300 : Shape := ⟨2, ![100000, 300]⟩
abbrev S500000 : Shape := ⟨1, ![500000]⟩
abbrev S256x128 : Shape := ⟨2, ![256, 128]⟩
abbrev S128 : Shape := ⟨1, ![128]⟩
abbrev S300x128 : Shape := ⟨2, ![300, 128]⟩
abbrev S128x128 : Shape := ⟨2, ![128, 128]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S500000x128 : Shape := ⟨2, ![500000, 128]⟩

abbrev nBuf : Space → Nat
  | .hbm => 446
  | .vmem => 0
  | .smem => 0
  | _ => 0

abbrev hbmTy0_0 (i : Nat) : BufTy := match i % 128 with
  | 0 => ⟨S100000x256, .f32⟩
  | 1 => ⟨S100000x300, .f32⟩
  | 2 => ⟨S500000, .i32⟩
  | 3 => ⟨S500000, .i32⟩
  | 4 => ⟨S500000, .i32⟩
  | 5 => ⟨S500000, .i32⟩
  | 6 => ⟨S500000, .i32⟩
  | 7 => ⟨S500000, .i32⟩
  | 8 => ⟨S256x128, .f32⟩
  | 9 => ⟨S128, .f32⟩
  | 10 => ⟨S300x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S100000x128, .f32⟩
  | 31 => ⟨S1x128, .f32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S500000, .f32⟩
  | 40 => ⟨S_, .f32⟩
  | 41 => ⟨S100000, .f32⟩
  | 42 => ⟨S500000x1, .i32⟩
  | 43 => ⟨S100000, .f32⟩
  | 44 => ⟨S_, .f32⟩
  | 45 => ⟨S_, .f32⟩
  | 46 => ⟨S100000, .f32⟩
  | 47 => ⟨S100000, .f32⟩
  | 48 => ⟨S_, .f32⟩
  | 49 => ⟨S100000, .f32⟩
  | 50 => ⟨S500000x1, .i32⟩
  | 51 => ⟨S100000, .f32⟩
  | 52 => ⟨S_, .f32⟩
  | 53 => ⟨S_, .f32⟩
  | 54 => ⟨S100000, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000x128, .f32⟩
  | 70 => ⟨S_, .f32⟩
  | 71 => ⟨S100000x128, .f32⟩
  | 72 => ⟨S500000x1, .i32⟩
  | 73 => ⟨S100000x128, .f32⟩
  | 74 => ⟨S100000, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S500000, .f32⟩
  | 86 => ⟨S_, .f32⟩
  | 87 => ⟨S100000, .f32⟩
  | 88 => ⟨S500000x1, .i32⟩
  | 89 => ⟨S100000, .f32⟩
  | 90 => ⟨S_, .f32⟩
  | 91 => ⟨S_, .f32⟩
  | 92 => ⟨S100000, .f32⟩
  | 93 => ⟨S100000, .f32⟩
  | 94 => ⟨S_, .f32⟩
  | 95 => ⟨S100000, .f32⟩
  | 96 => ⟨S500000x1, .i32⟩
  | 97 => ⟨S100000, .f32⟩
  | 98 => ⟨S_, .f32⟩
  | 99 => ⟨S_, .f32⟩
  | 100 => ⟨S100000, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S100000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S_, .f32⟩
  | 117 => ⟨S100000x128, .f32⟩
  | 118 => ⟨S500000x1, .i32⟩
  | 119 => ⟨S100000x128, .f32⟩
  | 120 => ⟨S100000, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S500000, .f32⟩
  | 5 => ⟨S_, .f32⟩
  | 6 => ⟨S100000, .f32⟩
  | 7 => ⟨S500000x1, .i32⟩
  | 8 => ⟨S100000, .f32⟩
  | 9 => ⟨S_, .f32⟩
  | 10 => ⟨S_, .f32⟩
  | 11 => ⟨S100000, .f32⟩
  | 12 => ⟨S100000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S_, .f32⟩
  | 36 => ⟨S100000x128, .f32⟩
  | 37 => ⟨S500000x1, .i32⟩
  | 38 => ⟨S100000x128, .f32⟩
  | 39 => ⟨S100000, .f32⟩
  | 40 => ⟨S100000x1, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S500000, .f32⟩
  | 51 => ⟨S_, .f32⟩
  | 52 => ⟨S100000, .f32⟩
  | 53 => ⟨S500000x1, .i32⟩
  | 54 => ⟨S100000, .f32⟩
  | 55 => ⟨S_, .f32⟩
  | 56 => ⟨S_, .f32⟩
  | 57 => ⟨S100000, .f32⟩
  | 58 => ⟨S100000, .f32⟩
  | 59 => ⟨S_, .f32⟩
  | 60 => ⟨S100000, .f32⟩
  | 61 => ⟨S500000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x128, .f32⟩
  | 81 => ⟨S_, .f32⟩
  | 82 => ⟨S100000x128, .f32⟩
  | 83 => ⟨S500000x1, .i32⟩
  | 84 => ⟨S100000x128, .f32⟩
  | 85 => ⟨S100000, .f32⟩
  | 86 => ⟨S100000x1, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S500000, .f32⟩
  | 97 => ⟨S_, .f32⟩
  | 98 => ⟨S100000, .f32⟩
  | 99 => ⟨S500000x1, .i32⟩
  | 100 => ⟨S100000, .f32⟩
  | 101 => ⟨S_, .f32⟩
  | 102 => ⟨S_, .f32⟩
  | 103 => ⟨S100000, .f32⟩
  | 104 => ⟨S100000, .f32⟩
  | 105 => ⟨S_, .f32⟩
  | 106 => ⟨S100000, .f32⟩
  | 107 => ⟨S500000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x128, .f32⟩
  | 127 => ⟨S_, .f32⟩
  | _ => ⟨S100000x256, .f32⟩

abbrev hbmTy0_2 (i : Nat) : BufTy := match i % 128 with
  | 0 => ⟨S100000x128, .f32⟩
  | 1 => ⟨S500000x1, .i32⟩
  | 2 => ⟨S100000x128, .f32⟩
  | 3 => ⟨S100000, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S_, .f32⟩
  | 15 => ⟨S500000, .f32⟩
  | 16 => ⟨S_, .f32⟩
  | 17 => ⟨S100000, .f32⟩
  | 18 => ⟨S500000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S500000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S100000x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S_, .f32⟩
  | 47 => ⟨S100000x128, .f32⟩
  | 48 => ⟨S500000x1, .i32⟩
  | 49 => ⟨S100000x128, .f32⟩
  | 50 => ⟨S100000, .f32⟩
  | 51 => ⟨S100000x1, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S500000, .f32⟩
  | 62 => ⟨S_, .f32⟩
  | 63 => ⟨S100000, .f32⟩
  | 64 => ⟨S500000x1, .i32⟩
  | 65 => ⟨S100000, .f32⟩
  | 66 => ⟨S_, .f32⟩
  | 67 => ⟨S_, .f32⟩
  | 68 => ⟨S100000, .f32⟩
  | 69 => ⟨S100000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S_, .f32⟩
  | 76 => ⟨S100000, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S_, .f32⟩
  | 93 => ⟨S100000x128, .f32⟩
  | 94 => ⟨S500000x1, .i32⟩
  | 95 => ⟨S100000x128, .f32⟩
  | 96 => ⟨S100000, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S500000, .f32⟩
  | 105 => ⟨S_, .f32⟩
  | 106 => ⟨S100000, .f32⟩
  | 107 => ⟨S500000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S_, .f32⟩
  | 114 => ⟨S100000, .f32⟩
  | 115 => ⟨S500000x1, .i32⟩
  | 116 => ⟨S100000, .f32⟩
  | 117 => ⟨S_, .f32⟩
  | 118 => ⟨S_, .f32⟩
  | 119 => ⟨S100000, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S_, .i32⟩
  | 127 => ⟨S500000, .i32⟩
  | _ => ⟨S100000x256, .f32⟩

abbrev hbmTy0_3 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S_, .f32⟩
  | 8 => ⟨S100000x128, .f32⟩
  | 9 => ⟨S500000x1, .i32⟩
  | 10 => ⟨S100000x128, .f32⟩
  | 11 => ⟨S100000, .f32⟩
  | 12 => ⟨S100000x1, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S500000, .f32⟩
  | 21 => ⟨S_, .f32⟩
  | 22 => ⟨S100000, .f32⟩
  | 23 => ⟨S500000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S100000x128, .f32⟩
  | 53 => ⟨S500000x1, .i32⟩
  | 54 => ⟨S100000x128, .f32⟩
  | 55 => ⟨S100000, .f32⟩
  | 56 => ⟨S100000x1, .f32⟩
  | 57 => ⟨S100000x128, .f32⟩
  | 58 => ⟨S100000x128, .f32⟩
  | 59 => ⟨S1x128, .f32⟩
  | 60 => ⟨S100000x128, .f32⟩
  | 61 => ⟨S100000x128, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_v12 : Ref sig .tc := ⟨.hbm, 47, rfl⟩
abbrev main_cst_2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c : Ref sig .tc := ⟨.hbm, 61, rfl⟩
abbrev main_v22 : Ref sig .tc := ⟨.hbm, 62, rfl⟩
abbrev main_v23 : Ref sig .tc := ⟨.hbm, 63, rfl⟩
abbrev main_c_4 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_5 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call2_cst : Ref sig .tc := ⟨.hbm, 81, rfl⟩
abbrev main_call2_v0 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_cst_7 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_v44 : Ref sig .tc := ⟨.hbm, 93, rfl⟩
abbrev main_cst_9 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_10 : Ref sig .tc := ⟨.hbm, 98, rfl⟩
abbrev main_call4_v0 : Ref sig .tc := ⟨.hbm, 99, rfl⟩
abbrev main_call4_v1 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_11 : Ref sig .tc := ⟨.hbm, 107, rfl⟩
abbrev main_v54 : Ref sig .tc := ⟨.hbm, 108, rfl⟩
abbrev main_v55 : Ref sig .tc := ⟨.hbm, 109, rfl⟩
abbrev main_c_12 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_13 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_call5_cst : Ref sig .tc := ⟨.hbm, 127, rfl⟩
abbrev main_call5_v0 : Ref sig .tc := ⟨.hbm, 128, rfl⟩
abbrev main_v71 : Ref sig .tc := ⟨.hbm, 129, rfl⟩
abbrev main_v72 : Ref sig .tc := ⟨.hbm, 130, rfl⟩
abbrev main_cst_14 : Ref sig .tc := ⟨.hbm, 131, rfl⟩
abbrev main_v73 : Ref sig .tc := ⟨.hbm, 132, rfl⟩
abbrev main_cst_15 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_16 : Ref sig .tc := ⟨.hbm, 137, rfl⟩
abbrev main_call6_v0 : Ref sig .tc := ⟨.hbm, 138, rfl⟩
abbrev main_call6_v1 : Ref sig .tc := ⟨.hbm, 139, rfl⟩
abbrev main_v77 : Ref sig .tc := ⟨.hbm, 140, rfl⟩
abbrev main_cst_17 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_18 : Ref sig .tc := ⟨.hbm, 145, rfl⟩
abbrev main_call7_v0 : Ref sig .tc := ⟨.hbm, 146, rfl⟩
abbrev main_call7_v1 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_c_19 : Ref sig .tc := ⟨.hbm, 154, rfl⟩
abbrev main_v87 : Ref sig .tc := ⟨.hbm, 155, rfl⟩
abbrev main_v88 : Ref sig .tc := ⟨.hbm, 156, rfl⟩
abbrev main_c_20 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_21 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_call8_cst : Ref sig .tc := ⟨.hbm, 174, rfl⟩
abbrev main_call8_v0 : Ref sig .tc := ⟨.hbm, 175, rfl⟩
abbrev main_v104 : Ref sig .tc := ⟨.hbm, 176, rfl⟩
abbrev main_cst_22 : Ref sig .tc := ⟨.hbm, 177, rfl⟩
abbrev main_v105 : Ref sig .tc := ⟨.hbm, 178, rfl⟩
abbrev main_cst_23 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_cst_24 : Ref sig .tc := ⟨.hbm, 183, rfl⟩
abbrev main_call9_v0 : Ref sig .tc := ⟨.hbm, 184, rfl⟩
abbrev main_call9_v1 : Ref sig .tc := ⟨.hbm, 185, rfl⟩
abbrev main_v109 : Ref sig .tc := ⟨.hbm, 186, rfl⟩
abbrev main_cst_25 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_cst_26 : Ref sig .tc := ⟨.hbm, 191, rfl⟩
abbrev main_call10_v0 : Ref sig .tc := ⟨.hbm, 192, rfl⟩
abbrev main_call10_v1 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_c_27 : Ref sig .tc := ⟨.hbm, 200, rfl⟩
abbrev main_v119 : Ref sig .tc := ⟨.hbm, 201, rfl⟩
abbrev main_v120 : Ref sig .tc := ⟨.hbm, 202, rfl⟩
abbrev main_c_28 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_cst_29 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_call11_cst : Ref sig .tc := ⟨.hbm, 220, rfl⟩
abbrev main_call11_v0 : Ref sig .tc := ⟨.hbm, 221, rfl⟩
abbrev main_v136 : Ref sig .tc := ⟨.hbm, 222, rfl⟩
abbrev main_cst_30 : Ref sig .tc := ⟨.hbm, 223, rfl⟩
abbrev main_v137 : Ref sig .tc := ⟨.hbm, 224, rfl⟩
abbrev main_cst_31 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_cst_32 : Ref sig .tc := ⟨.hbm, 229, rfl⟩
abbrev main_call12_v0 : Ref sig .tc := ⟨.hbm, 230, rfl⟩
abbrev main_call12_v1 : Ref sig .tc := ⟨.hbm, 231, rfl⟩
abbrev main_v141 : Ref sig .tc := ⟨.hbm, 232, rfl⟩
abbrev main_cst_33 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_cst_34 : Ref sig .tc := ⟨.hbm, 237, rfl⟩
abbrev main_call13_v0 : Ref sig .tc := ⟨.hbm, 238, rfl⟩
abbrev main_call13_v1 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_c_35 : Ref sig .tc := ⟨.hbm, 246, rfl⟩
abbrev main_v151 : Ref sig .tc := ⟨.hbm, 247, rfl⟩
abbrev main_v152 : Ref sig .tc := ⟨.hbm, 248, rfl⟩
abbrev main_c_36 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_cst_37 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_call14_cst : Ref sig .tc := ⟨.hbm, 266, rfl⟩
abbrev main_call14_v0 : Ref sig .tc := ⟨.hbm, 267, rfl⟩
abbrev main_v168 : Ref sig .tc := ⟨.hbm, 268, rfl⟩
abbrev main_v169 : Ref sig .tc := ⟨.hbm, 269, rfl⟩
abbrev main_cst_38 : Ref sig .tc := ⟨.hbm, 270, rfl⟩
abbrev main_v170 : Ref sig .tc := ⟨.hbm, 271, rfl⟩
abbrev main_cst_39 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_cst_40 : Ref sig .tc := ⟨.hbm, 276, rfl⟩
abbrev main_call15_v0 : Ref sig .tc := ⟨.hbm, 277, rfl⟩
abbrev main_call15_v1 : Ref sig .tc := ⟨.hbm, 278, rfl⟩
abbrev main_v174 : Ref sig .tc := ⟨.hbm, 279, rfl⟩
abbrev main_cst_41 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_cst_42 : Ref sig .tc := ⟨.hbm, 284, rfl⟩
abbrev main_call16_v0 : Ref sig .tc := ⟨.hbm, 285, rfl⟩
abbrev main_call16_v1 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_c_43 : Ref sig .tc := ⟨.hbm, 293, rfl⟩
abbrev main_v184 : Ref sig .tc := ⟨.hbm, 294, rfl⟩
abbrev main_v185 : Ref sig .tc := ⟨.hbm, 295, rfl⟩
abbrev main_c_44 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_cst_45 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_call17_cst : Ref sig .tc := ⟨.hbm, 313, rfl⟩
abbrev main_call17_v0 : Ref sig .tc := ⟨.hbm, 314, rfl⟩
abbrev main_v201 : Ref sig .tc := ⟨.hbm, 315, rfl⟩
abbrev main_cst_46 : Ref sig .tc := ⟨.hbm, 316, rfl⟩
abbrev main_v202 : Ref sig .tc := ⟨.hbm, 317, rfl⟩
abbrev main_cst_47 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_cst_48 : Ref sig .tc := ⟨.hbm, 322, rfl⟩
abbrev main_call18_v0 : Ref sig .tc := ⟨.hbm, 323, rfl⟩
abbrev main_call18_v1 : Ref sig .tc := ⟨.hbm, 324, rfl⟩
abbrev main_v206 : Ref sig .tc := ⟨.hbm, 325, rfl⟩
abbrev main_cst_49 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_cst_50 : Ref sig .tc := ⟨.hbm, 330, rfl⟩
abbrev main_call19_v0 : Ref sig .tc := ⟨.hbm, 331, rfl⟩
abbrev main_call19_v1 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_c_51 : Ref sig .tc := ⟨.hbm, 339, rfl⟩
abbrev main_v216 : Ref sig .tc := ⟨.hbm, 340, rfl⟩
abbrev main_v217 : Ref sig .tc := ⟨.hbm, 341, rfl⟩
abbrev main_c_52 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_cst_53 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_cst_54 : Ref sig .tc := ⟨.hbm, 359, rfl⟩
abbrev main_v233 : Ref sig .tc := ⟨.hbm, 360, rfl⟩
abbrev main_cst_55 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_cst_56 : Ref sig .tc := ⟨.hbm, 365, rfl⟩
abbrev main_call20_v0 : Ref sig .tc := ⟨.hbm, 366, rfl⟩
abbrev main_call20_v1 : Ref sig .tc := ⟨.hbm, 367, rfl⟩
abbrev main_v237 : Ref sig .tc := ⟨.hbm, 368, rfl⟩
abbrev main_cst_57 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_cst_58 : Ref sig .tc := ⟨.hbm, 373, rfl⟩
abbrev main_call21_v0 : Ref sig .tc := ⟨.hbm, 374, rfl⟩
abbrev main_call21_v1 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_c_59 : Ref sig .tc := ⟨.hbm, 382, rfl⟩
abbrev main_v247 : Ref sig .tc := ⟨.hbm, 383, rfl⟩
abbrev main_v248 : Ref sig .tc := ⟨.hbm, 384, rfl⟩
abbrev main_c_60 : Ref sig .tc := ⟨.hbm, 385, rfl⟩
abbrev main_v249 : Ref sig .tc := ⟨.hbm, 386, rfl⟩
abbrev main_v250 : Ref sig .tc := ⟨.hbm, 387, rfl⟩
abbrev main_v251 : Ref sig .tc := ⟨.hbm, 388, rfl⟩
abbrev main_v252 : Ref sig .tc := ⟨.hbm, 389, rfl⟩
abbrev main_v253 : Ref sig .tc := ⟨.hbm, 390, rfl⟩
abbrev main_cst_61 : Ref sig .tc := ⟨.hbm, 391, rfl⟩
abbrev main_v254 : Ref sig .tc := ⟨.hbm, 392, rfl⟩
abbrev main_v255 : Ref sig .tc := ⟨.hbm, 393, rfl⟩
abbrev main_v256 : Ref sig .tc := ⟨.hbm, 394, rfl⟩
abbrev main_v257 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_v264 : Ref sig .tc := ⟨.hbm, 402, rfl⟩
abbrev main_cst_62 : Ref sig .tc := ⟨.hbm, 403, rfl⟩
abbrev main_v265 : Ref sig .tc := ⟨.hbm, 404, rfl⟩
abbrev main_cst_63 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_cst_64 : Ref sig .tc := ⟨.hbm, 409, rfl⟩
abbrev main_call22_v0 : Ref sig .tc := ⟨.hbm, 410, rfl⟩
abbrev main_call22_v1 : Ref sig .tc := ⟨.hbm, 411, rfl⟩
abbrev main_v269 : Ref sig .tc := ⟨.hbm, 412, rfl⟩
abbrev main_cst_65 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_cst_66 : Ref sig .tc := ⟨.hbm, 417, rfl⟩
abbrev main_call23_v0 : Ref sig .tc := ⟨.hbm, 418, rfl⟩
abbrev main_call23_v1 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_v276 : Ref sig .tc := ⟨.hbm, 423, rfl⟩
abbrev main_v277 : Ref sig .tc := ⟨.hbm, 424, rfl⟩
abbrev main_v278 : Ref sig .tc := ⟨.hbm, 425, rfl⟩
abbrev main_c_67 : Ref sig .tc := ⟨.hbm, 426, rfl⟩
abbrev main_v279 : Ref sig .tc := ⟨.hbm, 427, rfl⟩
abbrev main_v280 : Ref sig .tc := ⟨.hbm, 428, rfl⟩
abbrev main_c_68 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_cst_69 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  dot_S100000x300_S300x128_S100000x128_1_0_0_1_n_n_wf : DotDims.WF S100000x300 S300x128 S100000x128 [1] [0] [0] [1] [] []
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«132856_j71648644432155_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.Ops.lean ====
/-
  The dense stages of the message-passing network as functions of whole arrays, at the ideal values.

  A two-axis array is a function of its index.  Four row-local operations make up every dense stage:
    * the embedding      X ↦ X · W + b            (b one row, added to every row),
    * the projection     X ↦ (X scaled row by row by s) · W,
    * the post-process   M ↦ max(M scaled row by row by s + b, 0), or the same without the max,
    * the sum of two post-processes.
  Each is ROW-LOCAL: row r of the result depends on row r of the row-indexed operands (X, M, s) and on the whole
  of the small operands (W, b).  So a block of consecutive rows of the result is the same operation applied to the
  same block of rows of the row-indexed operands: the lemmas `*_block` say this for any way of embedding a block's
  indices into the array's that keeps the column and moves rows together.
-/
import Idealize.ShloMosaic.PureOps.Ideal.Laws
import Idealize.ShloMosaic.Lib.ValueIdx
import Idealize.ShloMosaic.Lib.Pipeline.Value
import Idealize.ShloMosaic.Lib.ValueLayout
import proofs.«132856_j71648644432155_2_alg».proof.Proof.LibMatmulRead

open scoped BigOperators

noncomputable section

namespace Cert.HetGCN

open Idealize.ShloMosaic Idealize.ShloMosaic.ValueIdx Cert.GCN

/-- The float zero, as the word both programs print. -/
abbrev zero32 : EReal := Ideal.ofBits .f32 0x00000000#32

/-- Two indices of a two-axis array with equal coordinates are equal. -/
theorem idx2_ext {n0 n1 : Nat} (a b : (⟨2, ![n0, n1]⟩ : Shape).Idx) (h0 : (a 0).val = (b 0).val) (h1 : (a 1).val = (b 1).val) :
    a = b := by
  funext d
  match d with
  | ⟨0, _⟩ => exact Fin.ext h0
  | ⟨1, _⟩ => exact Fin.ext h1

/-- Every row scaled by its own factor (a one-column array). -/
def rowScale {n k : Nat} (X : Arr n k) (S : Arr n 1) : Arr n k := fun i => X i * S (ix2 (i 0) (0 : Fin 1))
/-- One row added to every row. -/
def addRow {n p : Nat} (Y : Arr n p) (b : Arr 1 p) : Arr n p := fun i => Y i + b (ix2 (0 : Fin 1) (i 1))
/-- The positive part, entry by entry. -/
def reluA {n p : Nat} (Y : Arr n p) : Arr n p := fun i => max (Y i) zero32

/-- The embedding: X · W + b. -/
def embedG {n d p : Nat} (X : Arr n d) (Wt : Arr d p) (b : Arr 1 p) : Arr n p := addRow (mm X Wt) b
/-- The projection: (rows of X scaled by s) · W. -/
def projG {n k p : Nat} (X : Arr n k) (S : Arr n 1) (Wt : Arr k p) : Arr n p := mm (rowScale X S) Wt
/-- The post-process without the positive part: rows of M scaled by s, plus b. -/
def postLinG {n p : Nat} (M : Arr n p) (S : Arr n 1) (b : Arr 1 p) : Arr n p := addRow (rowScale M S) b
/-- The post-process: the positive part of the above. -/
def postG {n p : Nat} (M : Arr n p) (S : Arr n 1) (b : Arr 1 p) : Arr n p := reluA (postLinG M S b)
/-- The sum of two post-processes. -/
def dualG {n p : Nat} (M1 : Arr n p) (S1 : Arr n 1) (b1 : Arr 1 p) (M2 : Arr n p) (S2 : Arr n 1) (b2 : Arr 1 p) : Arr n p :=
  fun i => postG M1 S1 b1 i + postG M2 S2 b2 i
/-- The sum of two post-processes without the positive part. -/
def dualLinG {n p : Nat} (M1 : Arr n p) (S1 : Arr n 1) (b1 : Arr 1 p) (M2 : Arr n p) (S2 : Arr n 1) (b2 : Arr 1 p) : Arr n p :=
  fun i => postLinG M1 S1 b1 i + postLinG M2 S2 b2 i

/-! ## Row-locality -/

section Block

variable {N n k p : Nat}

/-- A block of rows of the scaled array is the scaled block. -/
theorem rowScale_block (X : Arr N k) (S : Arr N 1)
    (e0 : (⟨2, ![n, k]⟩ : Shape).Idx → (⟨2, ![N, k]⟩ : Shape).Idx) (e1 : (⟨2, ![n, 1]⟩ : Shape).Idx → (⟨2, ![N, 1]⟩ : Shape).Idx)
    (h01 : ∀ (y : (⟨2, ![n, k]⟩ : Shape).Idx) (z : (⟨2, ![n, 1]⟩ : Shape).Idx), (y 0).val = (z 0).val → ((e0 y) 0).val = ((e1 z) 0).val)
    (h1c : ∀ z, ((e1 z) 1).val = 0)
    (y : (⟨2, ![n, k]⟩ : Shape).Idx) :
    rowScale (fun y => X (e0 y)) (fun z => S (e1 z)) y = rowScale X S (e0 y) := by
  unfold rowScale
  dsimp only
  congr 2
  exact idx2_ext _ _ ((h01 y (ix2 (y 0) (0 : Fin 1)) rfl).symm) (h1c _)

/-- A block of rows of the projection is the projection of the block of rows. -/
theorem projG_block (X : Arr N k) (S : Arr N 1) (Wt : Arr k p)
    (e0 : (⟨2, ![n, k]⟩ : Shape).Idx → (⟨2, ![N, k]⟩ : Shape).Idx) (e1 : (⟨2, ![n, 1]⟩ : Shape).Idx → (⟨2, ![N, 1]⟩ : Shape).Idx)
    (e2 : (⟨2, ![k, p]⟩ : Shape).Idx → (⟨2, ![k, p]⟩ : Shape).Idx) (eo : (⟨2, ![n, p]⟩ : Shape).Idx → (⟨2, ![N, p]⟩ : Shape).Idx)
    (h0o : ∀ (y : (⟨2, ![n, k]⟩ : Shape).Idx) (j : (⟨2, ![n, p]⟩ : Shape).Idx), (y 0).val = (j 0).val → ((e0 y) 0).val = ((eo j) 0).val)
    (h0c : ∀ y, ((e0 y) 1).val = (y 1).val)
    (h01 : ∀ (y : (⟨2, ![n, k]⟩ : Shape).Idx) (z : (⟨2, ![n, 1]⟩ : Shape).Idx), (y 0).val = (z 0).val → ((e0 y) 0).val = ((e1 z) 0).val)
    (h1c : ∀ z, ((e1 z) 1).val = 0)
    (h2 : ∀ y, e2 y = y)
    (hoc : ∀ j, ((eo j) 1).val = (j 1).val)
    (j : (⟨2, ![n, p]⟩ : Shape).Idx) :
    projG (fun y => X (e0 y)) (fun z => S (e1 z)) (fun y => Wt (e2 y)) j = projG X S Wt (eo j) := by
  unfold projG mm
  dsimp only
  refine Finset.sum_congr rfl fun d _ => ?_
  rw [rowScale_block X S e0 e1 h01 h1c, h2]
  congr 2
  · exact idx2_ext _ _ (h0o _ _ rfl) (h0c _)
  · exact idx2_ext _ _ rfl (hoc j).symm

/-- A block of rows of the embedding is the embedding of the block of rows. -/
theorem embedG_block {d : Nat} (X : Arr N d) (Wt : Arr d p) (b : Arr 1 p)
    (e0 : (⟨2, ![n, d]⟩ : Shape).Idx → (⟨2, ![N, d]⟩ : Shape).Idx) (e1 : (⟨2, ![d, p]⟩ : Shape).Idx → (⟨2, ![d, p]⟩ : Shape).Idx)
    (e2 : (⟨2, ![1, p]⟩ : Shape).Idx → (⟨2, ![1, p]⟩ : Shape).Idx) (eo : (⟨2, ![n, p]⟩ : Shape).Idx → (⟨2, ![N, p]⟩ : Shape).Idx)
    (h0o : ∀ (y : (⟨2, ![n, d]⟩ : Shape).Idx) (j : (⟨2, ![n, p]⟩ : Shape).Idx), (y 0).val = (j 0).val → ((e0 y) 0).val = ((eo j) 0).val)
    (h0c : ∀ y, ((e0 y) 1).val = (y 1).val)
    (h1 : ∀ y, e1 y = y) (h2 : ∀ y, e2 y = y)
    (hoc : ∀ j, ((eo j) 1).val = (j 1).val)
    (j : (⟨2, ![n, p]⟩ : Shape).Idx) :
    embedG (fun y => X (e0 y)) (fun y => Wt (e1 y)) (fun y => b (e2 y)) j = embedG X Wt b (eo j) := by
  unfold embedG addRow mm
  dsimp only
  congr 1
  · refine Finset.sum_congr rfl fun q _ => ?_
    rw [h1]
    congr 2
    · exact idx2_ext _ _ (h0o _ _ rfl) (h0c _)
    · exact idx2_ext _ _ rfl (hoc j).symm
  · rw [h2]
    exact congrArg b (idx2_ext _ _ rfl (hoc j).symm)

/-- A block of rows of the post-process (no positive part) is the post-process of the block of rows. -/
theorem postLinG_block (M : Arr N p) (S : Arr N 1) (b : Arr 1 p)
    (e0 : (⟨2, ![n, p]⟩ : Shape).Idx → (⟨2, ![N, p]⟩ : Shape).Idx) (e1 : (⟨2, ![n, 1]⟩ : Shape).Idx → (⟨2, ![N, 1]⟩ : Shape).Idx)
    (e2 : (⟨2, ![1, p]⟩ : Shape).Idx → (⟨2, ![1, p]⟩ : Shape).Idx) (eo : (⟨2, ![n, p]⟩ : Shape).Idx → (⟨2, ![N, p]⟩ : Shape).Idx)
    (h0 : ∀ j, e0 j = eo j)
    (h01 : ∀ (y : (⟨2, ![n, p]⟩ : Shape).Idx) (z : (⟨2, ![n, 1]⟩ : Shape).Idx), (y 0).val = (z 0).val → ((e0 y) 0).val = ((e1 z) 0).val)
    (h1c : ∀ z, ((e1 z) 1).val = 0)
    (h2 : ∀ y, e2 y = y)
    (hoc : ∀ j, ((eo j) 1).val = (j 1).val)
    (j : (⟨2, ![n, p]⟩ : Shape).Idx) :
    postLinG (fun y => M (e0 y)) (fun z => S (e1 z)) (fun y => b (e2 y)) j = postLinG M S b (eo j) := by
  unfold postLinG addRow
  dsimp only
  rw [rowScale_block M S e0 e1 h01 h1c, h2, h0]
  congr 1
  exact congrArg b (idx2_ext _ _ rfl (hoc j).symm)

/-- The same with the positive part. -/
theorem postG_block (M : Arr N p) (S : Arr N 1) (b : Arr 1 p)
    (e0 : (⟨2, ![n, p]⟩ : Shape).Idx → (⟨2, ![N, p]⟩ : Shape).Idx) (e1 : (⟨2, ![n, 1]⟩ : Shape).Idx → (⟨2, ![N, 1]⟩ : Shape).Idx)
    (e2 : (⟨2, ![1, p]⟩ : Shape).Idx → (⟨2, ![1, p]⟩ : Shape).Idx) (eo : (⟨2, ![n, p]⟩ : Shape).Idx → (⟨2, ![N, p]⟩ : Shape).Idx)
    (h0 : ∀ j, e0 j = eo j)
    (h01 : ∀ (y : (⟨2, ![n, p]⟩ : Shape).Idx) (z : (⟨2, ![n, 1]⟩ : Shape).Idx), (y 0).val = (z 0).val → ((e0 y) 0).val = ((e1 z) 0).val)
    (h1c : ∀ z, ((e1 z) 1).val = 0)
    (h2 : ∀ y, e2 y = y)
    (hoc : ∀ j, ((eo j) 1).val = (j 1).val)
    (j : (⟨2, ![n, p]⟩ : Shape).Idx) :
    postG (fun y => M (e0 y)) (fun z => S (e1 z)) (fun y => b (e2 y)) j = postG M S b (eo j) := by
  unfold postG reluA
  rw [postLinG_block M S b e0 e1 e2 eo h0 h01 h1c h2 hoc]

/-- A block of rows of the sum of two post-processes is that sum over the blocks of rows. -/
theorem dualG_block (M1 : Arr N p) (S1 : Arr N 1) (b1 : Arr 1 p) (M2 : Arr N p) (S2 : Arr N 1) (b2 : Arr 1 p)
    (e0 : (⟨2, ![n, p]⟩ : Shape).Idx → (⟨2, ![N, p]⟩ : Shape).Idx) (e1 : (⟨2, ![n, 1]⟩ : Shape).Idx → (⟨2, ![N, 1]⟩ : Shape).Idx)
    (e2 : (⟨2, ![1, p]⟩ : Shape).Idx → (⟨2, ![1, p]⟩ : Shape).Idx)
    (e3 : (⟨2, ![n, p]⟩ : Shape).Idx → (⟨2, ![N, p]⟩ : Shape).Idx) (e4 : (⟨2, ![n, 1]⟩ : Shape).Idx → (⟨2, ![N, 1]⟩ : Shape).Idx)
    (e5 : (⟨2, ![1, p]⟩ : Shape).Idx → (⟨2, ![1, p]⟩ : Shape).Idx) (eo : (⟨2, ![n, p]⟩ : Shape).Idx → (⟨2, ![N, p]⟩ : Shape).Idx)
    (h0 : ∀ j, e0 j = eo j)
    (h01 : ∀ (y : (⟨2, ![n, p]⟩ : Shape).Idx) (z : (⟨2, ![n, 1]⟩ : Shape).Idx), (y 0).val = (z 0).val → ((e0 y) 0).val = ((e1 z) 0).val)
    (h1c : ∀ z, ((e1 z) 1).val = 0)
    (h2 : ∀ y, e2 y = y)
    (h3 : ∀ j, e3 j = eo j)
    (h34 : ∀ (y : (⟨2, ![n, p]⟩ : Shape).Idx) (z : (⟨2, ![n, 1]⟩ : Shape).Idx), (y 0).val = (z 0).val → ((e3 y) 0).val = ((e4 z) 0).val)
    (h4c : ∀ z, ((e4 z) 1).val = 0)
    (h5 : ∀ y, e5 y = y)
    (hoc : ∀ j, ((eo j) 1).val = (j 1).val)
    (j : (⟨2, ![n, p]⟩ : Shape).Idx) :
    dualG (fun y => M1 (e0 y)) (fun z => S1 (e1 z)) (fun y => b1 (e2 y)) (fun y => M2 (e3 y)) (fun z => S2 (e4 z)) (fun y => b2 (e5 y)) j
      = dualG M1 S1 b1 M2 S2 b2 (eo j) := by
  unfold dualG
  rw [postG_block M1 S1 b1 e0 e1 e2 eo h0 h01 h1c h2 hoc, postG_block M2 S2 b2 e3 e4 e5 eo h3 h34 h4c h5 hoc]

/-- A block of rows of the sum of two post-processes (no positive part) is that sum over the blocks of rows. -/
theorem dualLinG_block (M1 : Arr N p) (S1 : Arr N 1) (b1 : Arr 1 p) (M2 : Arr N p) (S2 : Arr N 1) (b2 : Arr 1 p)
    (e0 : (⟨2, ![n, p]⟩ : Shape).Idx → (⟨2, ![N, p]⟩ : Shape).Idx) (e1 : (⟨2, ![n, 1]⟩ : Shape).Idx → (⟨2, ![N, 1]⟩ : Shape).Idx)
    (e2 : (⟨2, ![1, p]⟩ : Shape).Idx → (⟨2, ![1, p]⟩ : Shape).Idx)
    (e3 : (⟨2, ![n, p]⟩ : Shape).Idx → (⟨2, ![N, p]⟩ : Shape).Idx) (e4 : (⟨2, ![n, 1]⟩ : Shape).Idx → (⟨2, ![N, 1]⟩ : Shape).Idx)
    (e5 : (⟨2, ![1, p]⟩ : Shape).Idx → (⟨2, ![1, p]⟩ : Shape).Idx) (eo : (⟨2, ![n, p]⟩ : Shape).Idx → (⟨2, ![N, p]⟩ : Shape).Idx)
    (h0 : ∀ j, e0 j = eo j)
    (h01 : ∀ (y : (⟨2, ![n, p]⟩ : Shape).Idx) (z : (⟨2, ![n, 1]⟩ : Shape).Idx), (y 0).val = (z 0).val → ((e0 y) 0).val = ((e1 z) 0).val)
    (h1c : ∀ z, ((e1 z) 1).val = 0)
    (h2 : ∀ y, e2 y = y)
    (h3 : ∀ j, e3 j = eo j)
    (h34 : ∀ (y : (⟨2, ![n, p]⟩ : Shape).Idx) (z : (⟨2, ![n, 1]⟩ : Shape).Idx), (y 0).val = (z 0).val → ((e3 y) 0).val = ((e4 z) 0).val)
    (h4c : ∀ z, ((e4 z) 1).val = 0)
    (h5 : ∀ y, e5 y = y)
    (hoc : ∀ j, ((eo j) 1).val = (j 1).val)
    (j : (⟨2, ![n, p]⟩ : Shape).Idx) :
    dualLinG (fun y => M1 (e0 y)) (fun z => S1 (e1 z)) (fun y => b1 (e2 y)) (fun y => M2 (e3 y)) (fun z => S2 (e4 z)) (fun y => b2 (e5 y)) j
      = dualLinG M1 S1 b1 M2 S2 b2 (eo j) := by
  unfold dualLinG
  rw [postLinG_block M1 S1 b1 e0 e1 e2 eo h0 h01 h1c h2 hoc, postLinG_block M2 S2 b2 e3 e4 e5 eo h3 h34 h4c h5 hoc]

end Block

end Cert.HetGCN

end
-- ==== Proof.Payloads.lean ====
/-
  What each kernel body stores, as a function of the blocks it loads, at the ideal values.

  A body loads its windows' blocks whole, computes, and stores one block of 5000 rows.  At the ideal values a change of
  float format is the identity and a matrix product into a zero accumulator is the plain sum of products, so each
  body's stored value is one of the row-local operations of the network applied to the loaded blocks: the embedding,
  the projection, a post-process (with or without the positive part), or the sum of two post-processes.
-/
import proofs.«132856_j71648644432155_2_alg».proof.Proof.Gen.KernelIdeal.Skeleton
import proofs.«132856_j71648644432155_2_alg».proof.Proof.Ops

set_option maxRecDepth 16384

open scoped BigOperators

noncomputable section

namespace Cert.HetGCN

open Idealize.ShloMosaic Idealize.ShloMosaic.ValueIdx Cert.GCN Cert.KernelIdeal Cert.KernelIdeal.Gen

/-- A `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Body 0 stores the embedding of its blocks. -/
theorem pay0_eq (x0 : Vec Ideal S5000x256 .f32) (x1 : Vec Ideal S256x128 .f32) (x2 : Vec Ideal S1x128 .f32) :
    k0_pay1 (F := Ideal) x0 x1 x2 = embedG x0 x1 x2 := by
  funext j
  obtain ⟨r, q, rfl⟩ : ∃ (r : Fin 5000) (q : Fin 128), j = ix2 r q := ⟨j 0, j 1, eq_ix2 j⟩
  unfold k0_pay1 embedG addRow
  simp only [addf_apply, shapeCast_self, broadcastTo_1b_ab_apply]
  congr 1
  exact matmul_plain_zero_apply none _ _ r q

/-- Body 1 stores the embedding of its blocks. -/
theorem pay1_eq (x0 : Vec Ideal S5000x300 .f32) (x1 : Vec Ideal S300x128 .f32) (x2 : Vec Ideal S1x128 .f32) :
    k1_pay1 (F := Ideal) x0 x1 x2 = embedG x0 x1 x2 := by
  funext j
  obtain ⟨r, q, rfl⟩ : ∃ (r : Fin 5000) (q : Fin 128), j = ix2 r q := ⟨j 0, j 1, eq_ix2 j⟩
  unfold k1_pay1 embedG addRow
  simp only [addf_apply, shapeCast_self, broadcastTo_1b_ab_apply]
  congr 1
  exact matmul_plain_zero_apply none _ _ r q

/-- Body 2 stores the projection of its blocks. -/
theorem pay2_eq (x0 : Vec Ideal S5000x128 .f32) (x1 : Vec Ideal S5000x1 .f32) (x2 : Vec Ideal S128x128 .f32) :
    k2_pay1 (F := Ideal) x0 x1 x2 = projG x0 x1 x2 := by
  funext j
  obtain ⟨r, q, rfl⟩ : ∃ (r : Fin 5000) (q : Fin 128), j = ix2 r q := ⟨j 0, j 1, eq_ix2 j⟩
  unfold k2_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 3 stores the projection of its blocks. -/
theorem pay3_eq (x0 : Vec Ideal S5000x128 .f32) (x1 : Vec Ideal S5000x1 .f32) (x2 : Vec Ideal S128x128 .f32) :
    k3_pay1 (F := Ideal) x0 x1 x2 = projG x0 x1 x2 := by
  funext j
  obtain ⟨r, q, rfl⟩ : ∃ (r : Fin 5000) (q : Fin 128), j = ix2 r q := ⟨j 0, j 1, eq_ix2 j⟩
  unfold k3_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 4 stores the sum of two post-processes of its blocks. -/
theorem pay4_eq (x0 : Vec Ideal S5000x128 .f32) (x1 : Vec Ideal S5000x1 .f32) (x2 : Vec Ideal S1x128 .f32) (x3 : Vec Ideal S5000x128 .f32) (x4 : Vec Ideal S5000x1 .f32) (x5 : Vec Ideal S1x128 .f32) :
    k4_pay1 (F := Ideal) x0 x1 x2 x3 x4 x5 = dualG x0 x1 x2 x3 x4 x5 := by
  funext j
  obtain ⟨r, q, rfl⟩ : ∃ (r : Fin 5000) (q : Fin 128), j = ix2 r q := ⟨j 0, j 1, eq_ix2 j⟩
  unfold k4_pay1 dualG postG reluA postLinG addRow rowScale
  simp only [maximumf_apply, addf_apply, mulf_apply, shapeCast_self, broadcast_apply, broadcastTo_a1_ab_apply, broadcastTo_1b_ab_apply]
  rfl

/-- Body 5 stores the projection of its blocks. -/
theorem pay5_eq (x0 : Vec Ideal S5000x128 .f32) (x1 : Vec Ideal S5000x1 .f32) (x2 : Vec Ideal S128x128 .f32) :
    k5_pay1 (F := Ideal) x0 x1 x2 = projG x0 x1 x2 := by
  funext j
  obtain ⟨r, q, rfl⟩ : ∃ (r : Fin 5000) (q : Fin 128), j = ix2 r q := ⟨j 0, j 1, eq_ix2 j⟩
  unfold k5_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 6 stores the post-process of its blocks. -/
theorem pay6_eq (x0 : Vec Ideal S5000x128 .f32) (x1 : Vec Ideal S5000x1 .f32) (x2 : Vec Ideal S1x128 .f32) :
    k6_pay1 (F := Ideal) x0 x1 x2 = postG x0 x1 x2 := by
  funext j
  obtain ⟨r, q, rfl⟩ : ∃ (r : Fin 5000) (q : Fin 128), j = ix2 r q := ⟨j 0, j 1, eq_ix2 j⟩
  unfold k6_pay1 postG reluA postLinG addRow rowScale
  simp only [maximumf_apply, addf_apply, mulf_apply, shapeCast_self, broadcast_apply, broadcastTo_a1_ab_apply, broadcastTo_1b_ab_apply]
  rfl

/-- Body 7 stores the projection of its blocks. -/
theorem pay7_eq (x0 : Vec Ideal S5000x128 .f32) (x1 : Vec Ideal S5000x1 .f32) (x2 : Vec Ideal S128x128 .f32) :
    k7_pay1 (F := Ideal) x0 x1 x2 = projG x0 x1 x2 := by
  funext j
  obtain ⟨r, q, rfl⟩ : ∃ (r : Fin 5000) (q : Fin 128), j = ix2 r q := ⟨j 0, j 1, eq_ix2 j⟩
  unfold k7_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 8 stores the projection of its blocks. -/
theorem pay8_eq (x0 : Vec Ideal S5000x128 .f32) (x1 : Vec Ideal S5000x1 .f32) (x2 : Vec Ideal S128x128 .f32) :
    k8_pay1 (F := Ideal) x0 x1 x2 = projG x0 x1 x2 := by
  funext j
  obtain ⟨r, q, rfl⟩ : ∃ (r : Fin 5000) (q : Fin 128), j = ix2 r q := ⟨j 0, j 1, eq_ix2 j⟩
  unfold k8_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 9 stores the sum of two post-processes of its blocks. -/
theorem pay9_eq (x0 : Vec Ideal S5000x128 .f32) (x1 : Vec Ideal S5000x1 .f32) (x2 : Vec Ideal S1x128 .f32) (x3 : Vec Ideal S5000x128 .f32) (x4 : Vec Ideal S5000x1 .f32) (x5 : Vec Ideal S1x128 .f32) :
    k9_pay1 (F := Ideal) x0 x1 x2 x3 x4 x5 = dualG x0 x1 x2 x3 x4 x5 := by
  funext j
  obtain ⟨r, q, rfl⟩ : ∃ (r : Fin 5000) (q : Fin 128), j = ix2 r q := ⟨j 0, j 1, eq_ix2 j⟩
  unfold k9_pay1 dualG postG reluA postLinG addRow rowScale
  simp only [maximumf_apply, addf_apply, mulf_apply, shapeCast_self, broadcast_apply, broadcastTo_a1_ab_apply, broadcastTo_1b_ab_apply]
  rfl

/-- Body 10 stores the projection of its blocks. -/
theorem pay10_eq (x0 : Vec Ideal S5000x128 .f32) (x1 : Vec Ideal S5000x1 .f32) (x2 : Vec Ideal S128x128 .f32) :
    k10_pay1 (F := Ideal) x0 x1 x2 = projG x0 x1 x2 := by
  funext j
  obtain ⟨r, q, rfl⟩ : ∃ (r : Fin 5000) (q : Fin 128), j = ix2 r q := ⟨j 0, j 1, eq_ix2 j⟩
  unfold k10_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 11 stores the post-process of its blocks. -/
theorem pay11_eq (x0 : Vec Ideal S5000x128 .f32) (x1 : Vec Ideal S5000x1 .f32) (x2 : Vec Ideal S1x128 .f32) :
    k11_pay1 (F := Ideal) x0 x1 x2 = postG x0 x1 x2 := by
  funext j
  obtain ⟨r, q, rfl⟩ : ∃ (r : Fin 5000) (q : Fin 128), j = ix2 r q := ⟨j 0, j 1, eq_ix2 j⟩
  unfold k11_pay1 postG reluA postLinG addRow rowScale
  simp only [maximumf_apply, addf_apply, mulf_apply, shapeCast_self, broadcast_apply, broadcastTo_a1_ab_apply, broadcastTo_1b_ab_apply]
  rfl

/-- Body 12 stores the projection of its blocks. -/
theorem pay12_eq (x0 : Vec Ideal S5000x128 .f32) (x1 : Vec Ideal S5000x1 .f32) (x2 : Vec Ideal S128x128 .f32) :
    k12_pay1 (F := Ideal) x0 x1 x2 = projG x0 x1 x2 := by
  funext j
  obtain ⟨r, q, rfl⟩ : ∃ (r : Fin 5000) (q : Fin 128), j = ix2 r q := ⟨j 0, j 1, eq_ix2 j⟩
  unfold k12_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 13 stores the projection of its blocks. -/
theorem pay13_eq (x0 : Vec Ideal S5000x128 .f32) (x1 : Vec Ideal S5000x1 .f32) (x2 : Vec Ideal S128x128 .f32) :
    k13_pay1 (F := Ideal) x0 x1 x2 = projG x0 x1 x2 := by
  funext j
  obtain ⟨r, q, rfl⟩ : ∃ (r : Fin 5000) (q : Fin 128), j = ix2 r q := ⟨j 0, j 1, eq_ix2 j⟩
  unfold k13_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 14 stores the sum of two post-processes of its blocks (no positive part). -/
theorem pay14_eq (x0 : Vec Ideal S5000x128 .f32) (x1 : Vec Ideal S5000x1 .f32) (x2 : Vec Ideal S1x128 .f32) (x3 : Vec Ideal S5000x128 .f32) (x4 : Vec Ideal S5000x1 .f32) (x5 : Vec Ideal S1x128 .f32) :
    k14_pay1 (F := Ideal) x0 x1 x2 x3 x4 x5 = dualLinG x0 x1 x2 x3 x4 x5 := by
  funext j
  obtain ⟨r, q, rfl⟩ : ∃ (r : Fin 5000) (q : Fin 128), j = ix2 r q := ⟨j 0, j 1, eq_ix2 j⟩
  unfold k14_pay1 dualLinG postLinG addRow rowScale
  simp only [maximumf_apply, addf_apply, mulf_apply, shapeCast_self, broadcast_apply, broadcastTo_a1_ab_apply, broadcastTo_1b_ab_apply]

/-- Body 15 stores the projection of its blocks. -/
theorem pay15_eq (x0 : Vec Ideal S5000x128 .f32) (x1 : Vec Ideal S5000x1 .f32) (x2 : Vec Ideal S128x128 .f32) :
    k15_pay1 (F := Ideal) x0 x1 x2 = projG x0 x1 x2 := by
  funext j
  obtain ⟨r, q, rfl⟩ : ∃ (r : Fin 5000) (q : Fin 128), j = ix2 r q := ⟨j 0, j 1, eq_ix2 j⟩
  unfold k15_pay1 projG
  refine (matmul_plain_zero_apply none _ _ r q).trans ?_
  unfold mm
  refine Finset.sum_congr rfl fun d _ => ?_
  simp only [truncf_apply, mulf_apply, shapeCast_self, broadcastTo_a1_ab_apply, rowScale]

/-- Body 16 stores the post-process of its blocks (no positive part). -/
theorem pay16_eq (x0 : Vec Ideal S5000x128 .f32) (x1 : Vec Ideal S5000x1 .f32) (x2 : Vec Ideal S1x128 .f32) :
    k16_pay1 (F := Ideal) x0 x1 x2 = postLinG x0 x1 x2 := by
  funext j
  obtain ⟨r, q, rfl⟩ : ∃ (r : Fin 5000) (q : Fin 128), j = ix2 r q := ⟨j 0, j 1, eq_ix2 j⟩
  unfold k16_pay1 postLinG addRow rowScale
  simp only [maximumf_apply, addf_apply, mulf_apply, shapeCast_self, broadcast_apply, broadcastTo_a1_ab_apply, broadcastTo_1b_ab_apply]

end Cert.HetGCN

end
-- ==== Proof.RegionsCommon.lean ====
/-
  A fact shared by every region: the origin of a two-axis block, as a function.
-/
import Idealize.ShloMosaic.Lib.Pipeline.Value

namespace Cert.HetGCN

/-- The offset `(0, 0)` is the zero function. -/
theorem hz2 : (![0, 0] : Fin 2 → Nat) = fun _ => 0 := funext fun a => by fin_cases a <;> rfl

end Cert.HetGCN
-- ==== Proof.RegionsA.lean ====
/-
  The pipelined regions of the embeddings and the first layer: what each leaves in its output array.

  Each dense stage runs as a pipelined region over a grid of 20 points; point t stages rows 5000·t … 5000·t + 4999 of the
  row-indexed operands, the small operands whole, and writes back the same rows of the output.  What a point writes
  back is the body's operation of its blocks; the operations are row-local, so that is the same rows of the operation
  applied to the whole arrays; the 20 blocks tile the output array; hence the output array ends holding the operation
  of the whole arrays as the region found them.
-/
import proofs.«132856_j71648644432155_2_alg».proof.Proof.Gen.KernelIdeal.Frame
import proofs.«132856_j71648644432155_2_alg».proof.Proof.Payloads
import proofs.«132856_j71648644432155_2_alg».proof.Proof.RegionsCommon

set_option maxRecDepth 16384

noncomputable section

namespace Cert.HetGCN

open Idealize.ShloMosaic Idealize.ShloMosaic.TcCoe Idealize.ShloMosaic.ValueIdx Cert.GCN Cert.KernelIdeal Cert.KernelIdeal.Gen
open Idealize.ShloMosaic.Pipeline (Dat Cfg Window)

section
variable (V : (c : Dev nD) → (b : Ref sig .tc) → Buf (Elt Ideal) ((c : Thread nD τ).loc b))

/-! ## Region 0: an embedding -/

/-- Region 0's index maps over its grid: a row-indexed window's block `t` starts at row block `t`, the small operands' windows stay at the origin. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` of region 0 writes back is block `t` of the operation applied to the whole arrays the region finds. -/
theorem flushed0 (c : Dev nD) (t : Fin cfg0.N) :
    (dat0 V c).flushed 3 t = ((cfg0.win 3).blk t).view.read (Elt Ideal) (embedG (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S256x128) hz2, View.ld_unit_zero (S := S1x128) hz2]
  rw [pay0_eq]
  obtain ⟨e00, e01, e10, e11, e20, e21, e30, e31⟩ := idx_facts0 t
  funext j
  exact embedG_block (N := 100000) (n := 5000) (d := 256) (p := 128) (V c (Pipeline.arrRef spec0 0)) (V c (Pipeline.arrRef spec0 1)) (V c (Pipeline.arrRef spec0 2))
    (((cfg0.win 0).blk t).view.emb) (((cfg0.win 1).blk t).view.emb) (((cfg0.win 2).blk t).view.emb) (((cfg0.win 3).blk t).view.emb)
    (fun y z h => by show win0_0.index t (0 : Fin 2) * 5000 + 1 * (y 0).val = win0_3.index t (0 : Fin 2) * 5000 + 1 * (z 0).val; omega)
    (fun y => by show win0_0.index t (1 : Fin 2) * 256 + 1 * (y 1).val = (y 1).val; omega)
    (fun y => by
      funext a; apply Fin.ext
      match a with
      | ⟨0, _⟩ => show win0_1.index t (0 : Fin 2) * 256 + 1 * (y 0).val = (y 0).val; omega
      | ⟨1, _⟩ => show win0_1.index t (1 : Fin 2) * 128 + 1 * (y 1).val = (y 1).val; omega)
    (fun y => by
      funext a; apply Fin.ext
      match a with
      | ⟨0, _⟩ => show win0_2.index t (0 : Fin 2) * 1 + 1 * (y 0).val = (y 0).val; omega
      | ⟨1, _⟩ => show win0_2.index t (1 : Fin 2) * 128 + 1 * (y 1).val = (y 1).val; omega)
    (fun j' => by show win0_3.index t (1 : Fin 2) * 128 + 1 * (j' 1).val = (j' 1).val; omega)
    j

/-- An index of region 0's output array is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_call0_v37).slice (win0_3.rect t)).set ↔ _
  rw [View.set_slice_whole, Rect.mem_set_unit]
  exact Iff.rfl

/-- Every row of region 0's output array lies in the block of the point numbered by its row block. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have ht : (i 0).val / 5000 < grid0.N := by rw [hN]; omega
  obtain ⟨e00, e01, e10, e11, e20, e21, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    have hv : (⟨(i 0).val / 5000, ht⟩ : Fin grid0.N).val = (i 0).val / 5000 := rfl
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- Region 0's output array ends holding the operation applied to the arrays the region finds. -/
theorem final0 (c : Dev nD) :
    (dat0 V c).arrAt 3 cfg0.N = embedG (V c (Pipeline.arrRef spec0 0)) (V c (Pipeline.arrRef spec0 1)) (V c (Pipeline.arrRef spec0 2)) :=
  (dat0 V c).arrAt_eq_of_cover 3 _ (fun t _ => flushed0 V c t) (cover0)

/-! ## Region 1: an embedding -/

/-- Region 1's index maps over its grid: a row-indexed window's block `t` starts at row block `t`, the small operands' windows stay at the origin. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` of region 1 writes back is block `t` of the operation applied to the whole arrays the region finds. -/
theorem flushed1 (c : Dev nD) (t : Fin cfg1.N) :
    (dat1 V c).flushed 3 t = ((cfg1.win 3).blk t).view.read (Elt Ideal) (embedG (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S5000x300) hz2, View.ld_unit_zero (S := S300x128) hz2, View.ld_unit_zero (S := S1x128) hz2]
  rw [pay1_eq]
  obtain ⟨e00, e01, e10, e11, e20, e21, e30, e31⟩ := idx_facts1 t
  funext j
  exact embedG_block (N := 100000) (n := 5000) (d := 300) (p := 128) (V c (Pipeline.arrRef spec1 0)) (V c (Pipeline.arrRef spec1 1)) (V c (Pipeline.arrRef spec1 2))
    (((cfg1.win 0).blk t).view.emb) (((cfg1.win 1).blk t).view.emb) (((cfg1.win 2).blk t).view.emb) (((cfg1.win 3).blk t).view.emb)
    (fun y z h => by show win1_0.index t (0 : Fin 2) * 5000 + 1 * (y 0).val = win1_3.index t (0 : Fin 2) * 5000 + 1 * (z 0).val; omega)
    (fun y => by show win1_0.index t (1 : Fin 2) * 300 + 1 * (y 1).val = (y 1).val; omega)
    (fun y => by
      funext a; apply Fin.ext
      match a with
      | ⟨0, _⟩ => show win1_1.index t (0 : Fin 2) * 300 + 1 * (y 0).val = (y 0).val; omega
      | ⟨1, _⟩ => show win1_1.index t (1 : Fin 2) * 128 + 1 * (y 1).val = (y 1).val; omega)
    (fun y => by
      funext a; apply Fin.ext
      match a with
      | ⟨0, _⟩ => show win1_2.index t (0 : Fin 2) * 1 + 1 * (y 0).val = (y 0).val; omega
      | ⟨1, _⟩ => show win1_2.index t (1 : Fin 2) * 128 + 1 * (y 1).val = (y 1).val; omega)
    (fun j' => by show win1_3.index t (1 : Fin 2) * 128 + 1 * (j' 1).val = (j' 1).val; omega)
    j

/-- An index of region 1's output array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_call0_v39).slice (win1_3.rect t)).set ↔ _
  rw [View.set_slice_whole, Rect.mem_set_unit]
  exact Iff.rfl

/-- Every row of region 1's output array lies in the block of the point numbered by its row block. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨e00, e01, e10, e11, e20, e21, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    have hv : (⟨(i 0).val / 5000, ht⟩ : Fin grid1.N).val = (i 0).val / 5000 := rfl
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    omega

/-- Region 1's output array ends holding the operation applied to the arrays the region finds. -/
theorem final1 (c : Dev nD) :
    (dat1 V c).arrAt 3 cfg1.N = embedG (V c (Pipeline.arrRef spec1 0)) (V c (Pipeline.arrRef spec1 1)) (V c (Pipeline.arrRef spec1 2)) :=
  (dat1 V c).arrAt_eq_of_cover 3 _ (fun t _ => flushed1 V c t) (cover1)

/-! ## Region 2: a projection -/

/-- Region 2's index maps over its grid: a row-indexed window's block `t` starts at row block `t`, the small operands' windows stay at the origin. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` of region 2 writes back is block `t` of the operation applied to the whole arrays the region finds. -/
theorem flushed2 (c : Dev nD) (t : Fin cfg2.N) :
    (dat2 V c).flushed 3 t = ((cfg2.win 3).blk t).view.read (Elt Ideal) (projG (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2, View.ld_unit_zero (S := S128x128) hz2]
  rw [pay2_eq]
  obtain ⟨e00, e01, e10, e11, e20, e21, e30, e31⟩ := idx_facts2 t
  funext j
  exact projG_block (N := 100000) (n := 5000) (k := 128) (p := 128) (V c (Pipeline.arrRef spec2 0)) (V c (Pipeline.arrRef spec2 1)) (V c (Pipeline.arrRef spec2 2))
    (((cfg2.win 0).blk t).view.emb) (((cfg2.win 1).blk t).view.emb) (((cfg2.win 2).blk t).view.emb) (((cfg2.win 3).blk t).view.emb)
    (fun y z h => by show win2_0.index t (0 : Fin 2) * 5000 + 1 * (y 0).val = win2_3.index t (0 : Fin 2) * 5000 + 1 * (z 0).val; omega)
    (fun y => by show win2_0.index t (1 : Fin 2) * 128 + 1 * (y 1).val = (y 1).val; omega)
    (fun y z h => by show win2_0.index t (0 : Fin 2) * 5000 + 1 * (y 0).val = win2_1.index t (0 : Fin 2) * 5000 + 1 * (z 0).val; omega)
    (fun z => by show win2_1.index t (1 : Fin 2) * 1 + 1 * (z 1).val = 0; have hz1 : (z 1).val < 1 := (z 1).isLt; omega)
    (fun y => by
      funext a; apply Fin.ext
      match a with
      | ⟨0, _⟩ => show win2_2.index t (0 : Fin 2) * 128 + 1 * (y 0).val = (y 0).val; omega
      | ⟨1, _⟩ => show win2_2.index t (1 : Fin 2) * 128 + 1 * (y 1).val = (y 1).val; omega)
    (fun j' => by show win2_3.index t (1 : Fin 2) * 128 + 1 * (j' 1).val = (j' 1).val; omega)
    j

/-- An index of region 2's output array is in point `t`'s block iff each coordinate is in the block's range. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_call0_v41).slice (win2_3.rect t)).set ↔ _
  rw [View.set_slice_whole, Rect.mem_set_unit]
  exact Iff.rfl

/-- Every row of region 2's output array lies in the block of the point numbered by its row block. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  have ht : (i 0).val / 5000 < grid2.N := by rw [hN]; omega
  obtain ⟨e00, e01, e10, e11, e20, e21, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    have hv : (⟨(i 0).val / 5000, ht⟩ : Fin grid2.N).val = (i 0).val / 5000 := rfl
    omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    omega

/-- Region 2's output array ends holding the operation applied to the arrays the region finds. -/
theorem final2 (c : Dev nD) :
    (dat2 V c).arrAt 3 cfg2.N = projG (V c (Pipeline.arrRef spec2 0)) (V c (Pipeline.arrRef spec2 1)) (V c (Pipeline.arrRef spec2 2)) :=
  (dat2 V c).arrAt_eq_of_cover 3 _ (fun t _ => flushed2 V c t) (cover2)

/-! ## Region 3: a projection -/

/-- Region 3's index maps over its grid: a row-indexed window's block `t` starts at row block `t`, the small operands' windows stay at the origin. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` of region 3 writes back is block `t` of the operation applied to the whole arrays the region finds. -/
theorem flushed3 (c : Dev nD) (t : Fin cfg3.N) :
    (dat3 V c).flushed 3 t = ((cfg3.win 3).blk t).view.read (Elt Ideal) (projG (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S128x128) hz2]
  rw [pay3_eq]
  obtain ⟨e00, e01, e10, e11, e20, e21, e30, e31⟩ := idx_facts3 t
  funext j
  exact projG_block (N := 100000) (n := 5000) (k := 128) (p := 128) (V c (Pipeline.arrRef spec3 0)) (V c (Pipeline.arrRef spec3 1)) (V c (Pipeline.arrRef spec3 2))
    (((cfg3.win 0).blk t).view.emb) (((cfg3.win 1).blk t).view.emb) (((cfg3.win 2).blk t).view.emb) (((cfg3.win 3).blk t).view.emb)
    (fun y z h => by show win3_0.index t (0 : Fin 2) * 5000 + 1 * (y 0).val = win3_3.index t (0 : Fin 2) * 5000 + 1 * (z 0).val; omega)
    (fun y => by show win3_0.index t (1 : Fin 2) * 128 + 1 * (y 1).val = (y 1).val; omega)
    (fun y z h => by show win3_0.index t (0 : Fin 2) * 5000 + 1 * (y 0).val = win3_1.index t (0 : Fin 2) * 5000 + 1 * (z 0).val; omega)
    (fun z => by show win3_1.index t (1 : Fin 2) * 1 + 1 * (z 1).val = 0; have hz1 : (z 1).val < 1 := (z 1).isLt; omega)
    (fun y => by
      funext a; apply Fin.ext
      match a with
      | ⟨0, _⟩ => show win3_2.index t (0 : Fin 2) * 128 + 1 * (y 0).val = (y 0).val; omega
      | ⟨1, _⟩ => show win3_2.index t (1 : Fin 2) * 128 + 1 * (y 1).val = (y 1).val; omega)
    (fun j' => by show win3_3.index t (1 : Fin 2) * 128 + 1 * (j' 1).val = (j' 1).val; omega)
    j

/-- An index of region 3's output array is in point `t`'s block iff each coordinate is in the block's range. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_call0_v53).slice (win3_3.rect t)).set ↔ _
  rw [View.set_slice_whole, Rect.mem_set_unit]
  exact Iff.rfl

/-- Every row of region 3's output array lies in the block of the point numbered by its row block. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 20 := N_3
  have ht : (i 0).val / 5000 < grid3.N := by rw [hN]; omega
  obtain ⟨e00, e01, e10, e11, e20, e21, e30, e31⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    have hv : (⟨(i 0).val / 5000, ht⟩ : Fin grid3.N).val = (i 0).val / 5000 := rfl
    omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    omega

/-- Region 3's output array ends holding the operation applied to the arrays the region finds. -/
theorem final3 (c : Dev nD) :
    (dat3 V c).arrAt 3 cfg3.N = projG (V c (Pipeline.arrRef spec3 0)) (V c (Pipeline.arrRef spec3 1)) (V c (Pipeline.arrRef spec3 2)) :=
  (dat3 V c).arrAt_eq_of_cover 3 _ (fun t _ => flushed3 V c t) (cover3)

/-! ## Region 4: a sum of two post-processes -/

/-- Region 4's index maps over its grid: a row-indexed window's block `t` starts at row block `t`, the small operands' windows stay at the origin. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0
    ∧ win4_5.index t (0 : Fin 2) = 0
    ∧ win4_5.index t (1 : Fin 2) = 0
    ∧ win4_6.index t (0 : Fin 2) = t.val
    ∧ win4_6.index t (1 : Fin 2) = 0 :=
  (by decide +kernel : ∀ t : Fin grid4.N, _)

/-- What point `t` of region 4 writes back is block `t` of the operation applied to the whole arrays the region finds. -/
theorem flushed4 (c : Dev nD) (t : Fin cfg4.N) :
    (dat4 V c).flushed 6 t = ((cfg4.win 6).blk t).view.read (Elt Ideal) (dualG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz2]
  simp only [View.ld_unit_zero (S := S5000x128) hz2, View.ld_unit_zero (S := S5000x1) hz2, View.ld_unit_zero (S := S1x128) hz2]
  rw [pay4_eq]
  obtain ⟨e00, e01, e10, e11, e20, e21, e30, e31, e40, e41, e50, e51, e60, e61⟩ := idx_facts4 t
  funext j
  exact dualG_block (N := 100000) (n := 5000) (p := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    (((cfg4.win 0).blk t).view.emb) (((cfg4.win 1).blk t).view.emb) (((cfg4.win 2).blk t).view.emb) (((cfg4.win 3).blk t).view.emb) (((cfg4.win 4).blk t).view.emb) (((cfg4.win 5).blk t).view.emb) (((cfg4.win 6).blk t).view.emb)
    (fun j' => by
      funext a; apply Fin.ext
      match a with
      | ⟨0, _⟩ => show win4_0.index t (0 : Fin 2) * 5000 + 1 * (j' 0).val = win4_6.index t (0 : Fin 2) * 5000 + 1 * (j' 0).val; omega
      | ⟨1, _⟩ => show win4_0.index t (1 : Fin 2) * 128 + 1 * (j' 1).val = win4_6.index t (1 : Fin 2) * 128 + 1 * (j' 1).val; omega)
    (fun y z h => by show win4_0.index t (0 : Fin 2) * 5000 + 1 * (y 0).val = win4_1.index t (0 : Fin 2) * 5000 + 1 * (z 0).val; omega)
    (fun z => by show win4_1.index t (1 : Fin 2) * 1 + 1 * (z 1).val = 0; have hz1 : (z 1).val < 1 := (z 1).isLt; omega)
    (fun y => by
      funext a; apply Fin.ext
      match a with
      | ⟨0, _⟩ => show win4_2.index t (0 : Fin 2) * 1 + 1 * (y 0).val = (y 0).val; omega
      | ⟨1, _⟩ => show win4_2.index t (1 : Fin 2) * 128 + 1 * (y 1).val = (y 1).val; omega)
    (fun j' => by
      funext a; apply Fin.ext
      match a with
      | ⟨0, _⟩ => show win4_3.index t (0 : Fin 2) * 5000 + 1 * (j' 0).val = win4_6.index t (0 : Fin 2) * 5000 + 1 * (j' 0).val; omega
      | ⟨1, _⟩ => show win4_3.index t (1 : Fin 2) * 128 + 1 * (j' 1).val = win4_6.index t (1 : Fin 2) * 128 + 1 * (j' 1).val; omega)
    (fun y z h => by show win4_3.index t (0 : Fin 2) * 5000 + 1 * (y 0).val = win4_4.index t (0 : Fin 2) * 5000 + 1 * (z 0).val; omega)
    (fun z => by show win4_4.index t (1 : Fin 2) * 1 + 1 * (z 1).val = 0; have hz1 : (z 1).val < 1 := (z 1).isLt; omega)
    (fun y => by
      funext a; apply Fin.ext
      match a with
      | ⟨0, _⟩ => show win4_5.index t (0 : Fin 2) * 1 + 1 * (y 0).val = (y 0).val; omega
      | ⟨1, _⟩ => show win4_5.index t (1 : Fin 2) * 128 + 1 * (y 1).val = (y 1).val; omega)
    (fun j' => by show win4_6.index t (1 : Fin 2) * 128 + 1 * (j' 1).val = (j' 1).val; omega)
    j

/-- An index of region 4's output array is in point `t`'s block iff each coordinate is in the block's range. -/
theorem mem_blk4 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_call0_v68).slice (win4_6.rect t)).set ↔ _
  rw [View.set_slice_whole, Rect.mem_set_unit]
  exact Iff.rfl

/-- Every row of region 4's output array lies in the block of the point numbered by its row block. -/
theorem cover4 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : grid4.N = 20 := N_4
  have ht : (i 0).val / 5000 < grid4.N := by rw [hN]; omega
  obtain ⟨e00, e01, e10, e11, e20, e21, e30, e31, e40, e41, e50, e51, e60, e61⟩ := idx_facts4 ⟨(i 0).val / 5000, ht⟩
  refine ⟨⟨(i 0).val / 5000, ht⟩, flush4_6 _, ?_⟩
  rw [mem_blk4]
  intro a
  match a with
  | ⟨0, _⟩ =>
    show win4_6.index ⟨(i 0).val / 5000, ht⟩ (0 : Fin 2) * 5000 ≤ (i 0).val ∧ (i 0).val < win4_6.index ⟨(i 0).val / 5000, ht⟩ (0 : Fin 2) * 5000 + 5000
    have hv : (⟨(i 0).val / 5000, ht⟩ : Fin grid4.N).val = (i 0).val / 5000 := rfl
    omega
  | ⟨1, _⟩ =>
    show win4_6.index ⟨(i 0).val / 5000, ht⟩ (1 : Fin 2) * 128 ≤ (i 1).val ∧ (i 1).val < win4_6.index ⟨(i 0).val / 5000, ht⟩ (1 : Fin 2) * 128 + 128
    omega

/-- Region 4's output array ends holding the operation applied to the arrays the region finds. -/
theorem final4 (c : Dev nD) :
    (dat4 V c).arrAt 6 cfg4.N = dualG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 _ (fun t _ => flushed4 V c t) (cover4)

/-! ## Region 5: a projection -/

/-- Region 5's index maps over its grid: a row-indexed window's block `t` starts at row block `t`, the small operands' windows stay at the origin. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What point `t` of region 5 writes back is block `t` of the operation applied to the whole arrays the region finds. -/
theorem flushed5 (c : Dev nD) (t : Fin cfg5.N) :
    (dat5 V c).flushed 3 t = ((cfg5.win 3).blk t).view.read (Elt Ideal) (projG (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S5000x1) hz2, View.ld_unit_zero (S := S128x128) hz2]
  rw [pay5_eq]
  obtain ⟨e00, e01, e10, e11, e20, e21, e30, e31⟩ := idx_facts5 t
  funext j
  exact projG_block (N := 100000) (n := 5000) (k := 128) (p := 128) (V c (Pipeline.arrRef spec5 0)) (V c (Pipeline.arrRef spec5 1)) (V c (Pipeline.arrRef spec5 2))
    (((cfg5.win 0).blk t).view.emb) (((cfg5.win 1).blk t).view.emb) (((cfg5.win 2).blk t).view.emb) (((cfg5.win 3).blk t).view.emb)
    (fun y z h => by show win5_0.index t (0 : Fin 2) * 5000 + 1 * (y 0).val = win5_3.index t (0 : Fin 2) * 5000 + 1 * (z 0).val; omega)
    (fun y => by show win5_0.index t (1 : Fin 2) * 128 + 1 * (y 1).val = (y 1).val; omega)
    (fun y z h => by show win5_0.index t (0 : Fin 2) * 5000 + 1 * (y 0).val = win5_1.index t (0 : Fin 2) * 5000 + 1 * (z 0).val; omega)
    (fun z => by show win5_1.index t (1 : Fin 2) * 1 + 1 * (z 1).val = 0; have hz1 : (z 1).val < 1 := (z 1).isLt; omega)
    (fun y => by
      funext a; apply Fin.ext
      match a with
      | ⟨0, _⟩ => show win5_2.index t (0 : Fin 2) * 128 + 1 * (y 0).val = (y 0).val; omega
      | ⟨1, _⟩ => show win5_2.index t (1 : Fin 2) * 128 + 1 * (y 1).val = (y 1).val; omega)
    (fun j' => by show win5_3.index t (1 : Fin 2) * 128 + 1 * (j' 1).val = (j' 1).val; omega)
    j

/-- An index of region 5's output array is in point `t`'s block iff each coordinate is in the block's range. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_call0_v70).slice (win5_3.rect t)).set ↔ _
  rw [View.set_slice_whole, Rect.mem_set_unit]
  exact Iff.rfl

/-- Every row of region 5's output array lies in the block of the point numbered by its row block. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 20 := N_5
  have ht : (i 0).val / 5000 < grid5.N := by rw [hN]; omega
  obtain ⟨e00, e01, e10, e11, e20, e21, e30, e31⟩ := idx_facts5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    have hv : (⟨(i 0).val / 5000, ht⟩ : Fin grid5.N).val = (i 0).val / 5000 := rfl
    omega
  | ⟨1, _⟩ =>
    show win5_3.index ⟨(i 0).val / 5000, ht⟩ (1 : Fin 2) * 128 ≤ (i 1).val ∧ (i 1).val < win5_3.index ⟨(i 0).val / 5000, ht⟩ (1 : Fin 2) * 128 + 128
    omega

/-- Region 5's output array ends holding the operation applied to the arrays the region finds. -/
theorem final5 (c : Dev nD) :
    (dat5 V c).arrAt 3 cfg5.N = projG (V c (Pipeline.arrRef spec5 0)) (V c (Pipeline.arrRef spec5 1)) (V c (Pipeline.arrRef spec5 2)) :=
  (dat5 V c).arrAt_eq_of_cover 3 _ (fun t _ => flushed5 V c t) (cover5)

end

end Cert.HetGCN

end
-- ==== Proof.RegionsB.lean ====
/-
  The pipelined regions of the first layer's item side and the second layer: what each leaves in its output array.

  Each dense stage runs as a pipelined region over a grid of 20 points; point t stages rows 5000·t … 5000·t + 4999 of the
  row-indexed operands, the small operands whole, and writes back the same rows of the output.  What a point writes
  back is the body's operation of its blocks; the operations are row-local, so that is the same rows of the operation
  applied to the whole arrays; the 20 blocks tile the output array; hence the output array ends holding the operation
  of the whole arrays as the region found them.
-/
import proofs.«132856_j71648644432155_2_alg».proof.Proof.Gen.KernelIdeal.Frame
import proofs.«132856_j71648644432155_2_alg».proof.Proof.Payloads
import proofs.«132856_j71648644432155_2_alg».proof.Proof.RegionsCommon

set_option maxRecDepth 16384

noncomputable section

namespace Cert.HetGCN

open Idealize.ShloMosaic Idealize.ShloMosaic.TcCoe Idealize.ShloMosaic.ValueIdx Cert.GCN Cert.KernelIdeal Cert.KernelIdeal.Gen
open Idealize.ShloMosaic.Pipeline (Dat Cfg Window)

section
variable (V : (c : Dev nD) → (b : Ref sig .tc) → Buf (Elt Ideal) ((c : Thread nD τ).loc b))

/-! ## Region 6: a post-process -/

/-- Region 6's index maps over its grid: a row-indexed window's block `t` starts at row block `t`, the small operands' windows stay at the origin. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point `t` of region 6 writes back is block `t` of the operation applied to the whole arrays the region finds. -/
theorem flushed6 (c : Dev nD) (t : Fin cfg6.N) :
    (dat6 V c).flushed 3 t = ((cfg6.win 3).blk t).view.read (Elt Ideal) (postG (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz2]
  simp only [View.ld_unit_zero (S := S5000x128) hz2, View.ld_unit_zero (S := S5000x1) hz2, View.ld_unit_zero (S := S1x128) hz2]
  rw [pay6_eq]
  obtain ⟨e00, e01, e10, e11, e20, e21, e30, e31⟩ := idx_facts6 t
  funext j
  exact postG_block (N := 100000) (n := 5000) (p := 128) (V c (Pipeline.arrRef spec6 0)) (V c (Pipeline.arrRef spec6 1)) (V c (Pipeline.arrRef spec6 2))
    (((cfg6.win 0).blk t).view.emb) (((cfg6.win 1).blk t).view.emb) (((cfg6.win 2).blk t).view.emb) (((cfg6.win 3).blk t).view.emb)
    (fun j' => by
      funext a; apply Fin.ext
      match a with
      | ⟨0, _⟩ => show win6_0.index t (0 : Fin 2) * 5000 + 1 * (j' 0).val = win6_3.index t (0 : Fin 2) * 5000 + 1 * (j' 0).val; omega
      | ⟨1, _⟩ => show win6_0.index t (1 : Fin 2) * 128 + 1 * (j' 1).val = win6_3.index t (1 : Fin 2) * 128 + 1 * (j' 1).val; omega)
    (fun y z h => by show win6_0.index t (0 : Fin 2) * 5000 + 1 * (y 0).val = win6_1.index t (0 : Fin 2) * 5000 + 1 * (z 0).val; omega)
    (fun z => by show win6_1.index t (1 : Fin 2) * 1 + 1 * (z 1).val = 0; have hz1 : (z 1).val < 1 := (z 1).isLt; omega)
    (fun y => by
      funext a; apply Fin.ext
      match a with
      | ⟨0, _⟩ => show win6_2.index t (0 : Fin 2) * 1 + 1 * (y 0).val = (y 0).val; omega
      | ⟨1, _⟩ => show win6_2.index t (1 : Fin 2) * 128 + 1 * (y 1).val = (y 1).val; omega)
    (fun j' => by show win6_3.index t (1 : Fin 2) * 128 + 1 * (j' 1).val = (j' 1).val; omega)
    j

/-- An index of region 6's output array is in point `t`'s block iff each coordinate is in the block's range. -/
theorem mem_blk6 (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_call0_v83).slice (win6_3.rect t)).set ↔ _
  rw [View.set_slice_whole, Rect.mem_set_unit]
  exact Iff.rfl

/-- Every row of region 6's output array lies in the block of the point numbered by its row block. -/
theorem cover6 (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  have hN : grid6.N = 20 := N_6
  have ht : (i 0).val / 5000 < grid6.N := by rw [hN]; omega
  obtain ⟨e00, e01, e10, e11, e20, e21, e30, e31⟩ := idx_facts6 ⟨(i 0).val / 5000, ht⟩
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    have hv : (⟨(i 0).val / 5000, ht⟩ : Fin grid6.N).val = (i 0).val / 5000 := rfl
    omega
  | ⟨1, _⟩ =>
    show win6_3.index ⟨(i 0).val / 5000, ht⟩ (1 : Fin 2) * 128 ≤ (i 1).val ∧ (i 1).val < win6_3.index ⟨(i 0).val / 5000, ht⟩ (1 : Fin 2) * 128 + 128
    omega

/-- Region 6's output array ends holding the operation applied to the arrays the region finds. -/
theorem final6 (c : Dev nD) :
    (dat6 V c).arrAt 3 cfg6.N = postG (V c (Pipeline.arrRef spec6 0)) (V c (Pipeline.arrRef spec6 1)) (V c (Pipeline.arrRef spec6 2)) :=
  (dat6 V c).arrAt_eq_of_cover 3 _ (fun t _ => flushed6 V c t) (cover6)

/-! ## Region 7: a projection -/

/-- Region 7's index maps over its grid: a row-indexed window's block `t` starts at row block `t`, the small operands' windows stay at the origin. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- What point `t` of region 7 writes back is block `t` of the operation applied to the whole arrays the region finds. -/
theorem flushed7 (c : Dev nD) (t : Fin cfg7.N) :
    (dat7 V c).flushed 3 t = ((cfg7.win 3).blk t).view.read (Elt Ideal) (projG (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S5000x1) hz2, View.ld_unit_zero (S := S128x128) hz2]
  rw [pay7_eq]
  obtain ⟨e00, e01, e10, e11, e20, e21, e30, e31⟩ := idx_facts7 t
  funext j
  exact projG_block (N := 100000) (n := 5000) (k := 128) (p := 128) (V c (Pipeline.arrRef spec7 0)) (V c (Pipeline.arrRef spec7 1)) (V c (Pipeline.arrRef spec7 2))
    (((cfg7.win 0).blk t).view.emb) (((cfg7.win 1).blk t).view.emb) (((cfg7.win 2).blk t).view.emb) (((cfg7.win 3).blk t).view.emb)
    (fun y z h => by show win7_0.index t (0 : Fin 2) * 5000 + 1 * (y 0).val = win7_3.index t (0 : Fin 2) * 5000 + 1 * (z 0).val; omega)
    (fun y => by show win7_0.index t (1 : Fin 2) * 128 + 1 * (y 1).val = (y 1).val; omega)
    (fun y z h => by show win7_0.index t (0 : Fin 2) * 5000 + 1 * (y 0).val = win7_1.index t (0 : Fin 2) * 5000 + 1 * (z 0).val; omega)
    (fun z => by show win7_1.index t (1 : Fin 2) * 1 + 1 * (z 1).val = 0; have hz1 : (z 1).val < 1 := (z 1).isLt; omega)
    (fun y => by
      funext a; apply Fin.ext
      match a with
      | ⟨0, _⟩ => show win7_2.index t (0 : Fin 2) * 128 + 1 * (y 0).val = (y 0).val; omega
      | ⟨1, _⟩ => show win7_2.index t (1 : Fin 2) * 128 + 1 * (y 1).val = (y 1).val; omega)
    (fun j' => by show win7_3.index t (1 : Fin 2) * 128 + 1 * (j' 1).val = (j' 1).val; omega)
    j

/-- An index of region 7's output array is in point `t`'s block iff each coordinate is in the block's range. -/
theorem mem_blk7 (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_call0_v85).slice (win7_3.rect t)).set ↔ _
  rw [View.set_slice_whole, Rect.mem_set_unit]
  exact Iff.rfl

/-- Every row of region 7's output array lies in the block of the point numbered by its row block. -/
theorem cover7 (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  have hN : grid7.N = 20 := N_7
  have ht : (i 0).val / 5000 < grid7.N := by rw [hN]; omega
  obtain ⟨e00, e01, e10, e11, e20, e21, e30, e31⟩ := idx_facts7 ⟨(i 0).val / 5000, ht⟩
  refine ⟨⟨(i 0).val / 5000, ht⟩, flush7_3 _, ?_⟩
  rw [mem_blk7]
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    have hv : (⟨(i 0).val / 5000, ht⟩ : Fin grid7.N).val = (i 0).val / 5000 := rfl
    omega
  | ⟨1, _⟩ =>
    show win7_3.index ⟨(i 0).val / 5000, ht⟩ (1 : Fin 2) * 128 ≤ (i 1).val ∧ (i 1).val < win7_3.index ⟨(i 0).val / 5000, ht⟩ (1 : Fin 2) * 128 + 128
    omega

/-- Region 7's output array ends holding the operation applied to the arrays the region finds. -/
theorem final7 (c : Dev nD) :
    (dat7 V c).arrAt 3 cfg7.N = projG (V c (Pipeline.arrRef spec7 0)) (V c (Pipeline.arrRef spec7 1)) (V c (Pipeline.arrRef spec7 2)) :=
  (dat7 V c).arrAt_eq_of_cover 3 _ (fun t _ => flushed7 V c t) (cover7)

/-! ## Region 8: a projection -/

/-- Region 8's index maps over its grid: a row-indexed window's block `t` starts at row block `t`, the small operands' windows stay at the origin. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- What point `t` of region 8 writes back is block `t` of the operation applied to the whole arrays the region finds. -/
theorem flushed8 (c : Dev nD) (t : Fin cfg8.N) :
    (dat8 V c).flushed 3 t = ((cfg8.win 3).blk t).view.read (Elt Ideal) (projG (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz2]
  simp only [View.ld_unit_zero (S := S5000x128) hz2, View.ld_unit_zero (S := S5000x1) hz2, View.ld_unit_zero (S := S128x128) hz2]
  rw [pay8_eq]
  obtain ⟨e00, e01, e10, e11, e20, e21, e30, e31⟩ := idx_facts8 t
  funext j
  exact projG_block (N := 100000) (n := 5000) (k := 128) (p := 128) (V c (Pipeline.arrRef spec8 0)) (V c (Pipeline.arrRef spec8 1)) (V c (Pipeline.arrRef spec8 2))
    (((cfg8.win 0).blk t).view.emb) (((cfg8.win 1).blk t).view.emb) (((cfg8.win 2).blk t).view.emb) (((cfg8.win 3).blk t).view.emb)
    (fun y z h => by show win8_0.index t (0 : Fin 2) * 5000 + 1 * (y 0).val = win8_3.index t (0 : Fin 2) * 5000 + 1 * (z 0).val; omega)
    (fun y => by show win8_0.index t (1 : Fin 2) * 128 + 1 * (y 1).val = (y 1).val; omega)
    (fun y z h => by show win8_0.index t (0 : Fin 2) * 5000 + 1 * (y 0).val = win8_1.index t (0 : Fin 2) * 5000 + 1 * (z 0).val; omega)
    (fun z => by show win8_1.index t (1 : Fin 2) * 1 + 1 * (z 1).val = 0; have hz1 : (z 1).val < 1 := (z 1).isLt; omega)
    (fun y => by
      funext a; apply Fin.ext
      match a with
      | ⟨0, _⟩ => show win8_2.index t (0 : Fin 2) * 128 + 1 * (y 0).val = (y 0).val; omega
      | ⟨1, _⟩ => show win8_2.index t (1 : Fin 2) * 128 + 1 * (y 1).val = (y 1).val; omega)
    (fun j' => by show win8_3.index t (1 : Fin 2) * 128 + 1 * (j' 1).val = (j' 1).val; omega)
    j

/-- An index of region 8's output array is in point `t`'s block iff each coordinate is in the block's range. -/
theorem mem_blk8 (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_call0_v97).slice (win8_3.rect t)).set ↔ _
  rw [View.set_slice_whole, Rect.mem_set_unit]
  exact Iff.rfl

/-- Every row of region 8's output array lies in the block of the point numbered by its row block. -/
theorem cover8 (i : S100000x128.Idx) : ∃ t : Fin cfg8.N, (cfg8.win 3).flush t = true ∧ i ∈ ((cfg8.win 3).blk t).view.set := by
  have hi0 : (i 0).val < 100000 := (i 0).isLt
  have hi1 : (i 1).val < 128 := (i 1).isLt
  have hN : grid8.N = 20 := N_8
  have ht : (i 0).val / 5000 < grid8.N := by rw [hN]; omega
  obtain ⟨e00, e01, e10, e11, e20, e21, e30, e31⟩ := idx_facts8 ⟨(i 0).val / 5000, ht⟩
  refine ⟨⟨(i 0).val / 5000, ht⟩, flush8_3 _, ?_⟩
  rw [mem_blk8]
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    have hv : (⟨(i 0).val / 5000, ht⟩ : Fin grid8.N).val = (i 0).val / 5000 := rfl
    omega
  | ⟨1, _⟩ =>
    show win8_3.index ⟨(i 0).val / 5000, ht⟩ (1 : Fin 2) * 128 ≤ (i 1).val ∧ (i 1).val < win8_3.index ⟨(i 0).val / 5000, ht⟩ (1 : Fin 2) * 128 + 128
    omega

/-- Region 8's output array ends holding the operation applied to the arrays the region finds. -/
theorem final8 (c : Dev nD) :
    (dat8 V c).arrAt 3 cfg8.N = projG (V c (Pipeline.arrRef spec8 0)) (V c (Pipeline.arrRef spec8 1)) (V c (Pipeline.arrRef spec8 2)) :=
  (dat8 V c).arrAt_eq_of_cover 3 _ (fun t _ => flushed8 V c t) (cover8)

/-! ## Region 9: a sum of two post-processes -/

/-- Region 9's index maps over its grid: a row-indexed window's block `t` starts at row block `t`, the small operands' windows stay at the origin. -/
theorem idx_facts9 : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0
    ∧ win9_4.index t (0 : Fin 2) = t.val
    ∧ win9_4.index t (1 : Fin 2) = 0
    ∧ win9_5.index t (0 : Fin 2) = 0
    ∧ win9_5.index t (1 : Fin 2) = 0
    ∧ win9_6.index t (0 : Fin 2) = t.val
    ∧ win9_6.index t (1 : Fin 2) = 0 :=
  (by decide +kernel : ∀ t : Fin grid9.N, _)

/-- What point `t` of region 9 writes back is block `t` of the operation applied to the whole arrays the region finds. -/
theorem flushed9 (c : Dev nD) (t : Fin cfg9.N) :
    (dat9 V c).flushed 6 t = ((cfg9.win 6).blk t).view.read (Elt Ideal) (dualG (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero hz2]
  simp only [View.ld_unit_zero (S := S5000x128) hz2, View.ld_unit_zero (S := S5000x1) hz2, View.ld_unit_zero (S := S1x128) hz2]
  rw [pay9_eq]
  obtain ⟨e00, e01, e10, e11, e20, e21, e30, e31, e40, e41, e50, e51, e60, e61⟩ := idx_facts9 t
  funext j
  exact dualG_block (N := 100000) (n := 5000) (p := 128) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))
    (((cfg9.win 0).blk t).view.emb) (((cfg9.win 1).blk t).view.emb) (((cfg9.win 2).blk t).view.emb) (((cfg9.win 3).blk t).view.emb) (((cfg9.win 4).blk t).view.emb) (((cfg9.win 5).blk t).view.emb) (((cfg9.win 6).blk t).view.emb)
    (fun j' => by
      funext a; apply Fin.ext
      match a with
      | ⟨0, _⟩ => show win9_0.index t (0 : Fin 2) * 5000 + 1 * (j' 0).val = win9_6.index t (0 : Fin 2) * 5000 + 1 * (j' 0).val; omega
      | ⟨1, _⟩ => show win9_0.index t (1 : Fin 2) * 128 + 1 * (j' 1).val = win9_6.index t (1 : Fin 2) * 128 + 1 * (j' 1).val; omega)
    (fun y z h => by show win9_0.index t (0 : Fin 2) * 5000 + 1 * (y 0).val = win9_1.index t (0 : Fin 2) * 5000 + 1 * (z 0).val; omega)
    (fun z => by show win9_1.index t (1 : Fin 2) * 1 + 1 * (z 1).val = 0; have hz1 : (z 1).val < 1 := (z 1).isLt; omega)
    (fun y => by
      funext a; apply Fin.ext
      match a with
      | ⟨0, _⟩ => show win9_2.index t (0 : Fin 2) * 1 + 1 * (y 0).val = (y 0).val; omega
      | ⟨1, _⟩ => show win9_2.index t (1 : Fin 2) * 128 + 1 * (y 1).val = (y 1).val; omega)
    (fun j' => by
      funext a; apply Fin.ext
      match a with
      | ⟨0, _⟩ => show win9_3.index t (0 : Fin 2) * 5000 + 1 * (j' 0).val = win9_6.index t (0 : Fin 2) * 5000 + 1 * (j' 0).val; omega
      | ⟨1, _⟩ => show win9_3.index t (1 : Fin 2) * 128 + 1 * (j' 1).val = win9_6.index t (1 : Fin 2) * 128 + 1 * (j' 1).val; omega)
    (fun y z h => by show win9_3.index t (0 : Fin 2) * 5000 + 1 * (y 0).val = win9_4.index t (0 : Fin 2) * 5000 + 1 * (z 0).val; omega)
    (fun z => by show win9_4.index t (1 : Fin 2) * 1 + 1 * (z 1).val = 0; have hz1 : (z 1).val < 1 := (z 1).isLt; omega)
    (fun y => by
      funext a; apply Fin.ext
      match a with
      | ⟨0, _⟩ => show win9_5.index t (0 : Fin 2) * 1 + 1 * (y 0).val = (y 0).val; omega
      | ⟨1, _⟩ => show win9_5.index t (1 : Fin 2) * 128 + 1 * (y 1).val = (y 1).val; omega)
    (fun j' => by show win9_6.index t (1 : Fin 2) * 128 + 1 * (j' 1).val = (j' 1).val; omega)
    j

/-- An index of region 9's output array is in point `t`'s block iff each coordinate is in the block's range. -/
theorem mem_blk9 (t : Fin cfg9.N) (i : S100000x128.Idx) :
    i ∈ ((cfg9.win 6).blk t).view.set ↔ ∀ a : Fin 2, win9_6.index t a * S5000x128.size a ≤ (i a).val ∧ (i a).val < win9_6.index t a * S5000x128.size a + S5000x128.size a := by
  show i ∈ ((View.whole main_call0_v112).slice (win9_6.rect t)).set ↔ _
  rw [View.set_slice_whole, Rect.mem_set_unit]
  exact Iff.rfl

/-- Every row of region 9's output array lies in the block of the point numbered by its row block. -/
theorem cover9 (i : S100000x128.Idx) : ∃ t : Fin cfg9.N, (cfg9.win 6).flush t = true ∧ i ∈ ((cfg9.win 6).blk t).view.set := by
  have hi0 : (i 0).val < 100000 := (i 0).isLt
  have hi1 : (i 1).val < 128 := (i 1).isLt
  have hN : grid9.N = 20 := N_9
  have ht : (i 0).val / 5000 < grid9.N := by rw [hN]; omega
  obtain ⟨e00, e01, e10, e11, e20, e21, e30, e31, e40, e41, e50, e51, e60, e61⟩ := idx_facts9 ⟨(i 0).val / 5000, ht⟩
  refine ⟨⟨(i 0).val / 5000, ht⟩, flush9_6 _, ?_⟩
  rw [mem_blk9]
  intro a
  match a with
  | ⟨0, _⟩ =>
    show win9_6.index ⟨(i 0).val / 5000, ht⟩ (0 : Fin 2) * 5000 ≤ (i 0).val ∧ (i 0).val < win9_6.index ⟨(i 0).val / 5000, ht⟩ (0 : Fin 2) * 5000 + 5000
    have hv : (⟨(i 0).val / 5000, ht⟩ : Fin grid9.N).val = (i 0).val / 5000 := rfl
    omega
  | ⟨1, _⟩ =>
    show win9_6.index ⟨(i 0).val / 5000, ht⟩ (1 : Fin 2) * 128 ≤ (i 1).val ∧ (i 1).val < win9_6.index ⟨(i 0).val / 5000, ht⟩ (1 : Fin 2) * 128 + 128
    omega

/-- Region 9's output array ends holding the operation applied to the arrays the region finds. -/
theorem final9 (c : Dev nD) :
    (dat9 V c).arrAt 6 cfg9.N = dualG (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9 V c t) (cover9)

/-! ## Region 10: a projection -/

/-- Region 10's index maps over its grid: a row-indexed window's block `t` starts at row block `t`, the small operands' windows stay at the origin. -/
theorem idx_facts10 : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

/-- What point `t` of region 10 writes back is block `t` of the operation applied to the whole arrays the region finds. -/
theorem flushed10 (c : Dev nD) (t : Fin cfg10.N) :
    (dat10 V c).flushed 3 t = ((cfg10.win 3).blk t).view.read (Elt Ideal) (projG (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz2]
  simp only [View.ld_unit_zero (S := S5000x128) hz2, View.ld_unit_zero (S := S5000x1) hz2, View.ld_unit_zero (S := S128x128) hz2]
  rw [pay10_eq]
  obtain ⟨e00, e01, e10, e11, e20, e21, e30, e31⟩ := idx_facts10 t
  funext j
  exact projG_block (N := 100000) (n := 5000) (k := 128) (p := 128) (V c (Pipeline.arrRef spec10 0)) (V c (Pipeline.arrRef spec10 1)) (V c (Pipeline.arrRef spec10 2))
    (((cfg10.win 0).blk t).view.emb) (((cfg10.win 1).blk t).view.emb) (((cfg10.win 2).blk t).view.emb) (((cfg10.win 3).blk t).view.emb)
    (fun y z h => by show win10_0.index t (0 : Fin 2) * 5000 + 1 * (y 0).val = win10_3.index t (0 : Fin 2) * 5000 + 1 * (z 0).val; omega)
    (fun y => by show win10_0.index t (1 : Fin 2) * 128 + 1 * (y 1).val = (y 1).val; omega)
    (fun y z h => by show win10_0.index t (0 : Fin 2) * 5000 + 1 * (y 0).val = win10_1.index t (0 : Fin 2) * 5000 + 1 * (z 0).val; omega)
    (fun z => by show win10_1.index t (1 : Fin 2) * 1 + 1 * (z 1).val = 0; have hz1 : (z 1).val < 1 := (z 1).isLt; omega)
    (fun y => by
      funext a; apply Fin.ext
      match a with
      | ⟨0, _⟩ => show win10_2.index t (0 : Fin 2) * 128 + 1 * (y 0).val = (y 0).val; omega
      | ⟨1, _⟩ => show win10_2.index t (1 : Fin 2) * 128 + 1 * (y 1).val = (y 1).val; omega)
    (fun j' => by show win10_3.index t (1 : Fin 2) * 128 + 1 * (j' 1).val = (j' 1).val; omega)
    j

/-- An index of region 10's output array is in point `t`'s block iff each coordinate is in the block's range. -/
theorem mem_blk10 (t : Fin cfg10.N) (i : S100000x128.Idx) :
    i ∈ ((cfg10.win 3).blk t).view.set ↔ ∀ a : Fin 2, win10_3.index t a * S5000x128.size a ≤ (i a).val ∧ (i a).val < win10_3.index t a * S5000x128.size a + S5000x128.size a := by
  show i ∈ ((View.whole main_call0_v114).slice (win10_3.rect t)).set ↔ _
  rw [View.set_slice_whole, Rect.mem_set_unit]
  exact Iff.rfl

/-- Every row of region 10's output array lies in the block of the point numbered by its row block. -/
theorem cover10 (i : S100000x128.Idx) : ∃ t : Fin cfg10.N, (cfg10.win 3).flush t = true ∧ i ∈ ((cfg10.win 3).blk t).view.set := by
  have hi0 : (i 0).val < 100000 := (i 0).isLt
  have hi1 : (i 1).val < 128 := (i 1).isLt
  have hN : grid10.N = 20 := N_10
  have ht : (i 0).val / 5000 < grid10.N := by rw [hN]; omega
  obtain ⟨e00, e01, e10, e11, e20, e21, e30, e31⟩ := idx_facts10 ⟨(i 0).val / 5000, ht⟩
  refine ⟨⟨(i 0).val / 5000, ht⟩, flush10_3 _, ?_⟩
  rw [mem_blk10]
  intro a
  match a with
  | ⟨0, _⟩ =>
    show win10_3.index ⟨(i 0).val / 5000, ht⟩ (0 : Fin 2) * 5000 ≤ (i 0).val ∧ (i 0).val < win10_3.index ⟨(i 0).val / 5000, ht⟩ (0 : Fin 2) * 5000 + 5000
    have hv : (⟨(i 0).val / 5000, ht⟩ : Fin grid10.N).val = (i 0).val / 5000 := rfl
    omega
  | ⟨1, _⟩ =>
    show win10_3.index ⟨(i 0).val / 5000, ht⟩ (1 : Fin 2) * 128 ≤ (i 1).val ∧ (i 1).val < win10_3.index ⟨(i 0).val / 5000, ht⟩ (1 : Fin 2) * 128 + 128
    omega

/-- Region 10's output array ends holding the operation applied to the arrays the region finds. -/
theorem final10 (c : Dev nD) :
    (dat10 V c).arrAt 3 cfg10.N = projG (V c (Pipeline.arrRef spec10 0)) (V c (Pipeline.arrRef spec10 1)) (V c (Pipeline.arrRef spec10 2)) :=
  (dat10 V c).arrAt_eq_of_cover 3 _ (fun t _ => flushed10 V c t) (cover10)

/-! ## Region 11: a post-process -/

/-- Region 11's index maps over its grid: a row-indexed window's block `t` starts at row block `t`, the small operands' windows stay at the origin. -/
theorem idx_facts11 : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = t.val
    ∧ win11_3.index t (1 : Fin 2) = 0 :=
  (by decide +kernel : ∀ t : Fin grid11.N, _)

/-- What point `t` of region 11 writes back is block `t` of the operation applied to the whole arrays the region finds. -/
theorem flushed11 (c : Dev nD) (t : Fin cfg11.N) :
    (dat11 V c).flushed 3 t = ((cfg11.win 3).blk t).view.read (Elt Ideal) (postG (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz2]
  simp only [View.ld_unit_zero (S := S5000x128) hz2, View.ld_unit_zero (S := S5000x1) hz2, View.ld_unit_zero (S := S1x128) hz2]
  rw [pay11_eq]
  obtain ⟨e00, e01, e10, e11, e20, e21, e30, e31⟩ := idx_facts11 t
  funext j
  exact postG_block (N := 100000) (n := 5000) (p := 128) (V c (Pipeline.arrRef spec11 0)) (V c (Pipeline.arrRef spec11 1)) (V c (Pipeline.arrRef spec11 2))
    (((cfg11.win 0).blk t).view.emb) (((cfg11.win 1).blk t).view.emb) (((cfg11.win 2).blk t).view.emb) (((cfg11.win 3).blk t).view.emb)
    (fun j' => by
      funext a; apply Fin.ext
      match a with
      | ⟨0, _⟩ => show win11_0.index t (0 : Fin 2) * 5000 + 1 * (j' 0).val = win11_3.index t (0 : Fin 2) * 5000 + 1 * (j' 0).val; omega
      | ⟨1, _⟩ => show win11_0.index t (1 : Fin 2) * 128 + 1 * (j' 1).val = win11_3.index t (1 : Fin 2) * 128 + 1 * (j' 1).val; omega)
    (fun y z h => by show win11_0.index t (0 : Fin 2) * 5000 + 1 * (y 0).val = win11_1.index t (0 : Fin 2) * 5000 + 1 * (z 0).val; omega)
    (fun z => by show win11_1.index t (1 : Fin 2) * 1 + 1 * (z 1).val = 0; have hz1 : (z 1).val < 1 := (z 1).isLt; omega)
    (fun y => by
      funext a; apply Fin.ext
      match a with
      | ⟨0, _⟩ => show win11_2.index t (0 : Fin 2) * 1 + 1 * (y 0).val = (y 0).val; omega
      | ⟨1, _⟩ => show win11_2.index t (1 : Fin 2) * 128 + 1 * (y 1).val = (y 1).val; omega)
    (fun j' => by show win11_3.index t (1 : Fin 2) * 128 + 1 * (j' 1).val = (j' 1).val; omega)
    j

/-- An index of region 11's output array is in point `t`'s block iff each coordinate is in the block's range. -/
theorem mem_blk11 (t : Fin cfg11.N) (i : S100000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_call0_v127).slice (win11_3.rect t)).set ↔ _
  rw [View.set_slice_whole, Rect.mem_set_unit]
  exact Iff.rfl

/-- Every row of region 11's output array lies in the block of the point numbered by its row block. -/
theorem cover11 (i : S100000x128.Idx) : ∃ t : Fin cfg11.N, (cfg11.win 3).flush t = true ∧ i ∈ ((cfg11.win 3).blk t).view.set := by
  have hi0 : (i 0).val < 100000 := (i 0).isLt
  have hi1 : (i 1).val < 128 := (i 1).isLt
  have hN : grid11.N = 20 := N_11
  have ht : (i 0).val / 5000 < grid11.N := by rw [hN]; omega
  obtain ⟨e00, e01, e10, e11, e20, e21, e30, e31⟩ := idx_facts11 ⟨(i 0).val / 5000, ht⟩
  refine ⟨⟨(i 0).val / 5000, ht⟩, flush11_3 _, ?_⟩
  rw [mem_blk11]
  intro a
  match a with
  | ⟨0, _⟩ =>
    show win11_3.index ⟨(i 0).val / 5000, ht⟩ (0 : Fin 2) * 5000 ≤ (i 0).val ∧ (i 0).val < win11_3.index ⟨(i 0).val / 5000, ht⟩ (0 : Fin 2) * 5000 + 5000
    have hv : (⟨(i 0).val / 5000, ht⟩ : Fin grid11.N).val = (i 0).val / 5000 := rfl
    omega
  | ⟨1, _⟩ =>
    show win11_3.index ⟨(i 0).val / 5000, ht⟩ (1 : Fin 2) * 128 ≤ (i 1).val ∧ (i 1).val < win11_3.index ⟨(i 0).val / 5000, ht⟩ (1 : Fin 2) * 128 + 128
    omega

/-- Region 11's output array ends holding the operation applied to the arrays the region finds. -/
theorem final11 (c : Dev nD) :
    (dat11 V c).arrAt 3 cfg11.N = postG (V c (Pipeline.arrRef spec11 0)) (V c (Pipeline.arrRef spec11 1)) (V c (Pipeline.arrRef spec11 2)) :=
  (dat11 V c).arrAt_eq_of_cover 3 _ (fun t _ => flushed11 V c t) (cover11)

end

end Cert.HetGCN

end
-- ==== Proof.RegionsC.lean ====
/-
  The pipelined regions of the third layer: what each leaves in its output array.

  Each dense stage runs as a pipelined region over a grid of 20 points; point t stages rows 5000·t … 5000·t + 4999 of the
  row-indexed operands, the small operands whole, and writes back the same rows of the output.  What a point writes
  back is the body's operation of its blocks; the operations are row-local, so that is the same rows of the operation
  applied to the whole arrays; the 20 blocks tile the output array; hence the output array ends holding the operation
  of the whole arrays as the region found them.
-/
import proofs.«132856_j71648644432155_2_alg».proof.Proof.Gen.KernelIdeal.Frame
import proofs.«132856_j71648644432155_2_alg».proof.Proof.Payloads
import proofs.«132856_j71648644432155_2_alg».proof.Proof.RegionsCommon

set_option maxRecDepth 16384

noncomputable section

namespace Cert.HetGCN

open Idealize.ShloMosaic Idealize.ShloMosaic.TcCoe Idealize.ShloMosaic.ValueIdx Cert.GCN Cert.KernelIdeal Cert.KernelIdeal.Gen
open Idealize.ShloMosaic.Pipeline (Dat Cfg Window)

section
variable (V : (c : Dev nD) → (b : Ref sig .tc) → Buf (Elt Ideal) ((c : Thread nD τ).loc b))

/-! ## Region 12: a projection -/

/-- Region 12's index maps over its grid: a row-indexed window's block `t` starts at row block `t`, the small operands' windows stay at the origin. -/
theorem idx_facts12 : ∀ t : Fin cfg12.N, win12_0.index t (0 : Fin 2) = t.val
    ∧ win12_0.index t (1 : Fin 2) = 0
    ∧ win12_1.index t (0 : Fin 2) = t.val
    ∧ win12_1.index t (1 : Fin 2) = 0
    ∧ win12_2.index t (0 : Fin 2) = 0
    ∧ win12_2.index t (1 : Fin 2) = 0
    ∧ win12_3.index t (0 : Fin 2) = t.val
    ∧ win12_3.index t (1 : Fin 2) = 0 :=
  (by decide +kernel : ∀ t : Fin grid12.N, _)

set_option maxHeartbeats 2000000 in
/-- What point `t` of region 12 writes back is block `t` of the operation applied to the whole arrays the region finds. -/
theorem flushed12 (c : Dev nD) (t : Fin cfg12.N) :
    (dat12 V c).flushed 3 t = ((cfg12.win 3).blk t).view.read (Elt Ideal) (projG (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz2]
  simp only [View.ld_unit_zero (S := S5000x128) hz2, View.ld_unit_zero (S := S5000x1) hz2, View.ld_unit_zero (S := S128x128) hz2]
  rw [pay12_eq]
  obtain ⟨e00, e01, e10, e11, e20, e21, e30, e31⟩ := idx_facts12 t
  funext j
  exact projG_block (N := 100000) (n := 5000) (k := 128) (p := 128) (V c (Pipeline.arrRef spec12 0)) (V c (Pipeline.arrRef spec12 1)) (V c (Pipeline.arrRef spec12 2))
    (((cfg12.win 0).blk t).view.emb) (((cfg12.win 1).blk t).view.emb) (((cfg12.win 2).blk t).view.emb) (((cfg12.win 3).blk t).view.emb)
    (fun y z h => by show win12_0.index t (0 : Fin 2) * 5000 + 1 * (y 0).val = win12_3.index t (0 : Fin 2) * 5000 + 1 * (z 0).val; omega)
    (fun y => by show win12_0.index t (1 : Fin 2) * 128 + 1 * (y 1).val = (y 1).val; omega)
    (fun y z h => by show win12_0.index t (0 : Fin 2) * 5000 + 1 * (y 0).val = win12_1.index t (0 : Fin 2) * 5000 + 1 * (z 0).val; omega)
    (fun z => by show win12_1.index t (1 : Fin 2) * 1 + 1 * (z 1).val = 0; have hz1 : (z 1).val < 1 := (z 1).isLt; omega)
    (fun y => by
      funext a; apply Fin.ext
      match a with
      | ⟨0, _⟩ => show win12_2.index t (0 : Fin 2) * 128 + 1 * (y 0).val = (y 0).val; omega
      | ⟨1, _⟩ => show win12_2.index t (1 : Fin 2) * 128 + 1 * (y 1).val = (y 1).val; omega)
    (fun j' => by show win12_3.index t (1 : Fin 2) * 128 + 1 * (j' 1).val = (j' 1).val; omega)
    j

/-- An index of region 12's output array is in point `t`'s block iff each coordinate is in the block's range. -/
theorem mem_blk12 (t : Fin cfg12.N) (i : S100000x128.Idx) :
    i ∈ ((cfg12.win 3).blk t).view.set ↔ ∀ a : Fin 2, win12_3.index t a * S5000x128.size a ≤ (i a).val ∧ (i a).val < win12_3.index t a * S5000x128.size a + S5000x128.size a := by
  show i ∈ ((View.whole main_call0_v129).slice (win12_3.rect t)).set ↔ _
  rw [View.set_slice_whole, Rect.mem_set_unit]
  exact Iff.rfl

/-- Every row of region 12's output array lies in the block of the point numbered by its row block. -/
theorem cover12 (i : S100000x128.Idx) : ∃ t : Fin cfg12.N, (cfg12.win 3).flush t = true ∧ i ∈ ((cfg12.win 3).blk t).view.set := by
  have hi0 : (i 0).val < 100000 := (i 0).isLt
  have hi1 : (i 1).val < 128 := (i 1).isLt
  have hN : grid12.N = 20 := N_12
  have ht : (i 0).val / 5000 < grid12.N := by rw [hN]; omega
  obtain ⟨e00, e01, e10, e11, e20, e21, e30, e31⟩ := idx_facts12 ⟨(i 0).val / 5000, ht⟩
  refine ⟨⟨(i 0).val / 5000, ht⟩, flush12_3 _, ?_⟩
  rw [mem_blk12]
  intro a
  match a with
  | ⟨0, _⟩ =>
    show win12_3.index ⟨(i 0).val / 5000, ht⟩ (0 : Fin 2) * 5000 ≤ (i 0).val ∧ (i 0).val < win12_3.index ⟨(i 0).val / 5000, ht⟩ (0 : Fin 2) * 5000 + 5000
    have hv : (⟨(i 0).val / 5000, ht⟩ : Fin grid12.N).val = (i 0).val / 5000 := rfl
    omega
  | ⟨1, _⟩ =>
    show win12_3.index ⟨(i 0).val / 5000, ht⟩ (1 : Fin 2) * 128 ≤ (i 1).val ∧ (i 1).val < win12_3.index ⟨(i 0).val / 5000, ht⟩ (1 : Fin 2) * 128 + 128
    omega

/-- Region 12's output array ends holding the operation applied to the arrays the region finds. -/
theorem final12 (c : Dev nD) :
    (dat12 V c).arrAt 3 cfg12.N = projG (V c (Pipeline.arrRef spec12 0)) (V c (Pipeline.arrRef spec12 1)) (V c (Pipeline.arrRef spec12 2)) :=
  (dat12 V c).arrAt_eq_of_cover 3 _ (fun t _ => flushed12 V c t) (cover12)

/-! ## Region 13: a projection -/

/-- Region 13's index maps over its grid: a row-indexed window's block `t` starts at row block `t`, the small operands' windows stay at the origin. -/
theorem idx_facts13 : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = t.val
    ∧ win13_3.index t (1 : Fin 2) = 0 :=
  (by decide +kernel : ∀ t : Fin grid13.N, _)

set_option maxHeartbeats 2000000 in
/-- What point `t` of region 13 writes back is block `t` of the operation applied to the whole arrays the region finds. -/
theorem flushed13 (c : Dev nD) (t : Fin cfg13.N) :
    (dat13 V c).flushed 3 t = ((cfg13.win 3).blk t).view.read (Elt Ideal) (projG (V c (Pipeline.arrRef spec13 0)) (V c (Pipeline.arrRef spec13 1)) (V c (Pipeline.arrRef spec13 2))) := by
  show (cfg13.win 3).cut (grid13.coords t) ((dat13 V c).after 3 t) = _
  rw [after13_3]
  unfold out13_3
  rw [View.canon_unit_zero hz2]
  simp only [View.ld_unit_zero (S := S5000x128) hz2, View.ld_unit_zero (S := S5000x1) hz2, View.ld_unit_zero (S := S128x128) hz2]
  rw [pay13_eq]
  obtain ⟨e00, e01, e10, e11, e20, e21, e30, e31⟩ := idx_facts13 t
  funext j
  exact projG_block (N := 100000) (n := 5000) (k := 128) (p := 128) (V c (Pipeline.arrRef spec13 0)) (V c (Pipeline.arrRef spec13 1)) (V c (Pipeline.arrRef spec13 2))
    (((cfg13.win 0).blk t).view.emb) (((cfg13.win 1).blk t).view.emb) (((cfg13.win 2).blk t).view.emb) (((cfg13.win 3).blk t).view.emb)
    (fun y z h => by show win13_0.index t (0 : Fin 2) * 5000 + 1 * (y 0).val = win13_3.index t (0 : Fin 2) * 5000 + 1 * (z 0).val; omega)
    (fun y => by show win13_0.index t (1 : Fin 2) * 128 + 1 * (y 1).val = (y 1).val; omega)
    (fun y z h => by show win13_0.index t (0 : Fin 2) * 5000 + 1 * (y 0).val = win13_1.index t (0 : Fin 2) * 5000 + 1 * (z 0).val; omega)
    (fun z => by show win13_1.index t (1 : Fin 2) * 1 + 1 * (z 1).val = 0; have hz1 : (z 1).val < 1 := (z 1).isLt; omega)
    (fun y => by
      funext a; apply Fin.ext
      match a with
      | ⟨0, _⟩ => show win13_2.index t (0 : Fin 2) * 128 + 1 * (y 0).val = (y 0).val; omega
      | ⟨1, _⟩ => show win13_2.index t (1 : Fin 2) * 128 + 1 * (y 1).val = (y 1).val; omega)
    (fun j' => by show win13_3.index t (1 : Fin 2) * 128 + 1 * (j' 1).val = (j' 1).val; omega)
    j

/-- An index of region 13's output array is in point `t`'s block iff each coordinate is in the block's range. -/
theorem mem_blk13 (t : Fin cfg13.N) (i : S100000x128.Idx) :
    i ∈ ((cfg13.win 3).blk t).view.set ↔ ∀ a : Fin 2, win13_3.index t a * S5000x128.size a ≤ (i a).val ∧ (i a).val < win13_3.index t a * S5000x128.size a + S5000x128.size a := by
  show i ∈ ((View.whole main_call0_v141).slice (win13_3.rect t)).set ↔ _
  rw [View.set_slice_whole, Rect.mem_set_unit]
  exact Iff.rfl

/-- Every row of region 13's output array lies in the block of the point numbered by its row block. -/
theorem cover13 (i : S100000x128.Idx) : ∃ t : Fin cfg13.N, (cfg13.win 3).flush t = true ∧ i ∈ ((cfg13.win 3).blk t).view.set := by
  have hi0 : (i 0).val < 100000 := (i 0).isLt
  have hi1 : (i 1).val < 128 := (i 1).isLt
  have hN : grid13.N = 20 := N_13
  have ht : (i 0).val / 5000 < grid13.N := by rw [hN]; omega
  obtain ⟨e00, e01, e10, e11, e20, e21, e30, e31⟩ := idx_facts13 ⟨(i 0).val / 5000, ht⟩
  refine ⟨⟨(i 0).val / 5000, ht⟩, flush13_3 _, ?_⟩
  rw [mem_blk13]
  intro a
  match a with
  | ⟨0, _⟩ =>
    show win13_3.index ⟨(i 0).val / 5000, ht⟩ (0 : Fin 2) * 5000 ≤ (i 0).val ∧ (i 0).val < win13_3.index ⟨(i 0).val / 5000, ht⟩ (0 : Fin 2) * 5000 + 5000
    have hv : (⟨(i 0).val / 5000, ht⟩ : Fin grid13.N).val = (i 0).val / 5000 := rfl
    omega
  | ⟨1, _⟩ =>
    show win13_3.index ⟨(i 0).val / 5000, ht⟩ (1 : Fin 2) * 128 ≤ (i 1).val ∧ (i 1).val < win13_3.index ⟨(i 0).val / 5000, ht⟩ (1 : Fin 2) * 128 + 128
    omega

/-- Region 13's output array ends holding the operation applied to the arrays the region finds. -/
theorem final13 (c : Dev nD) :
    (dat13 V c).arrAt 3 cfg13.N = projG (V c (Pipeline.arrRef spec13 0)) (V c (Pipeline.arrRef spec13 1)) (V c (Pipeline.arrRef spec13 2)) :=
  (dat13 V c).arrAt_eq_of_cover 3 _ (fun t _ => flushed13 V c t) (cover13)

/-! ## Region 14: a sum of two post-processes without the positive part -/

/-- Region 14's index maps over its grid: a row-indexed window's block `t` starts at row block `t`, the small operands' windows stay at the origin. -/
theorem idx_facts14 : ∀ t : Fin cfg14.N, win14_0.index t (0 : Fin 2) = t.val
    ∧ win14_0.index t (1 : Fin 2) = 0
    ∧ win14_1.index t (0 : Fin 2) = t.val
    ∧ win14_1.index t (1 : Fin 2) = 0
    ∧ win14_2.index t (0 : Fin 2) = 0
    ∧ win14_2.index t (1 : Fin 2) = 0
    ∧ win14_3.index t (0 : Fin 2) = t.val
    ∧ win14_3.index t (1 : Fin 2) = 0
    ∧ win14_4.index t (0 : Fin 2) = t.val
    ∧ win14_4.index t (1 : Fin 2) = 0
    ∧ win14_5.index t (0 : Fin 2) = 0
    ∧ win14_5.index t (1 : Fin 2) = 0
    ∧ win14_6.index t (0 : Fin 2) = t.val
    ∧ win14_6.index t (1 : Fin 2) = 0 :=
  (by decide +kernel : ∀ t : Fin grid14.N, _)

set_option maxHeartbeats 2000000 in
/-- What point `t` of region 14 writes back is block `t` of the operation applied to the whole arrays the region finds. -/
theorem flushed14 (c : Dev nD) (t : Fin cfg14.N) :
    (dat14 V c).flushed 6 t = ((cfg14.win 6).blk t).view.read (Elt Ideal) (dualLinG (V c (Pipeline.arrRef spec14 0)) (V c (Pipeline.arrRef spec14 1)) (V c (Pipeline.arrRef spec14 2)) (V c (Pipeline.arrRef spec14 3)) (V c (Pipeline.arrRef spec14 4)) (V c (Pipeline.arrRef spec14 5))) := by
  show (cfg14.win 6).cut (grid14.coords t) ((dat14 V c).after 6 t) = _
  rw [after14_6]
  unfold out14_6
  rw [View.canon_unit_zero hz2]
  simp only [View.ld_unit_zero (S := S5000x128) hz2, View.ld_unit_zero (S := S5000x1) hz2, View.ld_unit_zero (S := S1x128) hz2]
  rw [pay14_eq]
  obtain ⟨e00, e01, e10, e11, e20, e21, e30, e31, e40, e41, e50, e51, e60, e61⟩ := idx_facts14 t
  funext j
  exact dualLinG_block (N := 100000) (n := 5000) (p := 128) (V c (Pipeline.arrRef spec14 0)) (V c (Pipeline.arrRef spec14 1)) (V c (Pipeline.arrRef spec14 2)) (V c (Pipeline.arrRef spec14 3)) (V c (Pipeline.arrRef spec14 4)) (V c (Pipeline.arrRef spec14 5))
    (((cfg14.win 0).blk t).view.emb) (((cfg14.win 1).blk t).view.emb) (((cfg14.win 2).blk t).view.emb) (((cfg14.win 3).blk t).view.emb) (((cfg14.win 4).blk t).view.emb) (((cfg14.win 5).blk t).view.emb) (((cfg14.win 6).blk t).view.emb)
    (fun j' => by
      funext a; apply Fin.ext
      match a with
      | ⟨0, _⟩ => show win14_0.index t (0 : Fin 2) * 5000 + 1 * (j' 0).val = win14_6.index t (0 : Fin 2) * 5000 + 1 * (j' 0).val; omega
      | ⟨1, _⟩ => show win14_0.index t (1 : Fin 2) * 128 + 1 * (j' 1).val = win14_6.index t (1 : Fin 2) * 128 + 1 * (j' 1).val; omega)
    (fun y z h => by show win14_0.index t (0 : Fin 2) * 5000 + 1 * (y 0).val = win14_1.index t (0 : Fin 2) * 5000 + 1 * (z 0).val; omega)
    (fun z => by show win14_1.index t (1 : Fin 2) * 1 + 1 * (z 1).val = 0; have hz1 : (z 1).val < 1 := (z 1).isLt; omega)
    (fun y => by
      funext a; apply Fin.ext
      match a with
      | ⟨0, _⟩ => show win14_2.index t (0 : Fin 2) * 1 + 1 * (y 0).val = (y 0).val; omega
      | ⟨1, _⟩ => show win14_2.index t (1 : Fin 2) * 128 + 1 * (y 1).val = (y 1).val; omega)
    (fun j' => by
      funext a; apply Fin.ext
      match a with
      | ⟨0, _⟩ => show win14_3.index t (0 : Fin 2) * 5000 + 1 * (j' 0).val = win14_6.index t (0 : Fin 2) * 5000 + 1 * (j' 0).val; omega
      | ⟨1, _⟩ => show win14_3.index t (1 : Fin 2) * 128 + 1 * (j' 1).val = win14_6.index t (1 : Fin 2) * 128 + 1 * (j' 1).val; omega)
    (fun y z h => by show win14_3.index t (0 : Fin 2) * 5000 + 1 * (y 0).val = win14_4.index t (0 : Fin 2) * 5000 + 1 * (z 0).val; omega)
    (fun z => by show win14_4.index t (1 : Fin 2) * 1 + 1 * (z 1).val = 0; have hz1 : (z 1).val < 1 := (z 1).isLt; omega)
    (fun y => by
      funext a; apply Fin.ext
      match a with
      | ⟨0, _⟩ => show win14_5.index t (0 : Fin 2) * 1 + 1 * (y 0).val = (y 0).val; omega
      | ⟨1, _⟩ => show win14_5.index t (1 : Fin 2) * 128 + 1 * (y 1).val = (y 1).val; omega)
    (fun j' => by show win14_6.index t (1 : Fin 2) * 128 + 1 * (j' 1).val = (j' 1).val; omega)
    j

/-- An index of region 14's output array is in point `t`'s block iff each coordinate is in the block's range. -/
theorem mem_blk14 (t : Fin cfg14.N) (i : S100000x128.Idx) :
    i ∈ ((cfg14.win 6).blk t).view.set ↔ ∀ a : Fin 2, win14_6.index t a * S5000x128.size a ≤ (i a).val ∧ (i a).val < win14_6.index t a * S5000x128.size a + S5000x128.size a := by
  show i ∈ ((View.whole main_v0_0).slice (win14_6.rect t)).set ↔ _
  rw [View.set_slice_whole, Rect.mem_set_unit]
  exact Iff.rfl

/-- Every row of region 14's output array lies in the block of the point numbered by its row block. -/
theorem cover14 (i : S100000x128.Idx) : ∃ t : Fin cfg14.N, (cfg14.win 6).flush t = true ∧ i ∈ ((cfg14.win 6).blk t).view.set := by
  have hi0 : (i 0).val < 100000 := (i 0).isLt
  have hi1 : (i 1).val < 128 := (i 1).isLt
  have hN : grid14.N = 20 := N_14
  have ht : (i 0).val / 5000 < grid14.N := by rw [hN]; omega
  obtain ⟨e00, e01, e10, e11, e20, e21, e30, e31, e40, e41, e50, e51, e60, e61⟩ := idx_facts14 ⟨(i 0).val / 5000, ht⟩
  refine ⟨⟨(i 0).val / 5000, ht⟩, flush14_6 _, ?_⟩
  rw [mem_blk14]
  intro a
  match a with
  | ⟨0, _⟩ =>
    show win14_6.index ⟨(i 0).val / 5000, ht⟩ (0 : Fin 2) * 5000 ≤ (i 0).val ∧ (i 0).val < win14_6.index ⟨(i 0).val / 5000, ht⟩ (0 : Fin 2) * 5000 + 5000
    have hv : (⟨(i 0).val / 5000, ht⟩ : Fin grid14.N).val = (i 0).val / 5000 := rfl
    omega
  | ⟨1, _⟩ =>
    show win14_6.index ⟨(i 0).val / 5000, ht⟩ (1 : Fin 2) * 128 ≤ (i 1).val ∧ (i 1).val < win14_6.index ⟨(i 0).val / 5000, ht⟩ (1 : Fin 2) * 128 + 128
    omega

/-- Region 14's output array ends holding the operation applied to the arrays the region finds. -/
theorem final14 (c : Dev nD) :
    (dat14 V c).arrAt 6 cfg14.N = dualLinG (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) :=
  (dat14 V c).arrAt_eq_of_cover 6 _ (fun t _ => flushed14 V c t) (cover14)

/-! ## Region 15: a projection -/

/-- Region 15's index maps over its grid: a row-indexed window's block `t` starts at row block `t`, the small operands' windows stay at the origin. -/
theorem idx_facts15 : ∀ t : Fin cfg15.N, win15_0.index t (0 : Fin 2) = t.val
    ∧ win15_0.index t (1 : Fin 2) = 0
    ∧ win15_1.index t (0 : Fin 2) = t.val
    ∧ win15_1.index t (1 : Fin 2) = 0
    ∧ win15_2.index t (0 : Fin 2) = 0
    ∧ win15_2.index t (1 : Fin 2) = 0
    ∧ win15_3.index t (0 : Fin 2) = t.val
    ∧ win15_3.index t (1 : Fin 2) = 0 :=
  (by decide +kernel : ∀ t : Fin grid15.N, _)

set_option maxHeartbeats 2000000 in
/-- What point `t` of region 15 writes back is block `t` of the operation applied to the whole arrays the region finds. -/
theorem flushed15 (c : Dev nD) (t : Fin cfg15.N) :
    (dat15 V c).flushed 3 t = ((cfg15.win 3).blk t).view.read (Elt Ideal) (projG (V c (Pipeline.arrRef spec15 0)) (V c (Pipeline.arrRef spec15 1)) (V c (Pipeline.arrRef spec15 2))) := by
  show (cfg15.win 3).cut (grid15.coords t) ((dat15 V c).after 3 t) = _
  rw [after15_3]
  unfold out15_3
  rw [View.canon_unit_zero hz2]
  simp only [View.ld_unit_zero (S := S5000x128) hz2, View.ld_unit_zero (S := S5000x1) hz2, View.ld_unit_zero (S := S128x128) hz2]
  rw [pay15_eq]
  obtain ⟨e00, e01, e10, e11, e20, e21, e30, e31⟩ := idx_facts15 t
  funext j
  exact projG_block (N := 100000) (n := 5000) (k := 128) (p := 128) (V c (Pipeline.arrRef spec15 0)) (V c (Pipeline.arrRef spec15 1)) (V c (Pipeline.arrRef spec15 2))
    (((cfg15.win 0).blk t).view.emb) (((cfg15.win 1).blk t).view.emb) (((cfg15.win 2).blk t).view.emb) (((cfg15.win 3).blk t).view.emb)
    (fun y z h => by show win15_0.index t (0 : Fin 2) * 5000 + 1 * (y 0).val = win15_3.index t (0 : Fin 2) * 5000 + 1 * (z 0).val; omega)
    (fun y => by show win15_0.index t (1 : Fin 2) * 128 + 1 * (y 1).val = (y 1).val; omega)
    (fun y z h => by show win15_0.index t (0 : Fin 2) * 5000 + 1 * (y 0).val = win15_1.index t (0 : Fin 2) * 5000 + 1 * (z 0).val; omega)
    (fun z => by show win15_1.index t (1 : Fin 2) * 1 + 1 * (z 1).val = 0; have hz1 : (z 1).val < 1 := (z 1).isLt; omega)
    (fun y => by
      funext a; apply Fin.ext
      match a with
      | ⟨0, _⟩ => show win15_2.index t (0 : Fin 2) * 128 + 1 * (y 0).val = (y 0).val; omega
      | ⟨1, _⟩ => show win15_2.index t (1 : Fin 2) * 128 + 1 * (y 1).val = (y 1).val; omega)
    (fun j' => by show win15_3.index t (1 : Fin 2) * 128 + 1 * (j' 1).val = (j' 1).val; omega)
    j

/-- An index of region 15's output array is in point `t`'s block iff each coordinate is in the block's range. -/
theorem mem_blk15 (t : Fin cfg15.N) (i : S100000x128.Idx) :
    i ∈ ((cfg15.win 3).blk t).view.set ↔ ∀ a : Fin 2, win15_3.index t a * S5000x128.size a ≤ (i a).val ∧ (i a).val < win15_3.index t a * S5000x128.size a + S5000x128.size a := by
  show i ∈ ((View.whole main_call0_v158).slice (win15_3.rect t)).set ↔ _
  rw [View.set_slice_whole, Rect.mem_set_unit]
  exact Iff.rfl

/-- Every row of region 15's output array lies in the block of the point numbered by its row block. -/
theorem cover15 (i : S100000x128.Idx) : ∃ t : Fin cfg15.N, (cfg15.win 3).flush t = true ∧ i ∈ ((cfg15.win 3).blk t).view.set := by
  have hi0 : (i 0).val < 100000 := (i 0).isLt
  have hi1 : (i 1).val < 128 := (i 1).isLt
  have hN : grid15.N = 20 := N_15
  have ht : (i 0).val / 5000 < grid15.N := by rw [hN]; omega
  obtain ⟨e00, e01, e10, e11, e20, e21, e30, e31⟩ := idx_facts15 ⟨(i 0).val / 5000, ht⟩
  refine ⟨⟨(i 0).val / 5000, ht⟩, flush15_3 _, ?_⟩
  rw [mem_blk15]
  intro a
  match a with
  | ⟨0, _⟩ =>
    show win15_3.index ⟨(i 0).val / 5000, ht⟩ (0 : Fin 2) * 5000 ≤ (i 0).val ∧ (i 0).val < win15_3.index ⟨(i 0).val / 5000, ht⟩ (0 : Fin 2) * 5000 + 5000
    have hv : (⟨(i 0).val / 5000, ht⟩ : Fin grid15.N).val = (i 0).val / 5000 := rfl
    omega
  | ⟨1, _⟩ =>
    show win15_3.index ⟨(i 0).val / 5000, ht⟩ (1 : Fin 2) * 128 ≤ (i 1).val ∧ (i 1).val < win15_3.index ⟨(i 0).val / 5000, ht⟩ (1 : Fin 2) * 128 + 128
    omega

/-- Region 15's output array ends holding the operation applied to the arrays the region finds. -/
theorem final15 (c : Dev nD) :
    (dat15 V c).arrAt 3 cfg15.N = projG (V c (Pipeline.arrRef spec15 0)) (V c (Pipeline.arrRef spec15 1)) (V c (Pipeline.arrRef spec15 2)) :=
  (dat15 V c).arrAt_eq_of_cover 3 _ (fun t _ => flushed15 V c t) (cover15)

/-! ## Region 16: a post-process without the positive part -/

/-- Region 16's index maps over its grid: a row-indexed window's block `t` starts at row block `t`, the small operands' windows stay at the origin. -/
theorem idx_facts16 : ∀ t : Fin cfg16.N, win16_0.index t (0 : Fin 2) = t.val
    ∧ win16_0.index t (1 : Fin 2) = 0
    ∧ win16_1.index t (0 : Fin 2) = t.val
    ∧ win16_1.index t (1 : Fin 2) = 0
    ∧ win16_2.index t (0 : Fin 2) = 0
    ∧ win16_2.index t (1 : Fin 2) = 0
    ∧ win16_3.index t (0 : Fin 2) = t.val
    ∧ win16_3.index t (1 : Fin 2) = 0 :=
  (by decide +kernel : ∀ t : Fin grid16.N, _)

set_option maxHeartbeats 2000000 in
/-- What point `t` of region 16 writes back is block `t` of the operation applied to the whole arrays the region finds. -/
theorem flushed16 (c : Dev nD) (t : Fin cfg16.N) :
    (dat16 V c).flushed 3 t = ((cfg16.win 3).blk t).view.read (Elt Ideal) (postLinG (V c (Pipeline.arrRef spec16 0)) (V c (Pipeline.arrRef spec16 1)) (V c (Pipeline.arrRef spec16 2))) := by
  show (cfg16.win 3).cut (grid16.coords t) ((dat16 V c).after 3 t) = _
  rw [after16_3]
  unfold out16_3
  rw [View.canon_unit_zero hz2]
  simp only [View.ld_unit_zero (S := S5000x128) hz2, View.ld_unit_zero (S := S5000x1) hz2, View.ld_unit_zero (S := S1x128) hz2]
  rw [pay16_eq]
  obtain ⟨e00, e01, e10, e11, e20, e21, e30, e31⟩ := idx_facts16 t
  funext j
  exact postLinG_block (N := 100000) (n := 5000) (p := 128) (V c (Pipeline.arrRef spec16 0)) (V c (Pipeline.arrRef spec16 1)) (V c (Pipeline.arrRef spec16 2))
    (((cfg16.win 0).blk t).view.emb) (((cfg16.win 1).blk t).view.emb) (((cfg16.win 2).blk t).view.emb) (((cfg16.win 3).blk t).view.emb)
    (fun j' => by
      funext a; apply Fin.ext
      match a with
      | ⟨0, _⟩ => show win16_0.index t (0 : Fin 2) * 5000 + 1 * (j' 0).val = win16_3.index t (0 : Fin 2) * 5000 + 1 * (j' 0).val; omega
      | ⟨1, _⟩ => show win16_0.index t (1 : Fin 2) * 128 + 1 * (j' 1).val = win16_3.index t (1 : Fin 2) * 128 + 1 * (j' 1).val; omega)
    (fun y z h => by show win16_0.index t (0 : Fin 2) * 5000 + 1 * (y 0).val = win16_1.index t (0 : Fin 2) * 5000 + 1 * (z 0).val; omega)
    (fun z => by show win16_1.index t (1 : Fin 2) * 1 + 1 * (z 1).val = 0; have hz1 : (z 1).val < 1 := (z 1).isLt; omega)
    (fun y => by
      funext a; apply Fin.ext
      match a with
      | ⟨0, _⟩ => show win16_2.index t (0 : Fin 2) * 1 + 1 * (y 0).val = (y 0).val; omega
      | ⟨1, _⟩ => show win16_2.index t (1 : Fin 2) * 128 + 1 * (y 1).val = (y 1).val; omega)
    (fun j' => by show win16_3.index t (1 : Fin 2) * 128 + 1 * (j' 1).val = (j' 1).val; omega)
    j

/-- An index of region 16's output array is in point `t`'s block iff each coordinate is in the block's range. -/
theorem mem_blk16 (t : Fin cfg16.N) (i : S100000x128.Idx) :
    i ∈ ((cfg16.win 3).blk t).view.set ↔ ∀ a : Fin 2, win16_3.index t a * S5000x128.size a ≤ (i a).val ∧ (i a).val < win16_3.index t a * S5000x128.size a + S5000x128.size a := by
  show i ∈ ((View.whole main_v0_1).slice (win16_3.rect t)).set ↔ _
  rw [View.set_slice_whole, Rect.mem_set_unit]
  exact Iff.rfl

/-- Every row of region 16's output array lies in the block of the point numbered by its row block. -/
theorem cover16 (i : S100000x128.Idx) : ∃ t : Fin cfg16.N, (cfg16.win 3).flush t = true ∧ i ∈ ((cfg16.win 3).blk t).view.set := by
  have hi0 : (i 0).val < 100000 := (i 0).isLt
  have hi1 : (i 1).val < 128 := (i 1).isLt
  have hN : grid16.N = 20 := N_16
  have ht : (i 0).val / 5000 < grid16.N := by rw [hN]; omega
  obtain ⟨e00, e01, e10, e11, e20, e21, e30, e31⟩ := idx_facts16 ⟨(i 0).val / 5000, ht⟩
  refine ⟨⟨(i 0).val / 5000, ht⟩, flush16_3 _, ?_⟩
  rw [mem_blk16]
  intro a
  match a with
  | ⟨0, _⟩ =>
    show win16_3.index ⟨(i 0).val / 5000, ht⟩ (0 : Fin 2) * 5000 ≤ (i 0).val ∧ (i 0).val < win16_3.index ⟨(i 0).val / 5000, ht⟩ (0 : Fin 2) * 5000 + 5000
    have hv : (⟨(i 0).val / 5000, ht⟩ : Fin grid16.N).val = (i 0).val / 5000 := rfl
    omega
  | ⟨1, _⟩ =>
    show win16_3.index ⟨(i 0).val / 5000, ht⟩ (1 : Fin 2) * 128 ≤ (i 1).val ∧ (i 1).val < win16_3.index ⟨(i 0).val / 5000, ht⟩ (1 : Fin 2) * 128 + 128
    omega

/-- Region 16's output array ends holding the operation applied to the arrays the region finds. -/
theorem final16 (c : Dev nD) :
    (dat16 V c).arrAt 3 cfg16.N = postLinG (V c (Pipeline.arrRef spec16 0)) (V c (Pipeline.arrRef spec16 1)) (V c (Pipeline.arrRef spec16 2)) :=
  (dat16 V c).arrAt_eq_of_cover 3 _ (fun t _ => flushed16 V c t) (cover16)

end

end Cert.HetGCN

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.Net.lean ====
/-
  The network as a composition of its stages, over any implementation of the stages.

  The message-passing network is: two embeddings; then three layers.  A layer takes the user and item features
  (hu, hi) to
      hu' = post(agg(proj(hu; user→user)); user→user) + post(agg(proj(hi; item→user)); item→user)
      hi' = post(agg(proj(hu; user→item)); user→item)
  where proj scales rows by the inverse square root of the clipped out-degree and multiplies by the relation's
  weights, agg sums the projected rows of an edge's source into its destination, and post scales rows by the inverse
  square root of the clipped in-degree, adds the bias and (in the first two layers) takes the positive part.
  `Stages` names the stages; `out0` / `out1` compose them.  Two implementations of the stages that agree, stage by
  stage, give the same network.
-/
import Idealize.ShloMosaic.PureOps.Ideal
import proofs.«132856_j71648644432155_2_alg».proof.Proof.LibMatmulRead

noncomputable section

namespace Cert.HetGCN

open Idealize.ShloMosaic Cert.GCN

/-- Node features: 100000 rows of 128. -/
abbrev Feat := Arr 100000 128
/-- A weight matrix of a relation. -/
abbrev Wmat := Arr 128 128
/-- One number per node. -/
abbrev NodeVec := (⟨⟨1, ![100000]⟩, .f32⟩ : BufTy).Contents (Elt Ideal)
/-- A bias. -/
abbrev Bias := (⟨⟨1, ![128]⟩, .f32⟩ : BufTy).Contents (Elt Ideal)
/-- One node index per edge. -/
abbrev EdgeIdx := (⟨⟨1, ![500000]⟩, .i32⟩ : BufTy).Contents (Elt Ideal)

/-- The stages of the network. -/
@[ext] structure Stages where
  /-- inverse square root of the clipped count of edges at each node -/
  deg : EdgeIdx → NodeVec
  /-- rows gathered at the edges' sources, summed at their destinations -/
  agg : Feat → EdgeIdx → EdgeIdx → Feat
  embU : Arr 100000 256 → Arr 256 128 → Bias → Feat
  embI : Arr 100000 300 → Arr 300 128 → Bias → Feat
  proj : Feat → NodeVec → Wmat → Feat
  post : Feat → NodeVec → Bias → Feat
  postLin : Feat → NodeVec → Bias → Feat
  dual : Feat → NodeVec → Bias → Feat → NodeVec → Bias → Feat
  dualLin : Feat → NodeVec → Bias → Feat → NodeVec → Bias → Feat

variable (P : Stages)

/-- One relation's aggregated messages. -/
def Stages.msg (x : Feat) (src dst : EdgeIdx) (W : Wmat) : Feat := P.agg (P.proj x (P.deg src) W) src dst

/-- The user features after a layer with the positive part. -/
def Stages.huNext (hu hi : Feat) (suu duu siu diu : EdgeIdx) (Wuu : Wmat) (buu : Bias) (Wiu : Wmat) (biu : Bias) : Feat :=
  P.dual (P.msg hu suu duu Wuu) (P.deg duu) buu (P.msg hi siu diu Wiu) (P.deg diu) biu
/-- The item features after a layer with the positive part. -/
def Stages.hiNext (hu : Feat) (sui dui : EdgeIdx) (Wui : Wmat) (bui : Bias) : Feat :=
  P.post (P.msg hu sui dui Wui) (P.deg dui) bui
/-- The user features after the last layer. -/
def Stages.huLast (hu hi : Feat) (suu duu siu diu : EdgeIdx) (Wuu : Wmat) (buu : Bias) (Wiu : Wmat) (biu : Bias) : Feat :=
  P.dualLin (P.msg hu suu duu Wuu) (P.deg duu) buu (P.msg hi siu diu Wiu) (P.deg diu) biu
/-- The item features after the last layer. -/
def Stages.hiLast (hu : Feat) (sui dui : EdgeIdx) (Wui : Wmat) (bui : Bias) : Feat :=
  P.postLin (P.msg hu sui dui Wui) (P.deg dui) bui

/-- The arguments of the network. -/
structure Args where
  fu : Arr 100000 256
  fi : Arr 100000 300
  suu : EdgeIdx
  duu : EdgeIdx
  sui : EdgeIdx
  dui : EdgeIdx
  siu : EdgeIdx
  diu : EdgeIdx
  Weu : Arr 256 128
  beu : Bias
  Wei : Arr 300 128
  bei : Bias
  W0uu : Wmat
  b0uu : Bias
  W0ui : Wmat
  b0ui : Bias
  W0iu : Wmat
  b0iu : Bias
  W1uu : Wmat
  b1uu : Bias
  W1ui : Wmat
  b1ui : Bias
  W1iu : Wmat
  b1iu : Bias
  W2uu : Wmat
  b2uu : Bias
  W2ui : Wmat
  b2ui : Bias
  W2iu : Wmat
  b2iu : Bias

variable (a : Args)

def Stages.eu : Feat := P.embU a.fu a.Weu a.beu
def Stages.ei : Feat := P.embI a.fi a.Wei a.bei
def Stages.hu0 : Feat := P.huNext (P.eu a) (P.ei a) a.suu a.duu a.siu a.diu a.W0uu a.b0uu a.W0iu a.b0iu
def Stages.hi0 : Feat := P.hiNext (P.eu a) a.sui a.dui a.W0ui a.b0ui
def Stages.hu1 : Feat := P.huNext (P.hu0 a) (P.hi0 a) a.suu a.duu a.siu a.diu a.W1uu a.b1uu a.W1iu a.b1iu
def Stages.hi1 : Feat := P.hiNext (P.hu0 a) a.sui a.dui a.W1ui a.b1ui
/-- The network's first result: the user features after the third layer. -/
def Stages.out0 : Feat := P.huLast (P.hu1 a) (P.hi1 a) a.suu a.duu a.siu a.diu a.W2uu a.b2uu a.W2iu a.b2iu
/-- The network's second result: the item features after the third layer. -/
def Stages.out1 : Feat := P.hiLast (P.hu1 a) a.sui a.dui a.W2ui a.b2ui

end Cert.HetGCN

end
-- ==== Proof.KerStages.lean ====
/-
  The stages of the network as the kernel program runs them.

  The degree vectors and the edge aggregation are array expressions (a scatter-add of ones, a clip at one, an inverse
  square root; a gather at the sources — a negative index wrapped once — and a scatter-add at the destinations).  The
  dense stages are the pipelined regions' operations of Ops.lean, fed the per-node scale reshaped to a column and the
  bias reshaped to a row.
-/
import proofs.«132856_j71648644432155_2_alg».proof.Proof.Gen.KernelIdeal
import proofs.«132856_j71648644432155_2_alg».proof.Proof.Ops
import proofs.«132856_j71648644432155_2_alg».proof.Proof.Net

noncomputable section

namespace Cert.HetGCN

open Idealize.ShloMosaic Idealize.ShloMosaic.TcCoe Cert.GCN Cert.KernelIdeal Cert.KernelIdeal.Gen

/-- A per-node vector as a column. -/
def kcol (s : NodeVec) : Arr 100000 1 := shapeCast S100000x1 s shapeCasts_S100000_S100000x1
/-- A bias as a row. -/
def krow (b : Bias) : Arr 1 128 := shapeCast S1x128 b shapeCasts_S128_S1x128

/-- The stages as the kernel program computes them. -/
def kerStages : Stages where
  deg idx := Host.rsqrt (maximumf (broadcastInDim S100000 ![] bcast_S_S100000 (id (constant (F := Ideal) S_ .f32 0x3F800000#32)))
    (Host.scatterAdd scatter_S100000_S500000x1_S500000_n_0_0_1 (broadcastInDim S100000 ![] bcast_S_S100000 (constant (F := Ideal) S_ .f32 0x00000000#32))
      (broadcastInDim S500000x1 ![0] bcast_S500000_S500000x1_0 idx) (broadcastInDim S500000 ![] bcast_S_S500000 (constant (F := Ideal) S_ .f32 0x3F800000#32))))
  agg H src dst := Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 dst)
    (Host.gather gather_S100000x128_S500000x1_S500000x128_1_0_n_n_0_1_1128 H
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 100000#32))) src)))
  embU X W b := embedG X W (krow b)
  embI X W b := embedG X W (krow b)
  proj X s W := projG X (kcol s) W
  post M s b := postG M (kcol s) (krow b)
  postLin M s b := postLinG M (kcol s) (krow b)
  dual M1 s1 b1 M2 s2 b2 := dualG M1 (kcol s1) (krow b1) M2 (kcol s2) (krow b2)
  dualLin M1 s1 b1 M2 s2 b2 := dualLinG M1 (kcol s1) (krow b1) M2 (kcol s2) (krow b2)

end Cert.HetGCN

end
-- ==== Proof.KRunA.lean ====
/-
  The kernel program's run with its result buffers kept: each region as one operation on the core's buffer contents.

  The program alternates stretches of array operations and pipelined regions.  A region leaves each of its input
  arrays as it found it and its output array at the stage's value of the input arrays (Regions*.lean), so on the
  core's buffer contents it acts as ONE operation writing the output array.  The contents after the whole program
  are then the fold of a single line of operations over the launch contents, and reading the two result buffers
  through that line gives the network of Net.lean over the kernel's stages, applied to the argument arrays.
  The run itself is the library's launch theorem over the program's segments, stated with the two result buffers'
  contents kept in the post.
-/
import proofs.«132856_j71648644432155_2_alg».proof.Proof.Gen.KernelIdeal.Frame
import proofs.«132856_j71648644432155_2_alg».proof.Proof.RegionsA
import proofs.«132856_j71648644432155_2_alg».proof.Proof.RegionsB
import proofs.«132856_j71648644432155_2_alg».proof.Proof.RegionsC
import proofs.«132856_j71648644432155_2_alg».proof.Proof.LibRegionAsOp
import proofs.«132856_j71648644432155_2_alg».proof.Proof.KerStages

set_option maxRecDepth 16384

noncomputable section

namespace Cert.HetGCN

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GCN Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## Each region as one operation -/

set_option maxHeartbeats 4000000 in
/-- Region 0 acts on the core's buffer contents as one operation: its output array takes the stage's value of its
    input arrays, every other buffer keeps its contents. -/
theorem W2_eq (c : Dev nD) :
    W2 m ρ c = (StableHlo.nullary (τ := τ) main_call0_v37
      ((embedG (W1 m ρ c (Proc.devRef .tc main_arg0)) (W1 m ρ c (Proc.devRef .tc main_arg8)) (W1 m ρ c (Proc.devRef .tc main_call0_v36))) : (⟨S100000x128, .f32⟩ : BufTy).Contents (Elt Ideal))).result (W1 m ρ c) := by
  unfold W2
  exact Cert.Lib.withArrays_eq_result spec0 launch0.win.arr_inj c (W1 m ρ c) _ _ 3 rfl
    ((final0 (V1 m ρ) c).trans (StableHlo.nullary_result main_call0_v37 _ _ (W1 m ρ c)).symm)
    (fun w hw => by
      match w, hw with
      | 0, _ => exact ((dat0 (V1 m ρ) c).arrAt_in 0 rfl _).trans (A_eq0 (V1 m ρ) c 0)
      | 1, _ => exact ((dat0 (V1 m ρ) c).arrAt_in 1 rfl _).trans (A_eq0 (V1 m ρ) c 1)
      | 2, _ => exact ((dat0 (V1 m ρ) c).arrAt_in 2 rfl _).trans (A_eq0 (V1 m ρ) c 2)
      | 3, hw => exact absurd rfl hw
      | ⟨_ + 4, h⟩, _ => exact absurd h (Nat.not_lt.2 (Nat.le_add_left _ _)))

set_option maxHeartbeats 4000000 in
/-- Region 1 acts on the core's buffer contents as one operation: its output array takes the stage's value of its
    input arrays, every other buffer keeps its contents. -/
theorem W4_eq (c : Dev nD) :
    W4 m ρ c = (StableHlo.nullary (τ := τ) main_call0_v39
      ((embedG (W3 m ρ c (Proc.devRef .tc main_arg1)) (W3 m ρ c (Proc.devRef .tc main_arg10)) (W3 m ρ c (Proc.devRef .tc main_call0_v38))) : (⟨S100000x128, .f32⟩ : BufTy).Contents (Elt Ideal))).result (W3 m ρ c) := by
  unfold W4
  exact Cert.Lib.withArrays_eq_result spec1 launch1.win.arr_inj c (W3 m ρ c) _ _ 3 rfl
    ((final1 (V3 m ρ) c).trans (StableHlo.nullary_result main_call0_v39 _ _ (W3 m ρ c)).symm)
    (fun w hw => by
      match w, hw with
      | 0, _ => exact ((dat1 (V3 m ρ) c).arrAt_in 0 rfl _).trans (A_eq1 (V3 m ρ) c 0)
      | 1, _ => exact ((dat1 (V3 m ρ) c).arrAt_in 1 rfl _).trans (A_eq1 (V3 m ρ) c 1)
      | 2, _ => exact ((dat1 (V3 m ρ) c).arrAt_in 2 rfl _).trans (A_eq1 (V3 m ρ) c 2)
      | 3, hw => exact absurd rfl hw
      | ⟨_ + 4, h⟩, _ => exact absurd h (Nat.not_lt.2 (Nat.le_add_left _ _)))

set_option maxHeartbeats 4000000 in
/-- Region 2 acts on the core's buffer contents as one operation: its output array takes the stage's value of its
    input arrays, every other buffer keeps its contents. -/
theorem W6_eq (c : Dev nD) :
    W6 m ρ c = (StableHlo.nullary (τ := τ) main_call0_v41
      ((projG (W5 m ρ c (Proc.devRef .tc main_call0_v37)) (W5 m ρ c (Proc.devRef .tc main_call0_v40)) (W5 m ρ c (Proc.devRef .tc main_arg12))) : (⟨S100000x128, .f32⟩ : BufTy).Contents (Elt Ideal))).result (W5 m ρ c) := by
  unfold W6
  exact Cert.Lib.withArrays_eq_result spec2 launch2.win.arr_inj c (W5 m ρ c) _ _ 3 rfl
    ((final2 (V5 m ρ) c).trans (StableHlo.nullary_result main_call0_v41 _ _ (W5 m ρ c)).symm)
    (fun w hw => by
      match w, hw with
      | 0, _ => exact ((dat2 (V5 m ρ) c).arrAt_in 0 rfl _).trans (A_eq2 (V5 m ρ) c 0)
      | 1, _ => exact ((dat2 (V5 m ρ) c).arrAt_in 1 rfl _).trans (A_eq2 (V5 m ρ) c 1)
      | 2, _ => exact ((dat2 (V5 m ρ) c).arrAt_in 2 rfl _).trans (A_eq2 (V5 m ρ) c 2)
      | 3, hw => exact absurd rfl hw
      | ⟨_ + 4, h⟩, _ => exact absurd h (Nat.not_lt.2 (Nat.le_add_left _ _)))

set_option maxHeartbeats 4000000 in
/-- Region 3 acts on the core's buffer contents as one operation: its output array takes the stage's value of its
    input arrays, every other buffer keeps its contents. -/
theorem W8_eq (c : Dev nD) :
    W8 m ρ c = (StableHlo.nullary (τ := τ) main_call0_v53
      ((projG (W7 m ρ c (Proc.devRef .tc main_call0_v39)) (W7 m ρ c (Proc.devRef .tc main_call0_v52)) (W7 m ρ c (Proc.devRef .tc main_arg16))) : (⟨S100000x128, .f32⟩ : BufTy).Contents (Elt Ideal))).result (W7 m ρ c) := by
  unfold W8
  exact Cert.Lib.withArrays_eq_result spec3 launch3.win.arr_inj c (W7 m ρ c) _ _ 3 rfl
    ((final3 (V7 m ρ) c).trans (StableHlo.nullary_result main_call0_v53 _ _ (W7 m ρ c)).symm)
    (fun w hw => by
      match w, hw with
      | 0, _ => exact ((dat3 (V7 m ρ) c).arrAt_in 0 rfl _).trans (A_eq3 (V7 m ρ) c 0)
      | 1, _ => exact ((dat3 (V7 m ρ) c).arrAt_in 1 rfl _).trans (A_eq3 (V7 m ρ) c 1)
      | 2, _ => exact ((dat3 (V7 m ρ) c).arrAt_in 2 rfl _).trans (A_eq3 (V7 m ρ) c 2)
      | 3, hw => exact absurd rfl hw
      | ⟨_ + 4, h⟩, _ => exact absurd h (Nat.not_lt.2 (Nat.le_add_left _ _)))

set_option maxHeartbeats 4000000 in
/-- Region 4 acts on the core's buffer contents as one operation: its output array takes the stage's value of its
    input arrays, every other buffer keeps its contents. -/
theorem W10_eq (c : Dev nD) :
    W10 m ρ c = (StableHlo.nullary (τ := τ) main_call0_v68
      ((dualG (W9 m ρ c (Proc.devRef .tc main_call0_v51)) (W9 m ρ c (Proc.devRef .tc main_call0_v64)) (W9 m ρ c (Proc.devRef .tc main_call0_v66)) (W9 m ρ c (Proc.devRef .tc main_call0_v63)) (W9 m ρ c (Proc.devRef .tc main_call0_v65)) (W9 m ρ c (Proc.devRef .tc main_call0_v67))) : (⟨S100000x128, .f32⟩ : BufTy).Contents (Elt Ideal))).result (W9 m ρ c) := by
  unfold W10
  exact Cert.Lib.withArrays_eq_result spec4 launch4.win.arr_inj c (W9 m ρ c) _ _ 6 rfl
    ((final4 (V9 m ρ) c).trans (StableHlo.nullary_result main_call0_v68 _ _ (W9 m ρ c)).symm)
    (fun w hw => by
      match w, hw with
      | 0, _ => exact ((dat4 (V9 m ρ) c).arrAt_in 0 rfl _).trans (A_eq4 (V9 m ρ) c 0)
      | 1, _ => exact ((dat4 (V9 m ρ) c).arrAt_in 1 rfl _).trans (A_eq4 (V9 m ρ) c 1)
      | 2, _ => exact ((dat4 (V9 m ρ) c).arrAt_in 2 rfl _).trans (A_eq4 (V9 m ρ) c 2)
      | 3, _ => exact ((dat4 (V9 m ρ) c).arrAt_in 3 rfl _).trans (A_eq4 (V9 m ρ) c 3)
      | 4, _ => exact ((dat4 (V9 m ρ) c).arrAt_in 4 rfl _).trans (A_eq4 (V9 m ρ) c 4)
      | 5, _ => exact ((dat4 (V9 m ρ) c).arrAt_in 5 rfl _).trans (A_eq4 (V9 m ρ) c 5)
      | 6, hw => exact absurd rfl hw
      | ⟨_ + 7, h⟩, _ => exact absurd h (Nat.not_lt.2 (Nat.le_add_left _ _)))

set_option maxHeartbeats 4000000 in
/-- Region 5 acts on the core's buffer contents as one operation: its output array takes the stage's value of its
    input arrays, every other buffer keeps its contents. -/
theorem W12_eq (c : Dev nD) :
    W12 m ρ c = (StableHlo.nullary (τ := τ) main_call0_v70
      ((projG (W11 m ρ c (Proc.devRef .tc main_call0_v37)) (W11 m ρ c (Proc.devRef .tc main_call0_v69)) (W11 m ρ c (Proc.devRef .tc main_arg14))) : (⟨S100000x128, .f32⟩ : BufTy).Contents (Elt Ideal))).result (W11 m ρ c) := by
  unfold W12
  exact Cert.Lib.withArrays_eq_result spec5 launch5.win.arr_inj c (W11 m ρ c) _ _ 3 rfl
    ((final5 (V11 m ρ) c).trans (StableHlo.nullary_result main_call0_v70 _ _ (W11 m ρ c)).symm)
    (fun w hw => by
      match w, hw with
      | 0, _ => exact ((dat5 (V11 m ρ) c).arrAt_in 0 rfl _).trans (A_eq5 (V11 m ρ) c 0)
      | 1, _ => exact ((dat5 (V11 m ρ) c).arrAt_in 1 rfl _).trans (A_eq5 (V11 m ρ) c 1)
      | 2, _ => exact ((dat5 (V11 m ρ) c).arrAt_in 2 rfl _).trans (A_eq5 (V11 m ρ) c 2)
      | 3, hw => exact absurd rfl hw
      | ⟨_ + 4, h⟩, _ => exact absurd h (Nat.not_lt.2 (Nat.le_add_left _ _)))

set_option maxHeartbeats 4000000 in
/-- Region 6 acts on the core's buffer contents as one operation: its output array takes the stage's value of its
    input arrays, every other buffer keeps its contents. -/
theorem W14_eq (c : Dev nD) :
    W14 m ρ c = (StableHlo.nullary (τ := τ) main_call0_v83
      ((postG (W13 m ρ c (Proc.devRef .tc main_call0_v80)) (W13 m ρ c (Proc.devRef .tc main_call0_v81)) (W13 m ρ c (Proc.devRef .tc main_call0_v82))) : (⟨S100000x128, .f32⟩ : BufTy).Contents (Elt Ideal))).result (W13 m ρ c) := by
  unfold W14
  exact Cert.Lib.withArrays_eq_result spec6 launch6.win.arr_inj c (W13 m ρ c) _ _ 3 rfl
    ((final6 (V13 m ρ) c).trans (StableHlo.nullary_result main_call0_v83 _ _ (W13 m ρ c)).symm)
    (fun w hw => by
      match w, hw with
      | 0, _ => exact ((dat6 (V13 m ρ) c).arrAt_in 0 rfl _).trans (A_eq6 (V13 m ρ) c 0)
      | 1, _ => exact ((dat6 (V13 m ρ) c).arrAt_in 1 rfl _).trans (A_eq6 (V13 m ρ) c 1)
      | 2, _ => exact ((dat6 (V13 m ρ) c).arrAt_in 2 rfl _).trans (A_eq6 (V13 m ρ) c 2)
      | 3, hw => exact absurd rfl hw
      | ⟨_ + 4, h⟩, _ => exact absurd h (Nat.not_lt.2 (Nat.le_add_left _ _)))

set_option maxHeartbeats 4000000 in
/-- Region 7 acts on the core's buffer contents as one operation: its output array takes the stage's value of its
    input arrays, every other buffer keeps its contents. -/
theorem W16_eq (c : Dev nD) :
    W16 m ρ c = (StableHlo.nullary (τ := τ) main_call0_v85
      ((projG (W15 m ρ c (Proc.devRef .tc main_call0_v68)) (W15 m ρ c (Proc.devRef .tc main_call0_v84)) (W15 m ρ c (Proc.devRef .tc main_arg18))) : (⟨S100000x128, .f32⟩ : BufTy).Contents (Elt Ideal))).result (W15 m ρ c) := by
  unfold W16
  exact Cert.Lib.withArrays_eq_result spec7 launch7.win.arr_inj c (W15 m ρ c) _ _ 3 rfl
    ((final7 (V15 m ρ) c).trans (StableHlo.nullary_result main_call0_v85 _ _ (W15 m ρ c)).symm)
    (fun w hw => by
      match w, hw with
      | 0, _ => exact ((dat7 (V15 m ρ) c).arrAt_in 0 rfl _).trans (A_eq7 (V15 m ρ) c 0)
      | 1, _ => exact ((dat7 (V15 m ρ) c).arrAt_in 1 rfl _).trans (A_eq7 (V15 m ρ) c 1)
      | 2, _ => exact ((dat7 (V15 m ρ) c).arrAt_in 2 rfl _).trans (A_eq7 (V15 m ρ) c 2)
      | 3, hw => exact absurd rfl hw
      | ⟨_ + 4, h⟩, _ => exact absurd h (Nat.not_lt.2 (Nat.le_add_left _ _)))

set_option maxHeartbeats 4000000 in
/-- Region 8 acts on the core's buffer contents as one operation: its output array takes the stage's value of its
    input arrays, every other buffer keeps its contents. -/
theorem W18_eq (c : Dev nD) :
    W18 m ρ c = (StableHlo.nullary (τ := τ) main_call0_v97
      ((projG (W17 m ρ c (Proc.devRef .tc main_call0_v83)) (W17 m ρ c (Proc.devRef .tc main_call0_v96)) (W17 m ρ c (Proc.devRef .tc main_arg22))) : (⟨S100000x128, .f32⟩ : BufTy).Contents (Elt Ideal))).result (W17 m ρ c) := by
  unfold W18
  exact Cert.Lib.withArrays_eq_result spec8 launch8.win.arr_inj c (W17 m ρ c) _ _ 3 rfl
    ((final8 (V17 m ρ) c).trans (StableHlo.nullary_result main_call0_v97 _ _ (W17 m ρ c)).symm)
    (fun w hw => by
      match w, hw with
      | 0, _ => exact ((dat8 (V17 m ρ) c).arrAt_in 0 rfl _).trans (A_eq8 (V17 m ρ) c 0)
      | 1, _ => exact ((dat8 (V17 m ρ) c).arrAt_in 1 rfl _).trans (A_eq8 (V17 m ρ) c 1)
      | 2, _ => exact ((dat8 (V17 m ρ) c).arrAt_in 2 rfl _).trans (A_eq8 (V17 m ρ) c 2)
      | 3, hw => exact absurd rfl hw
      | ⟨_ + 4, h⟩, _ => exact absurd h (Nat.not_lt.2 (Nat.le_add_left _ _)))

set_option maxHeartbeats 4000000 in
/-- Region 9 acts on the core's buffer contents as one operation: its output array takes the stage's value of its
    input arrays, every other buffer keeps its contents. -/
theorem W20_eq (c : Dev nD) :
    W20 m ρ c = (StableHlo.nullary (τ := τ) main_call0_v112
      ((dualG (W19 m ρ c (Proc.devRef .tc main_call0_v95)) (W19 m ρ c (Proc.devRef .tc main_call0_v108)) (W19 m ρ c (Proc.devRef .tc main_call0_v110)) (W19 m ρ c (Proc.devRef .tc main_call0_v107)) (W19 m ρ c (Proc.devRef .tc main_call0_v109)) (W19 m ρ c (Proc.devRef .tc main_call0_v111))) : (⟨S100000x128, .f32⟩ : BufTy).Contents (Elt Ideal))).result (W19 m ρ c) := by
  unfold W20
  exact Cert.Lib.withArrays_eq_result spec9 launch9.win.arr_inj c (W19 m ρ c) _ _ 6 rfl
    ((final9 (V19 m ρ) c).trans (StableHlo.nullary_result main_call0_v112 _ _ (W19 m ρ c)).symm)
    (fun w hw => by
      match w, hw with
      | 0, _ => exact ((dat9 (V19 m ρ) c).arrAt_in 0 rfl _).trans (A_eq9 (V19 m ρ) c 0)
      | 1, _ => exact ((dat9 (V19 m ρ) c).arrAt_in 1 rfl _).trans (A_eq9 (V19 m ρ) c 1)
      | 2, _ => exact ((dat9 (V19 m ρ) c).arrAt_in 2 rfl _).trans (A_eq9 (V19 m ρ) c 2)
      | 3, _ => exact ((dat9 (V19 m ρ) c).arrAt_in 3 rfl _).trans (A_eq9 (V19 m ρ) c 3)
      | 4, _ => exact ((dat9 (V19 m ρ) c).arrAt_in 4 rfl _).trans (A_eq9 (V19 m ρ) c 4)
      | 5, _ => exact ((dat9 (V19 m ρ) c).arrAt_in 5 rfl _).trans (A_eq9 (V19 m ρ) c 5)
      | 6, hw => exact absurd rfl hw
      | ⟨_ + 7, h⟩, _ => exact absurd h (Nat.not_lt.2 (Nat.le_add_left _ _)))

set_option maxHeartbeats 4000000 in
/-- Region 10 acts on the core's buffer contents as one operation: its output array takes the stage's value of its
    input arrays, every other buffer keeps its contents. -/
theorem W22_eq (c : Dev nD) :
    W22 m ρ c = (StableHlo.nullary (τ := τ) main_call0_v114
      ((projG (W21 m ρ c (Proc.devRef .tc main_call0_v68)) (W21 m ρ c (Proc.devRef .tc main_call0_v113)) (W21 m ρ c (Proc.devRef .tc main_arg20))) : (⟨S100000x128, .f32⟩ : BufTy).Contents (Elt Ideal))).result (W21 m ρ c) := by
  unfold W22
  exact Cert.Lib.withArrays_eq_result spec10 launch10.win.arr_inj c (W21 m ρ c) _ _ 3 rfl
    ((final10 (V21 m ρ) c).trans (StableHlo.nullary_result main_call0_v114 _ _ (W21 m ρ c)).symm)
    (fun w hw => by
      match w, hw with
      | 0, _ => exact ((dat10 (V21 m ρ) c).arrAt_in 0 rfl _).trans (A_eq10 (V21 m ρ) c 0)
      | 1, _ => exact ((dat10 (V21 m ρ) c).arrAt_in 1 rfl _).trans (A_eq10 (V21 m ρ) c 1)
      | 2, _ => exact ((dat10 (V21 m ρ) c).arrAt_in 2 rfl _).trans (A_eq10 (V21 m ρ) c 2)
      | 3, hw => exact absurd rfl hw
      | ⟨_ + 4, h⟩, _ => exact absurd h (Nat.not_lt.2 (Nat.le_add_left _ _)))

set_option maxHeartbeats 4000000 in
/-- Region 11 acts on the core's buffer contents as one operation: its output array takes the stage's value of its
    input arrays, every other buffer keeps its contents. -/
theorem W24_eq (c : Dev nD) :
    W24 m ρ c = (StableHlo.nullary (τ := τ) main_call0_v127
      ((postG (W23 m ρ c (Proc.devRef .tc main_call0_v124)) (W23 m ρ c (Proc.devRef .tc main_call0_v125)) (W23 m ρ c (Proc.devRef .tc main_call0_v126))) : (⟨S100000x128, .f32⟩ : BufTy).Contents (Elt Ideal))).result (W23 m ρ c) := by
  unfold W24
  exact Cert.Lib.withArrays_eq_result spec11 launch11.win.arr_inj c (W23 m ρ c) _ _ 3 rfl
    ((final11 (V23 m ρ) c).trans (StableHlo.nullary_result main_call0_v127 _ _ (W23 m ρ c)).symm)
    (fun w hw => by
      match w, hw with
      | 0, _ => exact ((dat11 (V23 m ρ) c).arrAt_in 0 rfl _).trans (A_eq11 (V23 m ρ) c 0)
      | 1, _ => exact ((dat11 (V23 m ρ) c).arrAt_in 1 rfl _).trans (A_eq11 (V23 m ρ) c 1)
      | 2, _ => exact ((dat11 (V23 m ρ) c).arrAt_in 2 rfl _).trans (A_eq11 (V23 m ρ) c 2)
      | 3, hw => exact absurd rfl hw
      | ⟨_ + 4, h⟩, _ => exact absurd h (Nat.not_lt.2 (Nat.le_add_left _ _)))

set_option maxHeartbeats 4000000 in
/-- Region 12 acts on the core's buffer contents as one operation: its output array takes the stage's value of its
    input arrays, every other buffer keeps its contents. -/
theorem W26_eq (c : Dev nD) :
    W26 m ρ c = (StableHlo.nullary (τ := τ) main_call0_v129
      ((projG (W25 m ρ c (Proc.devRef .tc main_call0_v112)) (W25 m ρ c (Proc.devRef .tc main_call0_v128)) (W25 m ρ c (Proc.devRef .tc main_arg24))) : (⟨S100000x128, .f32⟩ : BufTy).Contents (Elt Ideal))).result (W25 m ρ c) := by
  unfold W26
  exact Cert.Lib.withArrays_eq_result spec12 launch12.win.arr_inj c (W25 m ρ c) _ _ 3 rfl
    ((final12 (V25 m ρ) c).trans (StableHlo.nullary_result main_call0_v129 _ _ (W25 m ρ c)).symm)
    (fun w hw => by
      match w, hw with
      | 0, _ => exact ((dat12 (V25 m ρ) c).arrAt_in 0 rfl _).trans (A_eq12 (V25 m ρ) c 0)
      | 1, _ => exact ((dat12 (V25 m ρ) c).arrAt_in 1 rfl _).trans (A_eq12 (V25 m ρ) c 1)
      | 2, _ => exact ((dat12 (V25 m ρ) c).arrAt_in 2 rfl _).trans (A_eq12 (V25 m ρ) c 2)
      | 3, hw => exact absurd rfl hw
      | ⟨_ + 4, h⟩, _ => exact absurd h (Nat.not_lt.2 (Nat.le_add_left _ _)))

set_option maxHeartbeats 4000000 in
/-- Region 13 acts on the core's buffer contents as one operation: its output array takes the stage's value of its
    input arrays, every other buffer keeps its contents. -/
theorem W28_eq (c : Dev nD) :
    W28 m ρ c = (StableHlo.nullary (τ := τ) main_call0_v141
      ((projG (W27 m ρ c (Proc.devRef .tc main_call0_v127)) (W27 m ρ c (Proc.devRef .tc main_call0_v140)) (W27 m ρ c (Proc.devRef .tc main_arg28))) : (⟨S100000x128, .f32⟩ : BufTy).Contents (Elt Ideal))).result (W27 m ρ c) := by
  unfold W28
  exact Cert.Lib.withArrays_eq_result spec13 launch13.win.arr_inj c (W27 m ρ c) _ _ 3 rfl
    ((final13 (V27 m ρ) c).trans (StableHlo.nullary_result main_call0_v141 _ _ (W27 m ρ c)).symm)
    (fun w hw => by
      match w, hw with
      | 0, _ => exact ((dat13 (V27 m ρ) c).arrAt_in 0 rfl _).trans (A_eq13 (V27 m ρ) c 0)
      | 1, _ => exact ((dat13 (V27 m ρ) c).arrAt_in 1 rfl _).trans (A_eq13 (V27 m ρ) c 1)
      | 2, _ => exact ((dat13 (V27 m ρ) c).arrAt_in 2 rfl _).trans (A_eq13 (V27 m ρ) c 2)
      | 3, hw => exact absurd rfl hw
      | ⟨_ + 4, h⟩, _ => exact absurd h (Nat.not_lt.2 (Nat.le_add_left _ _)))

set_option maxHeartbeats 4000000 in
/-- Region 14 acts on the core's buffer contents as one operation: its output array takes the stage's value of its
    input arrays, every other buffer keeps its contents. -/
theorem W30_eq (c : Dev nD) :
    W30 m ρ c = (StableHlo.nullary (τ := τ) main_v0_0
      ((dualLinG (W29 m ρ c (Proc.devRef .tc main_call0_v139)) (W29 m ρ c (Proc.devRef .tc main_call0_v152)) (W29 m ρ c (Proc.devRef .tc main_call0_v154)) (W29 m ρ c (Proc.devRef .tc main_call0_v151)) (W29 m ρ c (Proc.devRef .tc main_call0_v153)) (W29 m ρ c (Proc.devRef .tc main_call0_v155))) : (⟨S100000x128, .f32⟩ : BufTy).Contents (Elt Ideal))).result (W29 m ρ c) := by
  unfold W30
  exact Cert.Lib.withArrays_eq_result spec14 launch14.win.arr_inj c (W29 m ρ c) _ _ 6 rfl
    ((final14 (V29 m ρ) c).trans (StableHlo.nullary_result main_v0_0 _ _ (W29 m ρ c)).symm)
    (fun w hw => by
      match w, hw with
      | 0, _ => exact ((dat14 (V29 m ρ) c).arrAt_in 0 rfl _).trans (A_eq14 (V29 m ρ) c 0)
      | 1, _ => exact ((dat14 (V29 m ρ) c).arrAt_in 1 rfl _).trans (A_eq14 (V29 m ρ) c 1)
      | 2, _ => exact ((dat14 (V29 m ρ) c).arrAt_in 2 rfl _).trans (A_eq14 (V29 m ρ) c 2)
      | 3, _ => exact ((dat14 (V29 m ρ) c).arrAt_in 3 rfl _).trans (A_eq14 (V29 m ρ) c 3)
      | 4, _ => exact ((dat14 (V29 m ρ) c).arrAt_in 4 rfl _).trans (A_eq14 (V29 m ρ) c 4)
      | 5, _ => exact ((dat14 (V29 m ρ) c).arrAt_in 5 rfl _).trans (A_eq14 (V29 m ρ) c 5)
      | 6, hw => exact absurd rfl hw
      | ⟨_ + 7, h⟩, _ => exact absurd h (Nat.not_lt.2 (Nat.le_add_left _ _)))

set_option maxHeartbeats 4000000 in
/-- Region 15 acts on the core's buffer contents as one operation: its output array takes the stage's value of its
    input arrays, every other buffer keeps its contents. -/
theorem W32_eq (c : Dev nD) :
    W32 m ρ c = (StableHlo.nullary (τ := τ) main_call0_v158
      ((projG (W31 m ρ c (Proc.devRef .tc main_call0_v112)) (W31 m ρ c (Proc.devRef .tc main_call0_v157)) (W31 m ρ c (Proc.devRef .tc main_arg26))) : (⟨S100000x128, .f32⟩ : BufTy).Contents (Elt Ideal))).result (W31 m ρ c) := by
  unfold W32
  exact Cert.Lib.withArrays_eq_result spec15 launch15.win.arr_inj c (W31 m ρ c) _ _ 3 rfl
    ((final15 (V31 m ρ) c).trans (StableHlo.nullary_result main_call0_v158 _ _ (W31 m ρ c)).symm)
    (fun w hw => by
      match w, hw with
      | 0, _ => exact ((dat15 (V31 m ρ) c).arrAt_in 0 rfl _).trans (A_eq15 (V31 m ρ) c 0)
      | 1, _ => exact ((dat15 (V31 m ρ) c).arrAt_in 1 rfl _).trans (A_eq15 (V31 m ρ) c 1)
      | 2, _ => exact ((dat15 (V31 m ρ) c).arrAt_in 2 rfl _).trans (A_eq15 (V31 m ρ) c 2)
      | 3, hw => exact absurd rfl hw
      | ⟨_ + 4, h⟩, _ => exact absurd h (Nat.not_lt.2 (Nat.le_add_left _ _)))

set_option maxHeartbeats 4000000 in
/-- Region 16 acts on the core's buffer contents as one operation: its output array takes the stage's value of its
    input arrays, every other buffer keeps its contents. -/
theorem W34_eq (c : Dev nD) :
    W34 m ρ c = (StableHlo.nullary (τ := τ) main_v0_1
      ((postLinG (W33 m ρ c (Proc.devRef .tc main_call0_v168)) (W33 m ρ c (Proc.devRef .tc main_call0_v169)) (W33 m ρ c (Proc.devRef .tc main_call0_v170))) : (⟨S100000x128, .f32⟩ : BufTy).Contents (Elt Ideal))).result (W33 m ρ c) := by
  unfold W34
  exact Cert.Lib.withArrays_eq_result spec16 launch16.win.arr_inj c (W33 m ρ c) _ _ 3 rfl
    ((final16 (V33 m ρ) c).trans (StableHlo.nullary_result main_v0_1 _ _ (W33 m ρ c)).symm)
    (fun w hw => by
      match w, hw with
      | 0, _ => exact ((dat16 (V33 m ρ) c).arrAt_in 0 rfl _).trans (A_eq16 (V33 m ρ) c 0)
      | 1, _ => exact ((dat16 (V33 m ρ) c).arrAt_in 1 rfl _).trans (A_eq16 (V33 m ρ) c 1)
      | 2, _ => exact ((dat16 (V33 m ρ) c).arrAt_in 2 rfl _).trans (A_eq16 (V33 m ρ) c 2)
      | 3, hw => exact absurd rfl hw
      | ⟨_ + 4, h⟩, _ => exact absurd h (Nat.not_lt.2 (Nat.le_add_left _ _)))

/-! ## The run, with the result buffers kept -/

set_option backward.isDefEq.respectTransparency.types false in
/-- Every weakly fair execution of the kernel program terminates, nothing faulting; the two result buffers end at the
    contents the fold through the program's segments gives them, and the argument arrays end as launched. -/
theorem run_W : θ_run defs (onTc (τ := τ) (main (F := Ideal))) ⟨m, fun _ => 0, ρ⟩ (fun r => ∀ c : Dev nD,
      r.2.mem ((c.tc : Thread nD τ).loc main_v0_0) = W34 m ρ c (Proc.devRef .tc main_v0_0)
      ∧ r.2.mem ((c.tc : Thread nD τ).loc main_v0_1) = W34 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c),
       (h c _ (mem_uc main_arg11 (by decide))).trans (W34_main_arg11 m ρ c),
       (h c _ (mem_uc main_arg12 (by decide))).trans (W34_main_arg12 m ρ c),
       (h c _ (mem_uc main_arg13 (by decide))).trans (W34_main_arg13 m ρ c),
       (h c _ (mem_uc main_arg14 (by decide))).trans (W34_main_arg14 m ρ c),
       (h c _ (mem_uc main_arg15 (by decide))).trans (W34_main_arg15 m ρ c),
       (h c _ (mem_uc main_arg16 (by decide))).trans (W34_main_arg16 m ρ c),
       (h c _ (mem_uc main_arg17 (by decide))).trans (W34_main_arg17 m ρ c),
       (h c _ (mem_uc main_arg18 (by decide))).trans (W34_main_arg18 m ρ c),
       (h c _ (mem_uc main_arg19 (by decide))).trans (W34_main_arg19 m ρ c),
       (h c _ (mem_uc main_arg20 (by decide))).trans (W34_main_arg20 m ρ c),
       (h c _ (mem_uc main_arg21 (by decide))).trans (W34_main_arg21 m ρ c),
       (h c _ (mem_uc main_arg22 (by decide))).trans (W34_main_arg22 m ρ c),
       (h c _ (mem_uc main_arg23 (by decide))).trans (W34_main_arg23 m ρ c),
       (h c _ (mem_uc main_arg24 (by decide))).trans (W34_main_arg24 m ρ c),
       (h c _ (mem_uc main_arg25 (by decide))).trans (W34_main_arg25 m ρ c),
       (h c _ (mem_uc main_arg26 (by decide))).trans (W34_main_arg26 m ρ c),
       (h c _ (mem_uc main_arg27 (by decide))).trans (W34_main_arg27 m ρ c),
       (h c _ (mem_uc main_arg28 (by decide))).trans (W34_main_arg28 m ρ c),
       (h c _ (mem_uc main_arg29 (by decide))).trans (W34_main_arg29 m ρ c)⟩)

end Cert.HetGCN

end
-- ==== Proof.KRunB.lean ====
/-
  The kernel program's result buffers, read as the network over the kernel's stages.

  After the program, the core's buffer contents are the launch contents pushed through the program's segments: a
  stretch of array operations applies them one by one; a region acts as ONE operation that writes its output array
  with the stage's value of its input arrays and keeps everything else.  Reading a result buffer back through this
  line — each buffer at the value its last writer gave it, the writer's operands read back in turn — ends at the
  argument arrays and spells the composition of Net.lean over the kernel's stages: the embeddings, then per layer the
  three projections with their edge aggregations and the two post-processes, the degree vectors computed once and read
  by every layer.
-/
import proofs.«132856_j71648644432155_2_alg».proof.Proof.Gen.KernelIdeal.Frame
import proofs.«132856_j71648644432155_2_alg».proof.Proof.KRunA
import proofs.«132856_j71648644432155_2_alg».proof.Proof.KerStages

set_option maxRecDepth 16384

noncomputable section

namespace Cert.HetGCN

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GCN Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The result buffers, read through the program -/

/-- The kernel's argument arrays at launch, on core `c`. -/
def kerArgs (c : Dev nD) : Args where
  fu := m ((c.tc : Thread nD τ).loc main_arg0)
  fi := m ((c.tc : Thread nD τ).loc main_arg1)
  suu := m ((c.tc : Thread nD τ).loc main_arg2)
  duu := m ((c.tc : Thread nD τ).loc main_arg3)
  sui := m ((c.tc : Thread nD τ).loc main_arg4)
  dui := m ((c.tc : Thread nD τ).loc main_arg5)
  siu := m ((c.tc : Thread nD τ).loc main_arg6)
  diu := m ((c.tc : Thread nD τ).loc main_arg7)
  Weu := m ((c.tc : Thread nD τ).loc main_arg8)
  beu := m ((c.tc : Thread nD τ).loc main_arg9)
  Wei := m ((c.tc : Thread nD τ).loc main_arg10)
  bei := m ((c.tc : Thread nD τ).loc main_arg11)
  W0uu := m ((c.tc : Thread nD τ).loc main_arg12)
  b0uu := m ((c.tc : Thread nD τ).loc main_arg13)
  W0ui := m ((c.tc : Thread nD τ).loc main_arg14)
  b0ui := m ((c.tc : Thread nD τ).loc main_arg15)
  W0iu := m ((c.tc : Thread nD τ).loc main_arg16)
  b0iu := m ((c.tc : Thread nD τ).loc main_arg17)
  W1uu := m ((c.tc : Thread nD τ).loc main_arg18)
  b1uu := m ((c.tc : Thread nD τ).loc main_arg19)
  W1ui := m ((c.tc : Thread nD τ).loc main_arg20)
  b1ui := m ((c.tc : Thread nD τ).loc main_arg21)
  W1iu := m ((c.tc : Thread nD τ).loc main_arg22)
  b1iu := m ((c.tc : Thread nD τ).loc main_arg23)
  W2uu := m ((c.tc : Thread nD τ).loc main_arg24)
  b2uu := m ((c.tc : Thread nD τ).loc main_arg25)
  W2ui := m ((c.tc : Thread nD τ).loc main_arg26)
  b2ui := m ((c.tc : Thread nD τ).loc main_arg27)
  W2iu := m ((c.tc : Thread nD τ).loc main_arg28)
  b2iu := m ((c.tc : Thread nD τ).loc main_arg29)

set_option maxRecDepth 65536 in
set_option maxHeartbeats 800000000 in
/-- The first result buffer ends at the network's user output over the kernel's stages. -/
theorem ker_out0 (c : Dev nD) : W34 m ρ c (Proc.devRef .tc main_v0_0) = kerStages.out0 (kerArgs m c) := by
  simp (disch := decide) only [Stages.out0, Stages.out1, Stages.huLast, Stages.hiLast, Stages.hu1, Stages.hi1, Stages.hu0, Stages.hi0, Stages.eu, Stages.ei,
      Stages.huNext, Stages.hiNext, Stages.msg, kerStages, kerArgs, kcol, krow, W2_eq, W4_eq, W6_eq, W8_eq, W10_eq, W12_eq, W14_eq, W16_eq, W18_eq, W20_eq, W22_eq, W24_eq, W26_eq, W28_eq, W30_eq, W32_eq, W34_eq, W1, W3, W5, W7, W9, W11, W13, W15, W17, W19, W21, W23, W25, W27, W29, W31, W33, hostOps0, hostOps1, hostOps2, hostOps3, hostOps4, hostOps5, hostOps6, hostOps7, hostOps8, hostOps9, hostOps10, hostOps11, hostOps12, hostOps13, hostOps14, hostOps15, hostOps16,
      StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  rfl

set_option maxRecDepth 65536 in
set_option maxHeartbeats 800000000 in
/-- The second result buffer ends at the network's item output over the kernel's stages. -/
theorem ker_out1 (c : Dev nD) : W34 m ρ c (Proc.devRef .tc main_v0_1) = kerStages.out1 (kerArgs m c) := by
  simp (disch := decide) only [Stages.out0, Stages.out1, Stages.huLast, Stages.hiLast, Stages.hu1, Stages.hi1, Stages.hu0, Stages.hi0, Stages.eu, Stages.ei,
      Stages.huNext, Stages.hiNext, Stages.msg, kerStages, kerArgs, kcol, krow, W2_eq, W4_eq, W6_eq, W8_eq, W10_eq, W12_eq, W14_eq, W16_eq, W18_eq, W20_eq, W22_eq, W24_eq, W26_eq, W28_eq, W30_eq, W32_eq, W34_eq, W1, W3, W5, W7, W9, W11, W13, W15, W17, W19, W21, W23, W25, W27, W29, W31, W33, hostOps0, hostOps1, hostOps2, hostOps3, hostOps4, hostOps5, hostOps6, hostOps7, hostOps8, hostOps9, hostOps10, hostOps11, hostOps12, hostOps13, hostOps14, hostOps15, hostOps16,
      StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  rfl

/-- The kernel program's run: the results at the network over the kernel's stages, the arguments unchanged. -/
theorem ker_run : θ_run defs (onTc (τ := τ) (main (F := Ideal))) ⟨m, fun _ => 0, ρ⟩ (fun r => ∀ c : Dev nD,
      r.2.mem ((c.tc : Thread nD τ).loc main_v0_0) = kerStages.out0 (kerArgs m c)
      ∧ r.2.mem ((c.tc : Thread nD τ).loc main_v0_1) = kerStages.out1 (kerArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h c).1.trans (ker_out0 m ρ c), (h c).2.1.trans (ker_out1 m ρ c), (h c).2.2⟩) (run_W m ρ)

end Cert.HetGCN

end
-- ==== Proof.RefStages.lean ====
/-
  The stages of the network as the reference program computes them, and the reference's results as their composition.

  Every stage is an array expression: the dense stages broadcast the per-node scale along a row's entries and the bias
  along the rows, multiply and add entry by entry, multiply matrices, and take the maximum with zero.  The reference
  recomputes a relation's degree vectors in every layer; as expressions of the arguments they are the same, so its two
  results are the composition of Net.lean over these stages.
-/
import proofs.«132856_j71648644432155_2_alg».proof.Proof.RefRunP
import proofs.«132856_j71648644432155_2_alg».proof.Proof.Net

set_option maxRecDepth 65536

noncomputable section

namespace Cert.HetGCN

open Idealize.ShloMosaic Idealize.ShloMosaic.TcCoe Cert.GCN Cert.ReferenceIdeal Cert.ReferenceIdeal.Gen

/-- The stages as the reference program computes them. -/
def refStages : Stages where
  deg idx := Host.rsqrt (maximumf (F := Ideal) (φ := .f32) (broadcastInDim S100000 ![] bcast_S_S100000 (id (constant (F := Ideal) S_ .f32 0x3F800000#32)))
    (Host.scatterAdd scatter_S100000_S500000x1_S500000_n_0_0_1 (broadcastInDim S100000 ![] bcast_S_S100000 (constant (F := Ideal) S_ .f32 0x00000000#32))
      (broadcastInDim S500000x1 ![0] bcast_S500000_S500000x1_0 idx) (broadcastInDim S500000 ![] bcast_S_S500000 (constant (F := Ideal) S_ .f32 0x3F800000#32))))
  agg H src dst := Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 dst)
    (Host.gather gather_S100000x128_S500000x1_S500000x128_1_0_n_n_0_1_1128 H
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 100000#32))) src)))
  embU X W b := addf (F := Ideal) (φ := .f32) (Host.dotGeneral (φ₁ := .f32) (φ₂ := .f32) dot_S100000x256_S256x128_S100000x128_1_0_0_1_n_n none X W)
    (broadcastInDim S100000x128 ![0, 1] bcast_S1x128_S100000x128_0_1 (broadcastInDim S1x128 ![1] bcast_S128_S1x128_1 b))
  embI X W b := addf (F := Ideal) (φ := .f32) (Host.dotGeneral (φ₁ := .f32) (φ₂ := .f32) dot_S100000x300_S300x128_S100000x128_1_0_0_1_n_n none X W)
    (broadcastInDim S100000x128 ![0, 1] bcast_S1x128_S100000x128_0_1 (broadcastInDim S1x128 ![1] bcast_S128_S1x128_1 b))
  proj X s W := Host.dotGeneral (φ₁ := .f32) (φ₂ := .f32) dot_S100000x128_S128x128_S100000x128_1_0_0_1_n_n none
    (mulf (F := Ideal) (φ := .f32) X (broadcastInDim S100000x128 ![0, 1] bcast_S100000x1_S100000x128_0_1 (broadcastInDim S100000x1 ![0] bcast_S100000_S100000x1_0 s))) W
  post M s b := maximumf (F := Ideal) (φ := .f32)
    (addf (F := Ideal) (φ := .f32) (mulf (F := Ideal) (φ := .f32) M (broadcastInDim S100000x128 ![0, 1] bcast_S100000x1_S100000x128_0_1 (broadcastInDim S100000x1 ![0] bcast_S100000_S100000x1_0 s)))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))
  postLin M s b :=
    addf (F := Ideal) (φ := .f32) (mulf (F := Ideal) (φ := .f32) M (broadcastInDim S100000x128 ![0, 1] bcast_S100000x1_S100000x128_0_1 (broadcastInDim S100000x1 ![0] bcast_S100000_S100000x1_0 s)))
      (broadcastInDim S100000x128 ![0, 1] bcast_S1x128_S100000x128_0_1 (broadcastInDim S1x128 ![1] bcast_S128_S1x128_1 b))
  dual M1 s1 b1 M2 s2 b2 := addf (F := Ideal) (φ := .f32)
    (maximumf (F := Ideal) (φ := .f32)
      (addf (F := Ideal) (φ := .f32) (mulf (F := Ideal) (φ := .f32) M1 (broadcastInDim S100000x128 ![0, 1] bcast_S100000x1_S100000x128_0_1 (broadcastInDim S100000x1 ![0] bcast_S100000_S100000x1_0 s1)))
        (broadcastInDim S100000x128 ![0, 1] bcast_S1x128_S100000x128_0_1 (broadcastInDim S1x128 ![1] bcast_S128_S1x128_1 b1)))
      (broadcastInDim S100000x128 ![] bcast_S_S100000x128 (constant (F := Ideal) S_ .f32 0x00000000#32)))
    (maximumf (F := Ideal) (φ := .f32)
      (addf (F := Ideal) (φ := .f32) (mulf (F := Ideal) (φ := .f32) M2 (broadcastInDim S100000x128 ![0, 1] bcast_S100000x1_S100000x128_0_1 (broadcastInDim S100000x1 ![0] bcast_S100000_S100000x1_0 s2)))
        (broadcastInDim S100000x128 ![0, 1] bcast_S1x128_S100000x128_0_1 (broadcastInDim S1x128 ![1] bcast_S128_S1x128_1 b2)))
      (broadcastInDim S100000x128 ![] bcast_S_S100000x128 (constant (F := Ideal) S_ .f32 0x00000000#32)))
  dualLin M1 s1 b1 M2 s2 b2 := addf (F := Ideal) (φ := .f32)
    (addf (F := Ideal) (φ := .f32) (mulf (F := Ideal) (φ := .f32) M1 (broadcastInDim S100000x128 ![0, 1] bcast_S100000x1_S100000x128_0_1 (broadcastInDim S100000x1 ![0] bcast_S100000_S100000x1_0 s1)))
      (broadcastInDim S100000x128 ![0, 1] bcast_S1x128_S100000x128_0_1 (broadcastInDim S1x128 ![1] bcast_S128_S1x128_1 b1)))
    (addf (F := Ideal) (φ := .f32) (mulf (F := Ideal) (φ := .f32) M2 (broadcastInDim S100000x128 ![0, 1] bcast_S100000x1_S100000x128_0_1 (broadcastInDim S100000x1 ![0] bcast_S100000_S100000x1_0 s2)))
      (broadcastInDim S100000x128 ![0, 1] bcast_S1x128_S100000x128_0_1 (broadcastInDim S1x128 ![1] bcast_S128_S1x128_1 b2)))

/-- The reference's argument arrays at launch, on core `c`. -/
def refArgs (m : (ℓ : Loc nD τ sig) → Buf (Elt Ideal) ℓ) (c : Dev nD) : Args where
  fu := m ((c.tc : Thread nD τ).loc main_arg0)
  fi := m ((c.tc : Thread nD τ).loc main_arg1)
  suu := m ((c.tc : Thread nD τ).loc main_arg2)
  duu := m ((c.tc : Thread nD τ).loc main_arg3)
  sui := m ((c.tc : Thread nD τ).loc main_arg4)
  dui := m ((c.tc : Thread nD τ).loc main_arg5)
  siu := m ((c.tc : Thread nD τ).loc main_arg6)
  diu := m ((c.tc : Thread nD τ).loc main_arg7)
  Weu := m ((c.tc : Thread nD τ).loc main_arg8)
  beu := m ((c.tc : Thread nD τ).loc main_arg9)
  Wei := m ((c.tc : Thread nD τ).loc main_arg10)
  bei := m ((c.tc : Thread nD τ).loc main_arg11)
  W0uu := m ((c.tc : Thread nD τ).loc main_arg12)
  b0uu := m ((c.tc : Thread nD τ).loc main_arg13)
  W0ui := m ((c.tc : Thread nD τ).loc main_arg14)
  b0ui := m ((c.tc : Thread nD τ).loc main_arg15)
  W0iu := m ((c.tc : Thread nD τ).loc main_arg16)
  b0iu := m ((c.tc : Thread nD τ).loc main_arg17)
  W1uu := m ((c.tc : Thread nD τ).loc main_arg18)
  b1uu := m ((c.tc : Thread nD τ).loc main_arg19)
  W1ui := m ((c.tc : Thread nD τ).loc main_arg20)
  b1ui := m ((c.tc : Thread nD τ).loc main_arg21)
  W1iu := m ((c.tc : Thread nD τ).loc main_arg22)
  b1iu := m ((c.tc : Thread nD τ).loc main_arg23)
  W2uu := m ((c.tc : Thread nD τ).loc main_arg24)
  b2uu := m ((c.tc : Thread nD τ).loc main_arg25)
  W2ui := m ((c.tc : Thread nD τ).loc main_arg26)
  b2ui := m ((c.tc : Thread nD τ).loc main_arg27)
  W2iu := m ((c.tc : Thread nD τ).loc main_arg28)
  b2iu := m ((c.tc : Thread nD τ).loc main_arg29)

/-- The reference's first result is the network's user output over the reference's stages. -/
theorem ref_out0 (m : (ℓ : Loc nD τ sig) → Buf (Elt Ideal) ℓ) (c : Dev nD) :
    Cert.ReferenceIdeal.ValueP.res_main_v264 (F := Ideal) m c = refStages.out0 (refArgs m c) := by
  unfold Cert.ReferenceIdeal.ValueP.res_main_v264
  simp only [Stages.out0, Stages.out1, Stages.huLast, Stages.hiLast, Stages.hu1, Stages.hi1, Stages.hu0, Stages.hi0, Stages.eu, Stages.ei,
    Stages.huNext, Stages.hiNext, Stages.msg, refStages, refArgs]

/-- The reference's second result is the network's item output over the reference's stages. -/
theorem ref_out1 (m : (ℓ : Loc nD τ sig) → Buf (Elt Ideal) ℓ) (c : Dev nD) :
    Cert.ReferenceIdeal.ValueP.res_main_v295 (F := Ideal) m c = refStages.out1 (refArgs m c) := by
  unfold Cert.ReferenceIdeal.ValueP.res_main_v295
  simp only [Stages.out0, Stages.out1, Stages.huLast, Stages.hiLast, Stages.hu1, Stages.hi1, Stages.hu0, Stages.hi0, Stages.eu, Stages.ei,
    Stages.huNext, Stages.hiNext, Stages.msg, refStages, refArgs]

end Cert.HetGCN

end
-- ==== Proof.Bridge.lean ====
/-
  Two spellings of each dense stage agree at the ideal values.

  One spelling is the row-local operation of Ops.lean applied to a one-column array (the per-node scale reshaped to a
  column) and a one-row array (the bias reshaped to a row).  The other is the array expression a dense program
  writes: the scale broadcast along the rows' entries, the bias broadcast along the rows, an entrywise product and sum,
  a matrix product, a maximum with zero.  Entry (r, q) of both is the same expression of X[r, ·], s[r], b[q], W[·, q]:
  a reshape to a column or a row and a broadcast out of it both read the vector at the surviving coordinate.
-/
import Idealize.ShloMosaic.PureOps.Ideal.Laws
import Idealize.ShloMosaic.Lib.ValueIdx
import Idealize.ShloMosaic.Lib.Pipeline.Value
import Idealize.ShloMosaic.Lib.ValueLayout
import proofs.«132856_j71648644432155_2_alg».proof.Proof.Ops
import proofs.«132856_j71648644432155_2_alg».proof.Proof.Net

open scoped BigOperators

noncomputable section

namespace Cert.HetGCN

open Idealize.ShloMosaic Idealize.ShloMosaic.ValueIdx Cert.GCN

variable {α : Type}

/-! ## Vectors as columns and rows, read at an entry -/

/-- An `[a]` array cast to a column `[a, 1]` reads, at `(r, u)`, the operand at `r`. -/
theorem col_cast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `[a]` array broadcast to a column `[a, 1]` along axis 0 reads, at `(r, u)`, the operand at `r`. -/
theorem col_bcast_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast to `[a, b]` reads, at `(r, q)`, the column at `r`. -/
theorem col_spread_apply {a b : ℕ} (v : (⟨2, ![a, 1]⟩ : Shape).Idx → α)
    (h : (⟨2, ![a, 1]⟩ : Shape).BroadcastsInDim ⟨2, ![a, b]⟩ (![0, 1] : Fin 2 → Fin 2)) (r : Fin a) (q : Fin b) :
    broadcastInDim ⟨2, ![a, b]⟩ (![0, 1] : Fin 2 → Fin 2) h v (ix2 r q) = v (ix2 r (0 : Fin 1)) := by
  refine broadcastInDim_apply _ h v (ix2 r q) (ix2 r (0 : Fin 1)) fun ax => ?_
  match ax with
  | ⟨0, _⟩ =>
    show r.val = if a = 1 then 0 else r.val
    split
    · have := r.isLt; omega
    · rfl
  | ⟨1, _⟩ => rfl

/-- A `[b]` array broadcast to a row `[1, b]` along axis 1 reads, at `(u, q)`, the operand at `q`. -/
theorem row_bcast_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` broadcast to `[a, b]` reads, at `(r, q)`, the row at `q`. -/
theorem row_spread_apply {a b : ℕ} (v : (⟨2, ![1, b]⟩ : Shape).Idx → α)
    (h : (⟨2, ![1, b]⟩ : Shape).BroadcastsInDim ⟨2, ![a, b]⟩ (![0, 1] : Fin 2 → Fin 2)) (r : Fin a) (q : Fin b) :
    broadcastInDim ⟨2, ![a, b]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

/-! ## The stages -/

section Stages

variable {n k p : ℕ}
variable (hc : (⟨1, ![n]⟩ : Shape).ShapeCasts ⟨2, ![n, 1]⟩) (hr : (⟨1, ![p]⟩ : Shape).ShapeCasts ⟨2, ![1, p]⟩)
variable (h1 : (⟨1, ![n]⟩ : Shape).BroadcastsInDim ⟨2, ![n, 1]⟩ (![0] : Fin 1 → Fin 2))
variable (g1 : (⟨1, ![p]⟩ : Shape).BroadcastsInDim ⟨2, ![1, p]⟩ (![1] : Fin 1 → Fin 2))
variable (g2 : (⟨2, ![1, p]⟩ : Shape).BroadcastsInDim ⟨2, ![n, p]⟩ (![0, 1] : Fin 2 → Fin 2))

/-- The scale as a column, read in row `r`, both ways. -/
theorem scale_entry {m : ℕ} (h2 : (⟨2, ![n, 1]⟩ : Shape).BroadcastsInDim ⟨2, ![n, m]⟩ (![0, 1] : Fin 2 → Fin 2))
    (s : (⟨1, ![n]⟩ : Shape).Idx → EReal) (r : Fin n) (d : Fin m) :
    shapeCast ⟨2, ![n, 1]⟩ s hc (ix2 r (0 : Fin 1))
      = broadcastInDim ⟨2, ![n, m]⟩ (![0, 1] : Fin 2 → Fin 2) h2 (broadcastInDim ⟨2, ![n, 1]⟩ (![0] : Fin 1 → Fin 2) h1 s) (ix2 r d) :=
  (col_cast_apply s hc r 0).trans ((col_spread_apply _ h2 r d).trans (col_bcast_apply s h1 r 0)).symm

/-- The bias as a row, read in column `q`, both ways. -/
theorem bias_entry (b : (⟨1, ![p]⟩ : Shape).Idx → EReal) (r : Fin n) (q : Fin p) :
    shapeCast ⟨2, ![1, p]⟩ b hr (ix2 (0 : Fin 1) q)
      = broadcastInDim ⟨2, ![n, p]⟩ (![0, 1] : Fin 2 → Fin 2) g2 (broadcastInDim ⟨2, ![1, p]⟩ (![1] : Fin 1 → Fin 2) g1 b) (ix2 r q) :=
  (shapeCast_a_1a_apply b hr 0 q).trans ((row_spread_apply _ g2 r q).trans (row_bcast_apply b g1 0 q)).symm

/-- The projection, both ways. -/
theorem proj_bridge (h2 : (⟨2, ![n, 1]⟩ : Shape).BroadcastsInDim ⟨2, ![n, k]⟩ (![0, 1] : Fin 2 → Fin 2))
    (X : Arr n k) (s : (⟨1, ![n]⟩ : Shape).Idx → EReal) (W : Arr k p) (sched : HostSchedule) :
    projG X (shapeCast ⟨2, ![n, 1]⟩ s hc) W
      = FloatOps.dotGeneral (φ₁ := .f32) (φ₂ := .f32) (DotDims.plain n k p) none sched
          (mulf (F := Ideal) (φ := .f32) X (broadcastInDim ⟨2, ![n, k]⟩ (![0, 1] : Fin 2 → Fin 2) h2 (broadcastInDim ⟨2, ![n, 1]⟩ (![0] : Fin 1 → Fin 2) h1 s))) W := by
  funext i
  obtain ⟨r, q, rfl⟩ : ∃ (r : Fin n) (q : Fin p), i = ix2 r q := ⟨i 0, i 1, eq_ix2 i⟩
  refine Eq.trans ?_ (Cert.LibDot.dotGeneral_plain_apply none sched _ W r q).symm
  unfold projG mm
  refine Finset.sum_congr rfl fun d _ => ?_
  show X (ix2 r d) * shapeCast ⟨2, ![n, 1]⟩ s hc (ix2 r (0 : Fin 1)) * W (ix2 d q) = _
  rw [scale_entry hc h1 h2 s r d]
  rfl

/-- The embedding, both ways. -/
theorem embed_bridge {d : ℕ} (X : Arr n d) (W : Arr d p) (b : (⟨1, ![p]⟩ : Shape).Idx → EReal) (sched : HostSchedule) :
    embedG X W (shapeCast ⟨2, ![1, p]⟩ b hr)
      = addf (F := Ideal) (φ := .f32) (FloatOps.dotGeneral (φ₁ := .f32) (φ₂ := .f32) (DotDims.plain n d p) none sched X W)
          (broadcastInDim ⟨2, ![n, p]⟩ (![0, 1] : Fin 2 → Fin 2) g2 (broadcastInDim ⟨2, ![1, p]⟩ (![1] : Fin 1 → Fin 2) g1 b)) := by
  funext i
  obtain ⟨r, q, rfl⟩ : ∃ (r : Fin n) (q : Fin p), i = ix2 r q := ⟨i 0, i 1, eq_ix2 i⟩
  show mm X W (ix2 r q) + shapeCast ⟨2, ![1, p]⟩ b hr (ix2 (0 : Fin 1) q) = _
  rw [bias_entry hr g1 g2 b r q, mm_apply, ← Cert.LibDot.dotGeneral_plain_apply none sched X W r q]
  rfl

/-- The post-process without the positive part, both ways. -/
theorem postLin_bridge (h2 : (⟨2, ![n, 1]⟩ : Shape).BroadcastsInDim ⟨2, ![n, p]⟩ (![0, 1] : Fin 2 → Fin 2))
    (M : Arr n p) (s : (⟨1, ![n]⟩ : Shape).Idx → EReal) (b : (⟨1, ![p]⟩ : Shape).Idx → EReal) :
    postLinG M (shapeCast ⟨2, ![n, 1]⟩ s hc) (shapeCast ⟨2, ![1, p]⟩ b hr)
      = addf (F := Ideal) (φ := .f32)
          (mulf (F := Ideal) (φ := .f32) M (broadcastInDim ⟨2, ![n, p]⟩ (![0, 1] : Fin 2 → Fin 2) h2 (broadcastInDim ⟨2, ![n, 1]⟩ (![0] : Fin 1 → Fin 2) h1 s)))
          (broadcastInDim ⟨2, ![n, p]⟩ (![0, 1] : Fin 2 → Fin 2) g2 (broadcastInDim ⟨2, ![1, p]⟩ (![1] : Fin 1 → Fin 2) g1 b)) := by
  funext i
  obtain ⟨r, q, rfl⟩ : ∃ (r : Fin n) (q : Fin p), i = ix2 r q := ⟨i 0, i 1, eq_ix2 i⟩
  show M (ix2 r q) * shapeCast ⟨2, ![n, 1]⟩ s hc (ix2 r (0 : Fin 1)) + shapeCast ⟨2, ![1, p]⟩ b hr (ix2 (0 : Fin 1) q) = _
  rw [scale_entry hc h1 h2 s r q, bias_entry hr g1 g2 b r q]
  rfl

/-- The post-process, both ways: the positive part is the maximum with an array of zeros. -/
theorem post_bridge (h2 : (⟨2, ![n, 1]⟩ : Shape).BroadcastsInDim ⟨2, ![n, p]⟩ (![0, 1] : Fin 2 → Fin 2))
    (g0 : (⟨0, ![]⟩ : Shape).BroadcastsInDim ⟨2, ![n, p]⟩ (![] : Fin 0 → Fin 2))
    (M : Arr n p) (s : (⟨1, ![n]⟩ : Shape).Idx → EReal) (b : (⟨1, ![p]⟩ : Shape).Idx → EReal) :
    postG M (shapeCast ⟨2, ![n, 1]⟩ s hc) (shapeCast ⟨2, ![1, p]⟩ b hr)
      = maximumf (F := Ideal) (φ := .f32)
          (addf (F := Ideal) (φ := .f32)
            (mulf (F := Ideal) (φ := .f32) M (broadcastInDim ⟨2, ![n, p]⟩ (![0, 1] : Fin 2 → Fin 2) h2 (broadcastInDim ⟨2, ![n, 1]⟩ (![0] : Fin 1 → Fin 2) h1 s)))
            (broadcastInDim ⟨2, ![n, p]⟩ (![0, 1] : Fin 2 → Fin 2) g2 (broadcastInDim ⟨2, ![1, p]⟩ (![1] : Fin 1 → Fin 2) g1 b)))
          (broadcastInDim ⟨2, ![n, p]⟩ (![] : Fin 0 → Fin 2) g0 (constant (F := Ideal) ⟨0, ![]⟩ .f32 0x00000000#32)) := by
  unfold postG reluA
  rw [postLin_bridge hc hr h1 g1 g2 h2 M s b]
  rfl

end Stages

end Cert.HetGCN

end
-- ==== Proof.StagesEq.lean ====
/-
  The kernel's stages are the reference's stages.

  The degree vectors and the edge aggregation are the same array expressions in both programs.  Each dense stage of
  the kernel — a row-local operation on the scale as a column and the bias as a row — is the reference's array
  expression of the same stage, entry by entry (Bridge.lean).
-/
import proofs.«132856_j71648644432155_2_alg».proof.Proof.KerStages
import proofs.«132856_j71648644432155_2_alg».proof.Proof.RefStages
import proofs.«132856_j71648644432155_2_alg».proof.Proof.Bridge

set_option maxRecDepth 16384

noncomputable section

namespace Cert.HetGCN

open Idealize.ShloMosaic Idealize.ShloMosaic.TcCoe Cert.GCN

theorem stages_eq : kerStages = refStages := by
  apply Stages.ext
  · rfl
  · rfl
  · funext X W b
    exact embed_bridge (n := 100000) (p := 128) (d := 256) _
      _ _ X W b _
  · funext X W b
    exact embed_bridge (n := 100000) (p := 128) (d := 300) _
      _ _ X W b _
  · funext X s W
    exact proj_bridge (n := 100000) (k := 128) (p := 128) _
      _ _ X s W _
  · funext M s b
    exact post_bridge (n := 100000) (p := 128) _ _
      _ _ _
      _ _ M s b
  · funext M s b
    exact postLin_bridge (n := 100000) (p := 128) _ _
      _ _ _
      _ M s b
  · funext M1 s1 b1 M2 s2 b2
    show dualG M1 (kcol s1) (krow b1) M2 (kcol s2) (krow b2) = _
    unfold dualG
    funext i
    show postG M1 (kcol s1) (krow b1) i + postG M2 (kcol s2) (krow b2) i = _
    unfold kcol krow
    rw [post_bridge (n := 100000) (p := 128) _ _
        _ _ _
        _ _ M1 s1 b1,
      post_bridge (n := 100000) (p := 128) _ _
        _ _ _
        _ _ M2 s2 b2]
    rfl
  · funext M1 s1 b1 M2 s2 b2
    show dualLinG M1 (kcol s1) (krow b1) M2 (kcol s2) (krow b2) = _
    unfold dualLinG
    funext i
    show postLinG M1 (kcol s1) (krow b1) i + postLinG M2 (kcol s2) (krow b2) i = _
    unfold kcol krow
    rw [postLin_bridge (n := 100000) (p := 128) _ _
        _ _ _
        _ M1 s1 b1,
      postLin_bridge (n := 100000) (p := 128) _ _
        _ _ _
        _ M2 s2 b2]
    rfl

end Cert.HetGCN

end
-- ==== Proof.lean ====
/-
  A heterogeneous graph network (two linear embeddings, then three layers of per-relation graph convolutions with
  symmetric degree normalisation) as a kernel program of seventeen pipelined regions among array operations, against
  the same network written as one array program.

  At the ideal values both compute the composition of Net.lean: the kernel program over its stages (KRun.lean: each
  region is one row-local operation on whole arrays, Regions*.lean; the program's result buffers read through its
  segments), the reference over its own (RefStages.lean), and the two families of stages are equal stage by stage
  (StagesEq.lean, Bridge.lean): no law beyond reading a reshape and a broadcast at an index is used, and none needs
  the inputs to be finite.  The frames are the generated ones; the kernel's idealization changes nothing
  (an empty ledger).
-/
import proofs.«132856_j71648644432155_2_alg».proof.Defs
import proofs.«132856_j71648644432155_2_alg».proof.Proof.Gen.Kernel
import proofs.«132856_j71648644432155_2_alg».proof.Proof.Gen.Kernel.Skeleton
import proofs.«132856_j71648644432155_2_alg».proof.Proof.Gen.Kernel.Launch
import proofs.«132856_j71648644432155_2_alg».proof.Proof.Gen.Kernel.Points
import proofs.«132856_j71648644432155_2_alg».proof.Proof.Gen.Kernel.Frame
import proofs.«132856_j71648644432155_2_alg».proof.Proof.Gen.KernelIdeal
import proofs.«132856_j71648644432155_2_alg».proof.Proof.Gen.KernelIdeal.Skeleton
import proofs.«132856_j71648644432155_2_alg».proof.Proof.Gen.KernelIdeal.Launch
import proofs.«132856_j71648644432155_2_alg».proof.Proof.Gen.KernelIdeal.Points
import proofs.«132856_j71648644432155_2_alg».proof.Proof.Gen.KernelIdeal.Frame
import proofs.«132856_j71648644432155_2_alg».proof.Proof.Gen.ReferenceIdeal
import proofs.«132856_j71648644432155_2_alg».proof.Proof.RefRunP
import proofs.«132856_j71648644432155_2_alg».proof.Proof.Gen.Pre_finite_inputs
import proofs.«132856_j71648644432155_2_alg».proof.Proof.KRunB
import proofs.«132856_j71648644432155_2_alg».proof.Proof.RefStages
import proofs.«132856_j71648644432155_2_alg».proof.Proof.StagesEq
import Idealize.ShloMosaic.Adequacy
import Idealize.ShloMosaic.Init

noncomputable section

namespace Cert.Proof

open Idealize.ShloMosaic Idealize.ShloMosaic.TcCoe Idealize.SL.Sem Cert.HetGCN

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- Memories that agree on the arguments give the two programs the same network arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    refArgs m' c = kerArgs m c := by
  unfold refArgs kerArgs
  rw [h0, h1, h2, h3, h4, h5, h6, h7, h8, h9, h10, h11, h12, h13, h14, h15, h16, h17, h18, h19, h20, h21, h22, h23, h24, h25, h26, h27, h28, h29]

/-- Both programs end with the network's two outputs of the (agreeing) arguments. -/
theorem algebraic : Cert.algebraic_KernelIdeal_ReferenceIdeal := by
  intro m ρ m' ρ' _ hagree
  refine ⟨fun c => kerStages.out0 (kerArgs m c), fun c => kerStages.out1 (kerArgs m c), ker_run m ρ, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13, h14, h15, h16, h17, h18, h19, h20, h21, h22, h23, h24, h25, h26, h27, h28, h29⟩ := hagree c
  have ha : refArgs m' c = kerArgs m c := args_eq m m' c h0 h1 h2 h3 h4 h5 h6 h7 h8 h9 h10 h11 h12 h13 h14 h15 h16 h17 h18 h19 h20 h21 h22 h23 h24 h25 h26 h27 h28 h29
  refine ⟨(h c).1.trans ?_, (h c).2.1.trans ?_, (h c).2.2⟩
  · rw [ref_out0, ← stages_eq, ha]
  · rw [ref_out1, ← stages_eq, ha]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
